-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v199) = v0 c
          ∧ r.2.mem ((c.tc : Thread Cert.ReferenceIdeal.nD Cert.ReferenceIdeal.τ).loc Cert.ReferenceIdeal.main_v204) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x256 : Shape := ⟨3, ![64, 512, 256]⟩
abbrev S64x512x512 : Shape := ⟨3, ![64, 512, 512]⟩
abbrev S4x256x256 : Shape := ⟨3, ![4, 256, 256]⟩
abbrev S4x256 : Shape := ⟨2, ![4, 256]⟩
abbrev S256x256 : Shape := ⟨2, ![256, 256]⟩
abbrev S256 : Shape := ⟨1, ![256]⟩
abbrev S_ : Shape := ⟨0, ![]⟩

class Facts : Prop where
  bcast_S_S64x512x256 : S_.BroadcastsInDim S64x512x256 (![] : Fin 0 → Fin S64x512x256.rank)
  reducesTo_S64x512x256_S_d0_1_2 : S64x512x256.ReducesTo [0, 1, 2] S_
  h_S_ : 0 < S_.numel
  bcast_S_S64x512x512 : S_.BroadcastsInDim S64x512x512 (![] : Fin 0 → Fin S64x512x512.rank)
  reducesTo_S64x512x512_S_d0_1_2 : S64x512x512.ReducesTo [0, 1, 2] S_
  bcast_S_S4x256x256 : S_.BroadcastsInDim S4x256x256 (![] : Fin 0 → Fin S4x256x256.rank)
  reducesTo_S4x256x256_S_d0_1_2 : S4x256x256.ReducesTo [0, 1, 2] S_
  bcast_S_S4x256 : S_.BroadcastsInDim S4x256 (![] : Fin 0 → Fin S4x256.rank)
  reducesTo_S4x256_S_d0_1 : S4x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S4x256 .f32) (main_arg8 : FVec F S256x256 .f32) (main_arg9 : FVec F S256 .f32) (main_v33 : IVec S_ 1) : IVec S_ 1 :=
  let main_v34 : FVec F S4x256 .f32 := Host.absf main_arg7
  let main_cst_12 : FVec F S_ .f32 := constant S_ .f32 0x7F800000#32
  let main_v35 : FVec F S4x256 .f32 := broadcastInDim S4x256 ![] bcast_S_S4x256 main_cst_12
  let main_v36 : IVec S4x256 1 := cmpf .olt main_v34 main_v35
  let main_c_13 : IVec S_ 1 := constantI S_ 1 1#1
  let main_v37 : IVec S_ 1 := (fun x v => Host.reduce IntOp.andi x v reducesTo_S4x256_S_d0_1 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg4 : FVec F S4x256x256 .f32) (main_arg5 : FVec F S4x256 .f32) (main_arg6 : FVec F S4x256x256 .f32) (main_arg7 : FVec F S4x256 .f32) (main_arg8 : FVec F S256x256 .f32) (main_arg9 : FVec F S256 .f32) (main_v13 : IVec S_ 1) (main_v16 : IVec S4x256 1) : IVec S_ 1 :=
  let main_c_5 : IVec S_ 1 := constantI S_ 1 1#1
  let main_v17 : IVec S_ 1 := (fun x v => Host.reduce IntOp.andi x v reducesTo_S4x256_S_d0_1 h_S_) main_v16 main_c_5
  let main_v18 : IVec S_ 1 := andi main_v13 main_v17
  let main_v19 : FVec F S4x256x256 .f32 := Host.absf main_arg4
  let main_cst_6 : FVec F S_ .f32 := constant S_ .f32 0x7F800000#32
  let main_v20 : FVec F S4x256x256 .f32 := broadcastInDim S4x256x256 ![] bcast_S_S4x256x256 main_cst_6
  let main_v21 : IVec S4x256x256 1 := cmpf .olt main_v19 main_v20
  let main_c_7 : IVec S_ 1 := constantI S_ 1 1#1
  let main_v22 : IVec S_ 1 := (fun x v => Host.reduce IntOp.andi x v reducesTo_S4x256x256_S_d0_1_2 h_S_) main_v21 main_c_7
  let main_v23 : IVec S_ 1 := andi main_v18 main_v22
  let main_v24 : FVec F S4x256 .f32 := Host.absf main_arg5
  let main_cst_8 : FVec F S_ .f32 := constant S_ .f32 0x7F800000#32
  let main_v25 : FVec F S4x256 .f32 := broadcastInDim S4x256 ![] bcast_S_S4x256 main_cst_8
  let main_v26 : IVec S4x256 1 := cmpf .olt main_v24 main_v25
  let main_c_9 : IVec S_ 1 := constantI S_ 1 1#1
  let main_v27 : IVec S_ 1 := (fun x v => Host.reduce IntOp.andi x v reducesTo_S4x256_S_d0_1 h_S_) main_v26 main_c_9
  let main_v28 : IVec S_ 1 := andi main_v23 main_v27
  let main_v29 : FVec F S4x256x256 .f32 := Host.absf main_arg6
  let main_cst_10 : FVec F S_ .f32 := constant S_ .f32 0x7F800000#32
  let main_v30 : FVec F S4x256x256 .f32 := broadcastInDim S4x256x256 ![] bcast_S_S4x256x256 main_cst_10
  let main_v31 : IVec S4x256x256 1 := cmpf .olt main_v29 main_v30
  let main_c_11 : IVec S_ 1 := constantI S_ 1 1#1
  let main_v32 : IVec S_ 1 := (fun x v => Host.reduce IntOp.andi x v reducesTo_S4x256x256_S_d0_1_2 h_S_) main_v31 main_c_11
  let main_v33 : IVec S_ 1 := andi main_v28 main_v32
  fn_part2 (F := F) main_arg7 main_arg8 main_arg9 main_v33

def fn {F : FTy → Type} [FloatOps F] (main_arg0 : FVec F S64x512x256 .f32) (main_arg1 : FVec F S64x512x512 .f32) (main_arg2 : FVec F S4x256x256 .f32) (main_arg3 : FVec F S4x256 .f32) (main_arg4 : FVec F S4x256x256 .f32) (main_arg5 : FVec F S4x256 .f32) (main_arg6 : FVec F S4x256x256 .f32) (main_arg7 : FVec F S4x256 .f32) (main_arg8 : FVec F S256x256 .f32) (main_arg9 : FVec F S256 .f32) : IVec S_ 1 :=
  let main_v0 : FVec F S64x512x256 .f32 := Host.absf main_arg0
  let main_cst : FVec F S_ .f32 := constant S_ .f32 0x7F800000#32
  let main_v1 : FVec F S64x512x256 .f32 := broadcastInDim S64x512x256 ![] bcast_S_S64x512x256 main_cst
  let main_v2 : IVec S64x512x256 1 := cmpf .olt main_v0 main_v1
  let main_c : IVec S_ 1 := constantI S_ 1 1#1
  let main_v3 : IVec S_ 1 := (fun x v => Host.reduce IntOp.andi x v reducesTo_S64x512x256_S_d0_1_2 h_S_) main_v2 main_c
  let main_v4 : FVec F S64x512x512 .f32 := Host.absf main_arg1
  let main_cst_0 : FVec F S_ .f32 := constant S_ .f32 0x7F800000#32
  let main_v5 : FVec F S64x512x512 .f32 := broadcastInDim S64x512x512 ![] bcast_S_S64x512x512 main_cst_0
  let main_v6 : IVec S64x512x512 1 := cmpf .olt main_v4 main_v5
  let main_c_1 : IVec S_ 1 := constantI S_ 1 1#1
  let main_v7 : IVec S_ 1 := (fun x v => Host.reduce IntOp.andi x v reducesTo_S64x512x512_S_d0_1_2 h_S_) main_v6 main_c_1
  let main_v8 : IVec S_ 1 := andi main_v3 main_v7
  let main_v9 : FVec F S4x256x256 .f32 := Host.absf main_arg2
  let main_cst_2 : FVec F S_ .f32 := constant S_ .f32 0x7F800000#32
  let main_v10 : FVec F S4x256x256 .f32 := broadcastInDim S4x256x256 ![] bcast_S_S4x256x256 main_cst_2
  let main_v11 : IVec S4x256x256 1 := cmpf .olt main_v9 main_v10
  let main_c_3 : IVec S_ 1 := constantI S_ 1 1#1
  let main_v12 : IVec S_ 1 := (fun x v => Host.reduce IntOp.andi x v reducesTo_S4x256x256_S_d0_1_2 h_S_) main_v11 main_c_3
  let main_v13 : IVec S_ 1 := andi main_v8 main_v12
  let main_v14 : FVec F S4x256 .f32 := Host.absf main_arg3
  let main_cst_4 : FVec F S_ .f32 := constant S_ .f32 0x7F800000#32
  let main_v15 : FVec F S4x256 .f32 := broadcastInDim S4x256 ![] bcast_S_S4x256 main_cst_4
  let main_v16 : IVec S4x256 1 := cmpf .olt main_v14 main_v15
  fn_part1 (F := F) main_arg4 main_arg5 main_arg6 main_arg7 main_arg8 main_arg9 main_v13 main_v16
-- ==== Kernel.lean ====
abbrev S64x512x256 : Shape := ⟨3, ![64, 512, 256]⟩
abbrev S64x512x512 : Shape := ⟨3, ![64, 512, 512]⟩
abbrev S4x256x256 : Shape := ⟨3, ![4, 256, 256]⟩
abbrev S4x256 : Shape := ⟨2, ![4, 256]⟩
abbrev S256x256 : Shape := ⟨2, ![256, 256]⟩
abbrev S256 : Shape := ⟨1, ![256]⟩
abbrev S4x64x512x512 : Shape := ⟨4, ![4, 64, 512, 512]⟩
abbrev S2x512x256 : Shape := ⟨3, ![2, 512, 256]⟩
abbrev S2x512x512 : Shape := ⟨3, ![2, 512, 512]⟩
abbrev S4x2x512x512 : Shape := ⟨4, ![4, 2, 512, 512]⟩
abbrev S512x512 : Shape := ⟨2, ![512, 512]⟩
abbrev S1x512x256 : Shape := ⟨3, ![1, 512, 256]⟩
abbrev S512x256 : Shape := ⟨2, ![512, 256]⟩
abbrev S1x512x512 : Shape := ⟨3, ![1, 512, 512]⟩
abbrev S1x256x256 : Shape := ⟨3, ![1, 256, 256]⟩
abbrev S1x256 : Shape := ⟨2, ![1, 256]⟩
abbrev S512 : Shape := ⟨1, ![512]⟩
abbrev S512x1 : Shape := ⟨2, ![512, 1]⟩
abbrev S1x1x512x512 : Shape := ⟨4, ![1, 1, 512, 512]⟩

abbrev nBuf : Space → Nat
  | .hbm => 16
  | .vmem => 16
  | .smem => 0
  | _ => 0

abbrev bufTy : (tb : Table) → Fin (tcTables nBuf tb) → BufTy
  | .hbm, ⟨0, _⟩ => ⟨S64x512x256, .f32⟩
  | .hbm, ⟨1, _⟩ => ⟨S64x512x512, .f32⟩
  | .hbm, ⟨2, _⟩ => ⟨S4x256x256, .f32⟩
  | .hbm, ⟨3, _⟩ => ⟨S4x256, .f32⟩
  | .hbm, ⟨4, _⟩ => ⟨S4x256x256, .f32⟩
  | .hbm, ⟨5, _⟩ => ⟨S4x256, .f32⟩
  | .hbm, ⟨6, _⟩ => ⟨S4x256x256, .f32⟩
  | .hbm, ⟨7, _⟩ => ⟨S4x256, .f32⟩
  | .hbm, ⟨8, _⟩ => ⟨S256x256, .f32⟩
  | .hbm, ⟨9, _⟩ => ⟨S256, .f32⟩
  | .hbm, ⟨10, _⟩ => ⟨S4x256x256, .f32⟩
  | .hbm, ⟨11, _⟩ => ⟨S4x256x256, .f32⟩
  | .hbm, ⟨12, _⟩ => ⟨S4x256x256, .f32⟩
  | .hbm, ⟨13, _⟩ => ⟨S256x256, .f32⟩
  | .hbm, ⟨14, _⟩ => ⟨S64x512x256, .f32⟩
  | .hbm, ⟨15, _⟩ => ⟨S4x64x512x512, .f32⟩
  | .local _ .vmem, ⟨0, _⟩ => ⟨S2x512x256, .f32⟩
  | .local _ .vmem, ⟨1, _⟩ => ⟨S2x512x256, .f32⟩
  | .local _ .vmem, ⟨2, _⟩ => ⟨S2x512x512, .f32⟩
  | .local _ .vmem, ⟨3, _⟩ => ⟨S2x512x512, .f32⟩
  | .local _ .vmem, ⟨4, _⟩ => ⟨S4x256x256, .f32⟩
  | .local _ .vmem, ⟨5, _⟩ => ⟨S4x256, .f32⟩
  | .local _ .vmem, ⟨6, _⟩ => ⟨S4x256x256, .f32⟩
  | .local _ .vmem, ⟨7, _⟩ => ⟨S4x256, .f32⟩
  | .local _ .vmem, ⟨8, _⟩ => ⟨S4x256x256, .f32⟩
  | .local _ .vmem, ⟨9, _⟩ => ⟨S4x256, .f32⟩
  | .local _ .vmem, ⟨10, _⟩ => ⟨S256x256, .f32⟩
  | .local _ .vmem, ⟨11, _⟩ => ⟨S256, .f32⟩
  | .local _ .vmem, ⟨12, _⟩ => ⟨S2x512x256, .f32⟩
  | .local _ .vmem, ⟨13, _⟩ => ⟨S2x512x256, .f32⟩
  | .local _ .vmem, ⟨14, _⟩ => ⟨S4x2x512x512, .f32⟩
  | .local _ .vmem, ⟨15, _⟩ => ⟨S4x2x512x512, .f32⟩
  | _, _ => ⟨S64x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S2x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2x512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x2x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  transposes_S4x256x256_S4x256x256_0_2_1 : S4x256x256.Transposes [0, 2, 1] S4x256x256
  transposes_S256x256_S256x256_1_0 : S256x256.Transposes [1, 0] S256x256
  iota_S512x512_d0_w32 : S512x512.Iotas .tc 32 [0]
  iota_S512x512_d1_w32 : S512x512.Iotas .tc 32 [1]
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bitsLt_bf16_f32 : FTy.bits .bf16 < FTy.bits .f32
  inb_S256_S256_0 : ∀ a, (![0] : Fin 1 → Nat) a + S256.size a ≤ S256.size a
  h_S256 : 0 < S256.numel
  inb_S2x512x256_S1x512x256_0_0_0 : ∀ a, (![0, 0, 0] : Fin 3 → Nat) a + S1x512x256.size a ≤ S2x512x256.size a
  h_S1x512x256 : 0 < S1x512x256.numel
  shapeCasts_S1x512x256_S512x256 : S1x512x256.ShapeCasts S512x256
  inb_S2x512x512_S1x512x512_0_0_0 : ∀ a, (![0, 0, 0] : Fin 3 → Nat) a + S1x512x512.size a ≤ S2x512x512.size a
  h_S1x512x512 : 0 < S1x512x512.numel
  shapeCasts_S1x512x512_S512x512 : S1x512x512.ShapeCasts S512x512
  inb_S4x256x256_S1x256x256_0_0_0 : ∀ a, (![0, 0, 0] : Fin 3 → Nat) a + S1x256x256.size a ≤ S4x256x256.size a
  h_S1x256x256 : 0 < S1x256x256.numel
  shapeCasts_S1x256x256_S256x256 : S1x256x256.ShapeCasts S256x256
  inb_S4x256_S1x256_0_0 : ∀ a, (![0, 0] : Fin 2 → Nat) a + S1x256.size a ≤ S4x256.size a
  h_S1x256 : 0 < S1x256.numel
  shapeCasts_S1x256_S256 : S1x256.ShapeCasts S256
  shapeCasts_S256_S1x256 : S256.ShapeCasts S1x256
  broadcasts_S1x256_S512x256 : S1x256.Broadcasts S512x256
  reduces_S512x512_S512 : S512x512.Reduces [1] S512
  shapeCasts_S512_S512x1 : S512.ShapeCasts S512x1
  broadcasts_S512x1_S512x512 : S512x1.Broadcasts S512x512
  inb_S4x2x512x512_S1x1x512x512_0_0_0_0 : ∀ a, (![0, 0, 0, 0] : Fin 4 → Nat) a + S1x1x512x512.size a ≤ S4x2x512x512.size a
  h_S1x1x512x512 : 0 < S1x1x512x512.numel
  shapeCasts_S1x1x512x512_S512x512 : S1x1x512x512.ShapeCasts S512x512
  shapeCasts_S512x512_S1x1x512x512 : S512x512.ShapeCasts S1x1x512x512
  inb_S4x256x256_S1x256x256_1_0_0 : ∀ a, (![1, 0, 0] : Fin 3 → Nat) a + S1x256x256.size a ≤ S4x256x256.size a
  inb_S4x256_S1x256_1_0 : ∀ a, (![1, 0] : Fin 2 → Nat) a + S1x256.size a ≤ S4x256.size a
  inb_S4x2x512x512_S1x1x512x512_1_0_0_0 : ∀ a, (![1, 0, 0, 0] : Fin 4 → Nat) a + S1x1x512x512.size a ≤ S4x2x512x512.size a
  inb_S4x256x256_S1x256x256_2_0_0 : ∀ a, (![2, 0, 0] : Fin 3 → Nat) a + S1x256x256.size a ≤ S4x256x256.size a
  inb_S4x256_S1x256_2_0 : ∀ a, (![2, 0] : Fin 2 → Nat) a + S1x256.size a ≤ S4x256.size a
  inb_S4x2x512x512_S1x1x512x512_2_0_0_0 : ∀ a, (![2, 0, 0, 0] : Fin 4 → Nat) a + S1x1x512x512.size a ≤ S4x2x512x512.size a
  inb_S4x256x256_S1x256x256_3_0_0 : ∀ a, (![3, 0, 0] : Fin 3 → Nat) a + S1x256x256.size a ≤ S4x256x256.size a
  inb_S4x256_S1x256_3_0 : ∀ a, (![3, 0] : Fin 2 → Nat) a + S1x256.size a ≤ S4x256.size a
  inb_S4x2x512x512_S1x1x512x512_3_0_0_0 : ∀ a, (![3, 0, 0, 0] : Fin 4 → Nat) a + S1x1x512x512.size a ≤ S4x2x512x512.size a
  shapeCasts_S512x256_S1x512x256 : S512x256.ShapeCasts S1x512x256
  inb_S2x512x256_S1x512x256_1_0_0 : ∀ a, (![1, 0, 0] : Fin 3 → Nat) a + S1x512x256.size a ≤ S2x512x256.size a
  inb_S2x512x512_S1x512x512_1_0_0 : ∀ a, (![1, 0, 0] : Fin 3 → Nat) a + S1x512x512.size a ≤ S2x512x512.size a
  inb_S4x2x512x512_S1x1x512x512_0_1_0_0 : ∀ a, (![0, 1, 0, 0] : Fin 4 → Nat) a + S1x1x512x512.size a ≤ S4x2x512x512.size a
  inb_S4x2x512x512_S1x1x512x512_1_1_0_0 : ∀ a, (![1, 1, 0, 0] : Fin 4 → Nat) a + S1x1x512x512.size a ≤ S4x2x512x512.size a
  inb_S4x2x512x512_S1x1x512x512_2_1_0_0 : ∀ a, (![2, 1, 0, 0] : Fin 4 → Nat) a + S1x1x512x512.size a ≤ S4x2x512x512.size a
  inb_S4x2x512x512_S1x1x512x512_3_1_0_0 : ∀ a, (![3, 1, 0, 0] : Fin 4 → Nat) a + S1x1x512x512.size a ≤ S4x2x512x512.size a
  dot_S512x256_S256x256_S512x256_1_0_0_1_n_n_wf : DotDims.WF S512x256 S256x256 S512x256 [1] [0] [0] [1] [] []
  dot_S512x256_S512x256_S512x512_1_1_0_0_n_n_wf : DotDims.WF S512x256 S512x256 S512x512 [1] [1] [0] [0] [] []
  dot_S512x512_S512x256_S512x256_1_0_0_1_n_n_wf : DotDims.WF S512x512 S512x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x256.size a ≤ S64x512x256.size a
  hwx0_0 : ∀ i : grid0.Coords, EltTy.bits .f32 = 32 ∨ (Rect.block (s := S64x512x256) S2x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x512x512.size a ≤ S64x512x512.size a
  hwx0_1 : ∀ i : grid0.Coords, EltTy.bits .f32 = 32 ∨ (Rect.block (s := S64x512x512) S2x512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x256x256.size a ≤ S4x256x256.size a
  hwx0_2 : ∀ i : grid0.Coords, EltTy.bits .f32 = 32 ∨ (Rect.block (s := S4x256x256) S4x256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x256.size a ≤ S4x256.size a
  hwx0_3 : ∀ i : grid0.Coords, EltTy.bits .f32 = 32 ∨ (Rect.block (s := S4x256) S4x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x256x256.size a ≤ S4x256x256.size a
  hwx0_4 : ∀ i : grid0.Coords, EltTy.bits .f32 = 32 ∨ (Rect.block (s := S4x256x256) S4x256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x256.size a ≤ S4x256.size a
  hwx0_5 : ∀ i : grid0.Coords, EltTy.bits .f32 = 32 ∨ (Rect.block (s := S4x256) S4x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x256x256.size a ≤ S4x256x256.size a
  hwx0_6 : ∀ i : grid0.Coords, EltTy.bits .f32 = 32 ∨ (Rect.block (s := S4x256x256) S4x256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x256.size a ≤ S4x256.size a
  hwx0_7 : ∀ i : grid0.Coords, EltTy.bits .f32 = 32 ∨ (Rect.block (s := S4x256) S4x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .f32 = 32 ∨ (Rect.block (s := S256x256) S256x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2x512x256.size a ≤ S64x512x256.size a
  hwx0_10 : ∀ i : grid0.Coords, EltTy.bits .f32 = 32 ∨ (Rect.block (s := S64x512x256) S2x512x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4x2x512x512.size a ≤ S4x64x512x512.size a
  hwx0_11 : ∀ i : grid0.Coords, EltTy.bits .f32 = 32 ∨ (Rect.block (s := S4x64x512x512) S4x2x512x512.size (cc0_transform_11 i) (hinb0_11 i)).WholeWords (EltTy.packing .f32)

variable [Facts₀]

def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S512x256_S512x512_1_1_0_0_n_n : DotDims S512x256 S512x256 S512x512 where
  lhsContracting := [1]
  rhsContracting := [1]
  lhsNonContracting := [0]
  rhsNonContracting := [0]
  lhsBatch := []
  rhsBatch := []
  wf := dot_S512x256_S512x256_S512x512_1_1_0_0_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf

abbrev win0_0 : Pipeline.Window sig grid0 :=
  Pipeline.Window.ofSpec (Memref.whole main_arg0) S2x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S4x256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S4x256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S4x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4_0) S2x512x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v4_1) S4x2x512x512.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S64x512x256 : Shape := ⟨3, ![64, 512, 256]⟩
abbrev S64x512x512 : Shape := ⟨3, ![64, 512, 512]⟩
abbrev S4x256x256 : Shape := ⟨3, ![4, 256, 256]⟩
abbrev S4x256 : Shape := ⟨2, ![4, 256]⟩
abbrev S256x256 : Shape := ⟨2, ![256, 256]⟩
abbrev S256 : Shape := ⟨1, ![256]⟩
abbrev S512 : Shape := ⟨1, ![512]⟩
abbrev S_ : Shape := ⟨0, ![]⟩
abbrev S512x1 : Shape := ⟨2, ![512, 1]⟩
abbrev S512x2 : Shape := ⟨2, ![512, 2]⟩
abbrev S64x512 : Shape := ⟨2, ![64, 512]⟩
abbrev S512x512 : Shape := ⟨2, ![512, 512]⟩
abbrev S1x256x256 : Shape := ⟨3, ![1, 256, 256]⟩
abbrev S1x256 : Shape := ⟨2, ![1, 256]⟩
abbrev S1x1x256 : Shape := ⟨3, ![1, 1, 256]⟩
abbrev S1x512x512 : Shape := ⟨3, ![1, 512, 512]⟩
abbrev S64x512x1 : Shape := ⟨3, ![64, 512, 1]⟩
abbrev S1x64x512x512 : Shape := ⟨4, ![1, 64, 512, 512]⟩
abbrev S4x64x512x512 : Shape := ⟨4, ![4, 64, 512, 512]⟩

abbrev nBuf : Space → Nat
  | .hbm => 250
  | .vmem => 0
  | .smem => 0
  | _ => 0

abbrev hbmTy0_0 (i : Nat) : BufTy := match i % 128 with
  | 0 => ⟨S64x512x256, .f32⟩
  | 1 => ⟨S64x512x512, .f32⟩
  | 2 => ⟨S4x256x256, .f32⟩
  | 3 => ⟨S4x256, .f32⟩
  | 4 => ⟨S4x256x256, .f32⟩
  | 5 => ⟨S4x256, .f32⟩
  | 6 => ⟨S4x256x256, .f32⟩
  | 7 => ⟨S4x256, .f32⟩
  | 8 => ⟨S256x256, .f32⟩
  | 9 => ⟨S256, .f32⟩
  | 10 => ⟨S512, .i32⟩
  | 11 => ⟨S_, .i32⟩
  | 12 => ⟨S512, .i32⟩
  | 13 => ⟨S512, .i1⟩
  | 14 => ⟨S_, .i32⟩
  | 15 => ⟨S512, .i32⟩
  | 16 => ⟨S512, .i32⟩
  | 17 => ⟨S512, .i32⟩
  | 18 => ⟨S_, .i32⟩
  | 19 => ⟨S512, .i32⟩
  | 20 => ⟨S512, .i1⟩
  | 21 => ⟨S_, .i32⟩
  | 22 => ⟨S512, .i32⟩
  | 23 => ⟨S512, .i32⟩
  | 24 => ⟨S512, .i32⟩
  | 25 => ⟨S512x1, .i32⟩
  | 26 => ⟨S512x1, .i32⟩
  | 27 => ⟨S512x2, .i32⟩
  | 28 => ⟨S_, .f32⟩
  | 29 => ⟨S64x512, .f32⟩
  | 30 => ⟨S64x512x512, .f32⟩
  | 31 => ⟨S512x512, .i32⟩
  | 32 => ⟨S512x512, .i32⟩
  | 33 => ⟨S_, .i32⟩
  | 34 => ⟨S512x512, .i32⟩
  | 35 => ⟨S512x512, .i32⟩
  | 36 => ⟨S512x512, .i1⟩
  | 37 => ⟨S512x512, .f32⟩
  | 38 => ⟨S_, .f32⟩
  | 39 => ⟨S512x512, .f32⟩
  | 40 => ⟨S512x512, .f32⟩
  | 41 => ⟨S1x256x256, .f32⟩
  | 42 => ⟨S256x256, .f32⟩
  | 43 => ⟨S64x512x256, .f32⟩
  | 44 => ⟨S1x256, .f32⟩
  | 45 => ⟨S256, .f32⟩
  | 46 => ⟨S1x1x256, .f32⟩
  | 47 => ⟨S64x512x256, .f32⟩
  | 48 => ⟨S64x512x256, .f32⟩
  | 49 => ⟨S64x512x512, .f32⟩
  | 50 => ⟨S64x512x512, .f32⟩
  | 51 => ⟨S64x512x512, .f32⟩
  | 52 => ⟨S_, .f32⟩
  | 53 => ⟨S64x512x512, .f32⟩
  | 54 => ⟨S64x512x512, .f32⟩
  | 55 => ⟨S_, .f32⟩
  | 56 => ⟨S64x512x512, .f32⟩
  | 57 => ⟨S64x512x512, .f32⟩
  | 58 => ⟨S1x512x512, .f32⟩
  | 59 => ⟨S64x512x512, .f32⟩
  | 60 => ⟨S64x512x512, .f32⟩
  | 61 => ⟨S64x512x512, .f32⟩
  | 62 => ⟨S_, .f32⟩
  | 63 => ⟨S64x512, .f32⟩
  | 64 => ⟨S64x512x1, .f32⟩
  | 65 => ⟨S64x512x512, .f32⟩
  | 66 => ⟨S64x512x512, .f32⟩
  | 67 => ⟨S64x512x256, .f32⟩
  | 68 => ⟨S1x256x256, .f32⟩
  | 69 => ⟨S256x256, .f32⟩
  | 70 => ⟨S64x512x256, .f32⟩
  | 71 => ⟨S1x256, .f32⟩
  | 72 => ⟨S256, .f32⟩
  | 73 => ⟨S1x1x256, .f32⟩
  | 74 => ⟨S64x512x256, .f32⟩
  | 75 => ⟨S64x512x256, .f32⟩
  | 76 => ⟨S_, .f32⟩
  | 77 => ⟨S64x512x256, .f32⟩
  | 78 => ⟨S64x512x256, .f32⟩
  | 79 => ⟨S1x256x256, .f32⟩
  | 80 => ⟨S256x256, .f32⟩
  | 81 => ⟨S64x512x256, .f32⟩
  | 82 => ⟨S1x256, .f32⟩
  | 83 => ⟨S256, .f32⟩
  | 84 => ⟨S1x1x256, .f32⟩
  | 85 => ⟨S64x512x256, .f32⟩
  | 86 => ⟨S64x512x256, .f32⟩
  | 87 => ⟨S_, .f32⟩
  | 88 => ⟨S64x512x256, .f32⟩
  | 89 => ⟨S64x512x256, .f32⟩
  | 90 => ⟨S64x512x256, .f32⟩
  | 91 => ⟨S1x256x256, .f32⟩
  | 92 => ⟨S256x256, .f32⟩
  | 93 => ⟨S64x512x256, .f32⟩
  | 94 => ⟨S1x256, .f32⟩
  | 95 => ⟨S256, .f32⟩
  | 96 => ⟨S1x1x256, .f32⟩
  | 97 => ⟨S64x512x256, .f32⟩
  | 98 => ⟨S64x512x256, .f32⟩
  | 99 => ⟨S64x512x512, .f32⟩
  | 100 => ⟨S64x512x512, .f32⟩
  | 101 => ⟨S64x512x512, .f32⟩
  | 102 => ⟨S_, .f32⟩
  | 103 => ⟨S64x512x512, .f32⟩
  | 104 => ⟨S64x512x512, .f32⟩
  | 105 => ⟨S_, .f32⟩
  | 106 => ⟨S64x512x512, .f32⟩
  | 107 => ⟨S64x512x512, .f32⟩
  | 108 => ⟨S1x512x512, .f32⟩
  | 109 => ⟨S64x512x512, .f32⟩
  | 110 => ⟨S64x512x512, .f32⟩
  | 111 => ⟨S64x512x512, .f32⟩
  | 112 => ⟨S_, .f32⟩
  | 113 => ⟨S64x512, .f32⟩
  | 114 => ⟨S64x512x1, .f32⟩
  | 115 => ⟨S64x512x512, .f32⟩
  | 116 => ⟨S64x512x512, .f32⟩
  | 117 => ⟨S64x512x256, .f32⟩
  | 118 => ⟨S1x256x256, .f32⟩
  | 119 => ⟨S256x256, .f32⟩
  | 120 => ⟨S64x512x256, .f32⟩
  | 121 => ⟨S1x256, .f32⟩
  | 122 => ⟨S256, .f32⟩
  | 123 => ⟨S1x1x256, .f32⟩
  | 124 => ⟨S64x512x256, .f32⟩
  | 125 => ⟨S64x512x256, .f32⟩
  | 126 => ⟨S_, .f32⟩
  | 127 => ⟨S64x512x256, .f32⟩
  | _ => ⟨S64x512x256, .f32⟩

abbrev hbmTy0_1 (i : Nat) : BufTy := match i % 128 with
  | 0 => ⟨S64x512x256, .f32⟩
  | 1 => ⟨S1x256x256, .f32⟩
  | 2 => ⟨S256x256, .f32⟩
  | 3 => ⟨S64x512x256, .f32⟩
  | 4 => ⟨S1x256, .f32⟩
  | 5 => ⟨S256, .f32⟩
  | 6 => ⟨S1x1x256, .f32⟩
  | 7 => ⟨S64x512x256, .f32⟩
  | 8 => ⟨S64x512x256, .f32⟩
  | 9 => ⟨S_, .f32⟩
  | 10 => ⟨S64x512x256, .f32⟩
  | 11 => ⟨S64x512x256, .f32⟩
  | 12 => ⟨S64x512x256, .f32⟩
  | 13 => ⟨S1x256x256, .f32⟩
  | 14 => ⟨S256x256, .f32⟩
  | 15 => ⟨S64x512x256, .f32⟩
  | 16 => ⟨S1x256, .f32⟩
  | 17 => ⟨S256, .f32⟩
  | 18 => ⟨S1x1x256, .f32⟩
  | 19 => ⟨S64x512x256, .f32⟩
  | 20 => ⟨S64x512x256, .f32⟩
  | 21 => ⟨S64x512x512, .f32⟩
  | 22 => ⟨S64x512x512, .f32⟩
  | 23 => ⟨S64x512x512, .f32⟩
  | 24 => ⟨S_, .f32⟩
  | 25 => ⟨S64x512x512, .f32⟩
  | 26 => ⟨S64x512x512, .f32⟩
  | 27 => ⟨S_, .f32⟩
  | 28 => ⟨S64x512x512, .f32⟩
  | 29 => ⟨S64x512x512, .f32⟩
  | 30 => ⟨S1x512x512, .f32⟩
  | 31 => ⟨S64x512x512, .f32⟩
  | 32 => ⟨S64x512x512, .f32⟩
  | 33 => ⟨S64x512x512, .f32⟩
  | 34 => ⟨S_, .f32⟩
  | 35 => ⟨S64x512, .f32⟩
  | 36 => ⟨S64x512x1, .f32⟩
  | 37 => ⟨S64x512x512, .f32⟩
  | 38 => ⟨S64x512x512, .f32⟩
  | 39 => ⟨S64x512x256, .f32⟩
  | 40 => ⟨S1x256x256, .f32⟩
  | 41 => ⟨S256x256, .f32⟩
  | 42 => ⟨S64x512x256, .f32⟩
  | 43 => ⟨S1x256, .f32⟩
  | 44 => ⟨S256, .f32⟩
  | 45 => ⟨S1x1x256, .f32⟩
  | 46 => ⟨S64x512x256, .f32⟩
  | 47 => ⟨S64x512x256, .f32⟩
  | 48 => ⟨S_, .f32⟩
  | 49 => ⟨S64x512x256, .f32⟩
  | 50 => ⟨S64x512x256, .f32⟩
  | 51 => ⟨S1x256x256, .f32⟩
  | 52 => ⟨S256x256, .f32⟩
  | 53 => ⟨S64x512x256, .f32⟩
  | 54 => ⟨S1x256, .f32⟩
  | 55 => ⟨S256, .f32⟩
  | 56 => ⟨S1x1x256, .f32⟩
  | 57 => ⟨S64x512x256, .f32⟩
  | 58 => ⟨S64x512x256, .f32⟩
  | 59 => ⟨S_, .f32⟩
  | 60 => ⟨S64x512x256, .f32⟩
  | 61 => ⟨S64x512x256, .f32⟩
  | 62 => ⟨S64x512x256, .f32⟩
  | 63 => ⟨S1x256x256, .f32⟩
  | 64 => ⟨S256x256, .f32⟩
  | 65 => ⟨S64x512x256, .f32⟩
  | 66 => ⟨S1x256, .f32⟩
  | 67 => ⟨S256, .f32⟩
  | 68 => ⟨S1x1x256, .f32⟩
  | 69 => ⟨S64x512x256, .f32⟩
  | 70 => ⟨S64x512x256, .f32⟩
  | 71 => ⟨S64x512x512, .f32⟩
  | 72 => ⟨S64x512x512, .f32⟩
  | 73 => ⟨S64x512x512, .f32⟩
  | 74 => ⟨S_, .f32⟩
  | 75 => ⟨S64x512x512, .f32⟩
  | 76 => ⟨S64x512x512, .f32⟩
  | 77 => ⟨S_, .f32⟩
  | 78 => ⟨S64x512x512, .f32⟩
  | 79 => ⟨S64x512x512, .f32⟩
  | 80 => ⟨S1x512x512, .f32⟩
  | 81 => ⟨S64x512x512, .f32⟩
  | 82 => ⟨S64x512x512, .f32⟩
  | 83 => ⟨S64x512x512, .f32⟩
  | 84 => ⟨S_, .f32⟩
  | 85 => ⟨S64x512, .f32⟩
  | 86 => ⟨S64x512x1, .f32⟩
  | 87 => ⟨S64x512x512, .f32⟩
  | 88 => ⟨S64x512x512, .f32⟩
  | 89 => ⟨S64x512x256, .f32⟩
  | 90 => ⟨S1x256x256, .f32⟩
  | 91 => ⟨S256x256, .f32⟩
  | 92 => ⟨S64x512x256, .f32⟩
  | 93 => ⟨S1x256, .f32⟩
  | 94 => ⟨S256, .f32⟩
  | 95 => ⟨S1x1x256, .f32⟩
  | 96 => ⟨S64x512x256, .f32⟩
  | 97 => ⟨S64x512x256, .f32⟩
  | 98 => ⟨S_, .f32⟩
  | 99 => ⟨S64x512x256, .f32⟩
  | 100 => ⟨S64x512x256, .f32⟩
  | 101 => ⟨S1x256x256, .f32⟩
  | 102 => ⟨S256x256, .f32⟩
  | 103 => ⟨S64x512x256, .f32⟩
  | 104 => ⟨S1x256, .f32⟩
  | 105 => ⟨S256, .f32⟩
  | 106 => ⟨S1x1x256, .f32⟩
  | 107 => ⟨S64x512x256, .f32⟩
  | 108 => ⟨S64x512x256, .f32⟩
  | 109 => ⟨S_, .f32⟩
  | 110 => ⟨S64x512x256, .f32⟩
  | 111 => ⟨S64x512x256, .f32⟩
  | 112 => ⟨S64x512x256, .f32⟩
  | 113 => ⟨S64x512x256, .f32⟩
  | 114 => ⟨S1x1x256, .f32⟩
  | 115 => ⟨S64x512x256, .f32⟩
  | 116 => ⟨S64x512x256, .f32⟩
  | 117 => ⟨S1x64x512x512, .f32⟩
  | 118 => ⟨S1x64x512x512, .f32⟩
  | 119 => ⟨S1x64x512x512, .f32⟩
  | 120 => ⟨S1x64x512x512, .f32⟩
  | 121 => ⟨S4x64x512x512, .f32⟩
  | _ => ⟨S64x512x256, .f32⟩

abbrev hbmTy (i : Nat) : BufTy := match i / 128 with
  | 0 => hbmTy0_0 i
  | 1 => hbmTy0_1 i
  | _ => ⟨S64x512x256, .f32⟩

abbrev bufTy : (tb : Table) → Fin (tcTables nBuf tb) → BufTy
  | .hbm, ⟨i, _⟩ => hbmTy i
  | _, _ => ⟨S64x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c_1 : Ref sig .tc := ⟨.hbm, 18, rfl⟩
abbrev main_v6 : Ref sig .tc := ⟨.hbm, 19, rfl⟩
abbrev main_v7 : Ref sig .tc := ⟨.hbm, 20, rfl⟩
abbrev main_c_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_7 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_call0_cst : Ref sig .tc := ⟨.hbm, 76, rfl⟩
abbrev main_call0_v0 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_call1_cst : Ref sig .tc := ⟨.hbm, 87, rfl⟩
abbrev main_call1_v0 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_8 : Ref sig .tc := ⟨.hbm, 102, rfl⟩
abbrev main_v78 : Ref sig .tc := ⟨.hbm, 103, rfl⟩
abbrev main_v79 : Ref sig .tc := ⟨.hbm, 104, rfl⟩
abbrev main_cst_9 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_10 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_call2_cst : Ref sig .tc := ⟨.hbm, 126, rfl⟩
abbrev main_call2_v0 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_call3_cst : Ref sig .tc := ⟨.hbm, 137, rfl⟩
abbrev main_call3_v0 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_cst_11 : Ref sig .tc := ⟨.hbm, 152, rfl⟩
abbrev main_v121 : Ref sig .tc := ⟨.hbm, 153, rfl⟩
abbrev main_v122 : Ref sig .tc := ⟨.hbm, 154, rfl⟩
abbrev main_cst_12 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_cst_13 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_call4_cst : Ref sig .tc := ⟨.hbm, 176, rfl⟩
abbrev main_call4_v0 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_call5_cst : Ref sig .tc := ⟨.hbm, 187, rfl⟩
abbrev main_call5_v0 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_cst_14 : Ref sig .tc := ⟨.hbm, 202, rfl⟩
abbrev main_v164 : Ref sig .tc := ⟨.hbm, 203, rfl⟩
abbrev main_v165 : Ref sig .tc := ⟨.hbm, 204, rfl⟩
abbrev main_cst_15 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_cst_16 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_v184 : Ref sig .tc := ⟨.hbm, 225, rfl⟩
abbrev main_call6_cst : Ref sig .tc := ⟨.hbm, 226, rfl⟩
abbrev main_call6_v0 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_v189 : Ref sig .tc := ⟨.hbm, 232, rfl⟩
abbrev main_v190 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_call7_cst : Ref sig .tc := ⟨.hbm, 237, rfl⟩
abbrev main_call7_v0 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_v199 : Ref sig .tc := ⟨.hbm, 244, rfl⟩
abbrev main_v200 : Ref sig .tc := ⟨.hbm, 245, rfl⟩
abbrev main_v201 : Ref sig .tc := ⟨.hbm, 246, rfl⟩
abbrev main_v202 : Ref sig .tc := ⟨.hbm, 247, rfl⟩
abbrev main_v203 : Ref sig .tc := ⟨.hbm, 248, rfl⟩
abbrev main_v204 : Ref sig .tc := ⟨.hbm, 249, rfl⟩

abbrev nD : Nat := 1
abbrev τ : Topo := Topo.v7x

variable {F : FTy → Type} [FloatOps F]

class Facts₀ : Prop where
  bcast_S_S512 : S_.BroadcastsInDim S512 (![] : Fin 0 → Fin S512.rank)
  bcast_S512_S512x1_0 : S512.BroadcastsInDim S512x1 (![0] : Fin 1 → Fin S512x1.rank)
  concatenates_S512x1_S512x1_S512x2_d1 : Shape.Concatenates [S512x1, S512x1] S512x2 1
  bcast_S_S64x512 : S_.BroadcastsInDim S64x512 (![] : Fin 0 → Fin S64x512.rank)
  bcast_S_S512x512 : S_.BroadcastsInDim S512x512 (![] : Fin 0 → Fin S512x512.rank)
  slices_S4x256x256_S1x256x256_0_0_0 : S4x256x256.Slices ![0, 0, 0] S1x256x256
  shapeCasts_S1x256x256_S256x256 : S1x256x256.ShapeCasts S256x256
  slices_S4x256_S1x256_0_0 : S4x256.Slices ![0, 0] S1x256
  shapeCasts_S1x256_S256 : S1x256.ShapeCasts S256
  bcast_S256_S1x1x256_2 : S256.BroadcastsInDim S1x1x256 (![2] : Fin 1 → Fin S1x1x256.rank)
  bcast_S1x1x256_S64x512x256_0_1_2 : S1x1x256.BroadcastsInDim S64x512x256 (![0, 1, 2] : Fin 3 → Fin S64x512x256.rank)
  bcast_S_S64x512x512 : S_.BroadcastsInDim S64x512x512 (![] : Fin 0 → Fin S64x512x512.rank)
  bcast_S512x512_S1x512x512_1_2 : S512x512.BroadcastsInDim S1x512x512 (![1, 2] : Fin 2 → Fin S1x512x512.rank)
  bcast_S1x512x512_S64x512x512_0_1_2 : S1x512x512.BroadcastsInDim S64x512x512 (![0, 1, 2] : Fin 3 → Fin S64x512x512.rank)
  reducesTo_S64x512x512_S64x512_d2 : S64x512x512.ReducesTo [2] S64x512
  h_S_ : 0 < S_.numel
  bcast_S64x512_S64x512x1_0_1 : S64x512.BroadcastsInDim S64x512x1 (![0, 1] : Fin 2 → Fin S64x512x1.rank)
  bcast_S64x512x1_S64x512x512_0_1_2 : S64x512x1.BroadcastsInDim S64x512x512 (![0, 1, 2] : Fin 3 → Fin S64x512x512.rank)
  bcast_S_S64x512x256 : S_.BroadcastsInDim S64x512x256 (![] : Fin 0 → Fin S64x512x256.rank)
  slices_S4x256x256_S1x256x256_1_0_0 : S4x256x256.Slices ![1, 0, 0] S1x256x256
  slices_S4x256_S1x256_1_0 : S4x256.Slices ![1, 0] S1x256
  slices_S4x256x256_S1x256x256_2_0_0 : S4x256x256.Slices ![2, 0, 0] S1x256x256
  slices_S4x256_S1x256_2_0 : S4x256.Slices ![2, 0] S1x256
  slices_S4x256x256_S1x256x256_3_0_0 : S4x256x256.Slices ![3, 0, 0] S1x256x256
  slices_S4x256_S1x256_3_0 : S4x256.Slices ![3, 0] S1x256
  bcast_S64x512x512_S1x64x512x512_1_2_3 : S64x512x512.BroadcastsInDim S1x64x512x512 (![1, 2, 3] : Fin 3 → Fin S1x64x512x512.rank)
  concatenates_S1x64x512x512_S1x64x512x512_S1x64x512x512_S1x64x512x512_S4x64x512x512_d0 : Shape.Concatenates [S1x64x512x512, S1x64x512x512, S1x64x512x512, S1x64x512x512] S4x64x512x512 0
  scatter_S64x512x512_S512x2_S64x512_0_12_12_1_wf : ScatterDims.WF S64x512x512 S512x2 S64x512 [0] [1, 2] [1, 2] 1
  dot_S64x512x256_S256x256_S64x512x256_2_1_01_0_n_n_wf : DotDims.WF S64x512x256 S256x256 S64x512x256 [2] [1] [0, 1] [0] [] []
  dot_S64x512x256_S64x512x256_S64x512x512_2_2_1_1_0_0_wf : DotDims.WF S64x512x256 S64x512x256 S64x512x512 [2] [2] [1] [1] [0] [0]
  dot_S64x512x512_S64x512x256_S64x512x256_2_1_1_2_0_0_wf : DotDims.WF S64x512x512 S64x512x256 S64x512x256 [2] [1] [1] [2] [0] [0]

variable [Facts₀]

def scatter_S64x512x512_S512x2_S64x512_0_12_12_1 : ScatterDims S64x512x512 S512x2 S64x512 where
  updateWindowDims := [0]
  insertedWindowDims := [1, 2]
  scatterDimsToOperandDims := [1, 2]
  indexVectorDim := 1
  wf := scatter_S64x512x512_S512x2_S64x512_0_12_12_1_wf
def dot_S64x512x256_S256x256_S64x512x256_2_1_01_0_n_n : DotDims S64x512x256 S256x256 S64x512x256 where
  lhsContracting := [2]
  rhsContracting := [1]
  lhsNonContracting := [0, 1]
  rhsNonContracting := [0]
  lhsBatch := []
  rhsBatch := []
  wf := dot_S64x512x256_S256x256_S64x512x256_2_1_01_0_n_n_wf
def dot_S64x512x256_S64x512x256_S64x512x512_2_2_1_1_0_0 : DotDims S64x512x256 S64x512x256 S64x512x512 where
  lhsContracting := [2]
  rhsContracting := [2]
  lhsNonContracting := [1]
  rhsNonContracting := [1]
  lhsBatch := [0]
  rhsBatch := [0]
  wf := dot_S64x512x256_S64x512x256_S64x512x512_2_2_1_1_0_0_wf
def dot_S64x512x512_S64x512x256_S64x512x256_2_1_1_2_0_0 : DotDims S64x512x512 S64x512x256 S64x512x256 where
  lhsContracting := [2]
  rhsContracting := [1]
  lhsNonContracting := [1]
  rhsNonContracting := [2]
  lhsBatch := [0]
  rhsBatch := [0]
  wf := dot_S64x512x512_S64x512x256_S64x512x256_2_1_1_2_0_0_wf

class Facts : Prop extends Facts₀ where

variable [Facts]
-- ==== Proof.KDefs.lean ====
/-
  The kernel's arithmetic for one graph, layer by layer, as functions of vectors.

  The kernel keeps a graph's features `x` (512 × 256) and adjacency `adj` (512 × 512) in registers and runs the four
  layers on them. Every matrix product takes half-precision copies of its operands and accumulates from zero; every
  weight matrix arrives already transposed, as one [1, 256, 256] slice of the stacked array, and every bias as a
  [1, 256] slice. The definitions below are the kernel's own operation sequences for: a dense map, the scores, the
  unnormalised weights (a select on the diagonal mask), the division of every row by its sum, the mix, the
  rectifier, a whole layer's normalised weights and new features, and the final dense map.
-/
import proofs.«111148_j14611478741207_2_alg».proof.Proof.Gen.KernelIdeal.Skeleton

noncomputable section

namespace Cert.Gat.K

open Idealize.ShloMosaic Idealize.SL.Sem Cert.KernelIdeal Cert.KernelIdeal.Gen

variable {F : FTy → Type} [FloatOps F]

/-- A dense map: a half-precision operand against a transposed weight slice, plus the bias slice on every row. -/
def dense (v : FVec F S512x256 .bf16) (w : Vec F S1x256x256 .f32) (b : Vec F S1x256 .f32) : FVec F S512x256 .f32 :=
  addf (matmul dot_S512x256_S256x256_S512x256_1_0_0_1_n_n none v
      (truncf .bf16 (shapeCast S256x256 w shapeCasts_S1x256x256_S256x256) bitsLt_bf16_f32) (constant S512x256 .f32 0x00000000#32))
    (broadcastTo S512x256 (shapeCast S1x256 (shapeCast S256 b shapeCasts_S1x256_S256) shapeCasts_S256_S1x256) broadcasts_S1x256_S512x256)

/-- The scores: query rows against feature rows (both operands contracted along their second axis). -/
def scores (q : FVec F S512x256 .f32) (xbf : FVec F S512x256 .bf16) : FVec F S512x512 .f32 :=
  matmul dot_S512x256_S512x256_S512x512_1_1_0_0_n_n none (truncf .bf16 q bitsLt_bf16_f32) xbf (constant S512x512 .f32 0x00000000#32)

/-- The unnormalised weights: where the mask holds, the logistic of the score plus the small constant; elsewhere the
    logistic of the score times the adjacency entry. -/
def weights (d : IVec S512x512 1) (s adj : FVec F S512x512 .f32) : FVec F S512x512 .f32 :=
  select d (addf (logistic s) (broadcast S512x512 (Scalar.ofBits .f32 0x3727C5AC#32))) (mulf (logistic s) adj)

/-- Every row divided by its sum. -/
def rownorm (w : FVec F S512x512 .f32) : FVec F S512x512 .f32 :=
  divf w (broadcastTo S512x512 (shapeCast S512x1 (multiReduction .add [1] S512 w 0x00000000#32 reduces_S512x512_S512 (.inl rfl) rfl)
    shapeCasts_S512_S512x1) broadcasts_S512x1_S512x512)

/-- A layer's normalised weights from the half-precision features. -/
def attn (d : IVec S512x512 1) (xbf : FVec F S512x256 .bf16) (adj : FVec F S512x512 .f32)
    (wa : Vec F S1x256x256 .f32) (ba : Vec F S1x256 .f32) : FVec F S512x512 .f32 :=
  rownorm (weights d (scores (dense xbf wa ba) xbf) adj)

/-- The weights mix the feature rows. -/
def mixed (abf : FVec F S512x512 .bf16) (xbf : FVec F S512x256 .bf16) : FVec F S512x256 .f32 :=
  matmul dot_S512x512_S512x256_S512x256_1_0_0_1_n_n none abf xbf (constant S512x256 .f32 0x00000000#32)

/-- The rectifier. -/
def rect (v : FVec F S512x256 .f32) : FVec F S512x256 .f32 :=
  maximumf v (broadcast S512x256 (Scalar.ofBits .f32 0x00000000#32))

/-- A layer's new features from the mixed rows: two dense maps with the rectifier, and the layer's input added back. -/
def next (x : FVec F S512x256 .f32) (xbf : FVec F S512x256 .bf16) (abf : FVec F S512x512 .bf16)
    (w0 : Vec F S1x256x256 .f32) (b0 : Vec F S1x256 .f32) (w1 : Vec F S1x256x256 .f32) (b1 : Vec F S1x256 .f32) : FVec F S512x256 .f32 :=
  addf (rect (dense (truncf .bf16 (rect (dense (truncf .bf16 (mixed abf xbf) bitsLt_bf16_f32) w0 b0)) bitsLt_bf16_f32) w1 b1)) x

/-- A whole layer's normalised weights from the features. -/
def layerA (d : IVec S512x512 1) (x : FVec F S512x256 .f32) (adj : FVec F S512x512 .f32)
    (wa : Vec F S1x256x256 .f32) (ba : Vec F S1x256 .f32) : FVec F S512x512 .f32 :=
  attn d (truncf .bf16 x bitsLt_bf16_f32) adj wa ba

/-- A whole layer's new features from the features. -/
def layerX (d : IVec S512x512 1) (x : FVec F S512x256 .f32) (adj : FVec F S512x512 .f32)
    (wa : Vec F S1x256x256 .f32) (ba : Vec F S1x256 .f32) (w0 : Vec F S1x256x256 .f32) (b0 : Vec F S1x256 .f32)
    (w1 : Vec F S1x256x256 .f32) (b1 : Vec F S1x256 .f32) : FVec F S512x256 .f32 :=
  next x (truncf .bf16 x bitsLt_bf16_f32) (truncf .bf16 (layerA d x adj wa ba) bitsLt_bf16_f32) w0 b0 w1 b1

/-- The final dense map: the whole transposed weight matrix and the whole bias vector. -/
def final (x : FVec F S512x256 .f32) (wf : Vec F S256x256 .f32) (bf : Vec F S256 .f32) : FVec F S512x256 .f32 :=
  addf (matmul dot_S512x256_S256x256_S512x256_1_0_0_1_n_n none (truncf .bf16 x bitsLt_bf16_f32)
      (truncf .bf16 (shapeCast S256x256 wf shapeCasts_S256x256_S256x256) bitsLt_bf16_f32) (constant S512x256 .f32 0x00000000#32))
    (broadcastTo S512x256 (shapeCast S1x256 bf shapeCasts_S256_S1x256) broadcasts_S1x256_S512x256)

end Cert.Gat.K

end
-- ==== Proof.KPay.lean ====
/-
  What one grid point leaves in the two result blocks, layer by layer.

  A grid point holds two graphs. For each graph the body loads its features and adjacency, runs the four layers on
  them and stores: after every layer the layer's normalised weights (into the [4, 2, 512, 512] block, at layer and
  graph), and at the end the final dense map of the features (into the [2, 512, 256] block, at the graph). The
  generated description of the body gives each stored value as a tree of the body's fragments; here the same trees
  are written as the four layers of `KDefs`, and the two are one term once the fragments are unfolded.
-/
import proofs.«111148_j14611478741207_2_alg».proof.Proof.Gen.KernelIdeal.Frame
import proofs.«111148_j14611478741207_2_alg».proof.Proof.KDefs

noncomputable section

namespace Cert.Gat.K

open Idealize.ShloMosaic Idealize.SL.Sem Cert.KernelIdeal Cert.KernelIdeal.Gen

variable {F : FTy → Type} [FloatOps F]

section chain
variable (xg : FVec F S512x256 .f32) (ag : FVec F S512x512 .f32)
  (x2 : Vec F S4x256x256 .f32) (x3 : Vec F S4x256 .f32) (x4 : Vec F S4x256x256 .f32) (x5 : Vec F S4x256 .f32)
  (x6 : Vec F S4x256x256 .f32) (x7 : Vec F S4x256 .f32)

/-- A graph's features after one, two, three and four layers, each layer with its own slices of the weight blocks. -/
def X1 : FVec F S512x256 .f32 :=
  layerX k0_pay2 xg ag (View.ld x2 r0_4) (View.ld x3 r0_5) (View.ld x4 r0_4) (View.ld x5 r0_5) (View.ld x6 r0_4) (View.ld x7 r0_5)
def X2 : FVec F S512x256 .f32 :=
  layerX k0_pay2 (X1 xg ag x2 x3 x4 x5 x6 x7) ag (View.ld x2 r0_7) (View.ld x3 r0_8) (View.ld x4 r0_7) (View.ld x5 r0_8) (View.ld x6 r0_7) (View.ld x7 r0_8)
def X3 : FVec F S512x256 .f32 :=
  layerX k0_pay2 (X2 xg ag x2 x3 x4 x5 x6 x7) ag (View.ld x2 r0_10) (View.ld x3 r0_11) (View.ld x4 r0_10) (View.ld x5 r0_11) (View.ld x6 r0_10) (View.ld x7 r0_11)
def X4 : FVec F S512x256 .f32 :=
  layerX k0_pay2 (X3 xg ag x2 x3 x4 x5 x6 x7) ag (View.ld x2 r0_13) (View.ld x3 r0_14) (View.ld x4 r0_13) (View.ld x5 r0_14) (View.ld x6 r0_13) (View.ld x7 r0_14)

/-- The four layers' normalised weights, as stored: a [1, 1, 512, 512] piece each. -/
def A0 : FVec F S1x1x512x512 .f32 :=
  shapeCast S1x1x512x512 (layerA k0_pay2 xg ag (View.ld x2 r0_4) (View.ld x3 r0_5)) shapeCasts_S512x512_S1x1x512x512
def A1 : FVec F S1x1x512x512 .f32 :=
  shapeCast S1x1x512x512 (layerA k0_pay2 (X1 xg ag x2 x3 x4 x5 x6 x7) ag (View.ld x2 r0_7) (View.ld x3 r0_8)) shapeCasts_S512x512_S1x1x512x512
def A2 : FVec F S1x1x512x512 .f32 :=
  shapeCast S1x1x512x512 (layerA k0_pay2 (X2 xg ag x2 x3 x4 x5 x6 x7) ag (View.ld x2 r0_10) (View.ld x3 r0_11)) shapeCasts_S512x512_S1x1x512x512
def A3 : FVec F S1x1x512x512 .f32 :=
  shapeCast S1x1x512x512 (layerA k0_pay2 (X3 xg ag x2 x3 x4 x5 x6 x7) ag (View.ld x2 r0_13) (View.ld x3 r0_14)) shapeCasts_S512x512_S1x1x512x512

/-- The final dense map of the features after four layers, as stored: a [1, 512, 256] piece. -/
def Y (x8 : Vec F S256x256 .f32) (x9 : Vec F S256 .f32) : FVec F S1x512x256 .f32 :=
  shapeCast S1x512x256 (final (X4 xg ag x2 x3 x4 x5 x6 x7) (View.ld x8 r0_0) (View.ld x9 r0_1)) shapeCasts_S512x256_S1x512x256

end chain

variable (x0 : Vec F S2x512x256 .f32) (x1 : Vec F S2x512x512 .f32)
  (x2 : Vec F S4x256x256 .f32) (x3 : Vec F S4x256 .f32) (x4 : Vec F S4x256x256 .f32) (x5 : Vec F S4x256 .f32)
  (x6 : Vec F S4x256x256 .f32) (x7 : Vec F S4x256 .f32) (x8 : Vec F S256x256 .f32) (x9 : Vec F S256 .f32)

/-- The first and the second graph's features and adjacency, as the body loads them. -/
def xg0 : FVec F S512x256 .f32 := shapeCast S512x256 (View.ld x0 r0_2) shapeCasts_S1x512x256_S512x256
def ag0 : FVec F S512x512 .f32 := shapeCast S512x512 (View.ld x1 r0_3) shapeCasts_S1x512x512_S512x512
def xg1 : FVec F S512x256 .f32 := shapeCast S512x256 (View.ld x0 r0_16) shapeCasts_S1x512x256_S512x256
def ag1 : FVec F S512x512 .f32 := shapeCast S512x512 (View.ld x1 r0_17) shapeCasts_S1x512x512_S512x512

set_option maxHeartbeats 4000000 in
/-- The features block after the body: the two graphs' final dense maps. -/
theorem out10_eq : out0_10 x0 x1 x2 x3 x4 x5 x6 x7 x8 x9 =
    View.canon [⟨r0_16, Y (xg1 x0) (ag1 x1) x2 x3 x4 x5 x6 x7 x8 x9⟩, ⟨r0_2, Y (xg0 x0) (ag0 x1) x2 x3 x4 x5 x6 x7 x8 x9⟩] := by
  unfold out0_10
  simp only [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, Y, A0, A1, A2, A3, X1, X2, X3, X4, xg0, ag0, xg1, ag1, layerX, layerA, final, next, attn, rownorm, weights, scores, dense, mixed, rect]

set_option maxHeartbeats 4000000 in
/-- The weights block after the body: four layers' normalised weights for each of the two graphs. -/
theorem out11_eq : out0_11 x0 x1 x2 x3 x4 x5 x6 x7 x8 x9 =
    View.canon [⟨r0_21, A3 (xg1 x0) (ag1 x1) x2 x3 x4 x5 x6 x7⟩, ⟨r0_20, A2 (xg1 x0) (ag1 x1) x2 x3 x4 x5 x6 x7⟩,
      ⟨r0_19, A1 (xg1 x0) (ag1 x1) x2 x3 x4 x5 x6 x7⟩, ⟨r0_18, A0 (xg1 x0) (ag1 x1) x2 x3⟩,
      ⟨r0_15, A3 (xg0 x0) (ag0 x1) x2 x3 x4 x5 x6 x7⟩, ⟨r0_12, A2 (xg0 x0) (ag0 x1) x2 x3 x4 x5 x6 x7⟩,
      ⟨r0_9, A1 (xg0 x0) (ag0 x1) x2 x3 x4 x5 x6 x7⟩, ⟨r0_6, A0 (xg0 x0) (ag0 x1) x2 x3⟩] := by
  unfold out0_11
  simp only [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, Y, A0, A1, A2, A3, X1, X2, X3, X4, xg0, ag0, xg1, ag1, layerX, layerA, final, next, attn, rownorm, weights, scores, dense, mixed, rect]

end Cert.Gat.K

end
-- ==== Proof.Spec.lean ====
/-
  The network both programs compute, written once on the extended reals.

  One graph has node features `x` (512 nodes, 256 features) and a weighted adjacency `adj` (512 × 512). One layer:
  a dense map gives queries `q = x Waᵀ + ba`; the score of the pair (i, k) is the inner product of query row i with
  feature row k; the score goes through the logistic function; on the diagonal a small constant is added, off the
  diagonal the value is multiplied by the adjacency entry; every row is divided by its sum; the normalised weights mix
  the feature rows; two dense maps with a rectifier follow; and the layer's input is added back. Four such layers
  run one after the other, each with its own weights, and a last dense map gives the result. The four normalised
  weight matrices are results too.

  Weights are in "output by input" layout: entry (o, d) multiplies input feature d into output feature o.
-/
import Mathlib
import Idealize.ShloMosaic.PureOps.Ideal
import Idealize.ShloMosaic.Lib.ValueIdx

noncomputable section

namespace Cert.Gat

open Idealize.ShloMosaic Idealize.ShloMosaic.ValueIdx

/-- A matrix of extended reals. -/
abbrev Mat (a b : Nat) := Fin a → Fin b → EReal

/-- A dense map: row `n` of `x` against row `o` of `W`, plus the bias. -/
def lin (x : Mat 512 256) (W : Mat 256 256) (b : Fin 256 → EReal) : Mat 512 256 :=
  fun n o => (∑ d : Fin 256, x n d * W o d) + b o

/-- The score of a pair of nodes: query row `i` against feature row `k`. -/
def score (q x : Mat 512 256) : Mat 512 512 := fun i k => ∑ j : Fin 256, q i j * x k j

/-- The unnormalised weight of a pair: on the diagonal the logistic of the score plus `eps`, elsewhere the logistic
    of the score times the adjacency entry. -/
def wgt (eps : EReal) (s adj : Mat 512 512) : Mat 512 512 :=
  fun i k => if i = k then Ideal.logistic (s i k) + eps else Ideal.logistic (s i k) * adj i k

/-- Every row divided by its sum. -/
def nrm (w : Mat 512 512) : Mat 512 512 := fun i k => Ideal.div (w i k) (∑ k' : Fin 512, w i k')

/-- The weights mix the feature rows. -/
def mix (a : Mat 512 512) (x : Mat 512 256) : Mat 512 256 := fun i d => ∑ j : Fin 512, a i j * x j d

/-- The rectifier. -/
def relu (x : Mat 512 256) : Mat 512 256 := fun n o => max (x n o) 0

/-- The normalised weights of one layer. -/
def att (eps : EReal) (x : Mat 512 256) (adj : Mat 512 512) (Wa : Mat 256 256) (ba : Fin 256 → EReal) : Mat 512 512 :=
  nrm (wgt eps (score (lin x Wa ba) x) adj)

/-- One layer's new features. -/
def step (eps : EReal) (x : Mat 512 256) (adj : Mat 512 512) (Wa : Mat 256 256) (ba : Fin 256 → EReal)
    (W0 : Mat 256 256) (b0 : Fin 256 → EReal) (W1 : Mat 256 256) (b1 : Fin 256 → EReal) : Mat 512 256 :=
  fun n o => relu (lin (relu (lin (mix (att eps x adj Wa ba) x) W0 b0)) W1 b1) n o + x n o

/-- The constant added on the diagonal: the single-precision number nearest to 1e-5, as an exact real. -/
def eps : EReal := Ideal.ofBits .f32 0x3727C5AC#32

/-- The weight arrays of the network. -/
structure Wts where
  wa : (⟨3, ![4, 256, 256]⟩ : Shape).Idx → EReal
  ba : (⟨2, ![4, 256]⟩ : Shape).Idx → EReal
  w0 : (⟨3, ![4, 256, 256]⟩ : Shape).Idx → EReal
  b0 : (⟨2, ![4, 256]⟩ : Shape).Idx → EReal
  w1 : (⟨3, ![4, 256, 256]⟩ : Shape).Idx → EReal
  b1 : (⟨2, ![4, 256]⟩ : Shape).Idx → EReal
  wf : (⟨2, ![256, 256]⟩ : Shape).Idx → EReal
  bf : (⟨1, ![256]⟩ : Shape).Idx → EReal

/-- Layer `l`'s matrix of a stacked weight array. -/
def Wof (w : (⟨3, ![4, 256, 256]⟩ : Shape).Idx → EReal) (l : Fin 4) : Mat 256 256 := fun o d => w (ix3 l o d)
/-- Layer `l`'s bias of a stacked bias array. -/
def bof (b : (⟨2, ![4, 256]⟩ : Shape).Idx → EReal) (l : Fin 4) : Fin 256 → EReal := fun o => b (ix2 l o)

/-- Layer `l`'s normalised weights at features `x`. -/
def attL (P : Wts) (l : Fin 4) (x : Mat 512 256) (adj : Mat 512 512) : Mat 512 512 :=
  att eps x adj (Wof P.wa l) (bof P.ba l)
/-- Layer `l`'s new features at features `x`. -/
def stepL (P : Wts) (l : Fin 4) (x : Mat 512 256) (adj : Mat 512 512) : Mat 512 256 :=
  step eps x adj (Wof P.wa l) (bof P.ba l) (Wof P.w0 l) (bof P.b0 l) (Wof P.w1 l) (bof P.b1 l)

/-- The features after one, two, three and four layers. -/
def x1 (P : Wts) (x : Mat 512 256) (adj : Mat 512 512) : Mat 512 256 := stepL P 0 x adj
def x2 (P : Wts) (x : Mat 512 256) (adj : Mat 512 512) : Mat 512 256 := stepL P 1 (x1 P x adj) adj
def x3 (P : Wts) (x : Mat 512 256) (adj : Mat 512 512) : Mat 512 256 := stepL P 2 (x2 P x adj) adj
def x4 (P : Wts) (x : Mat 512 256) (adj : Mat 512 512) : Mat 512 256 := stepL P 3 (x3 P x adj) adj

/-- The four layers' normalised weights. -/
def aL (P : Wts) (x : Mat 512 256) (adj : Mat 512 512) : Fin 4 → Mat 512 512 :=
  ![attL P 0 x adj, attL P 1 (x1 P x adj) adj, attL P 2 (x2 P x adj) adj, attL P 3 (x3 P x adj) adj]

/-- The network's features result for one graph. -/
def y (P : Wts) (x : Mat 512 256) (adj : Mat 512 512) : Mat 512 256 :=
  lin (x4 P x adj) (fun o d => P.wf (ix2 o d)) (fun o => P.bf (ix1 o))

/-- Graph `g`'s features out of the batch array. -/
def gx (X : (⟨3, ![64, 512, 256]⟩ : Shape).Idx → EReal) (g : Fin 64) : Mat 512 256 := fun n d => X (ix3 g n d)
/-- Graph `g`'s adjacency out of the batch array. -/
def gadj (A : (⟨3, ![64, 512, 512]⟩ : Shape).Idx → EReal) (g : Fin 64) : Mat 512 512 := fun i k => A (ix3 g i k)

/-- The batch's features result, as one array. -/
def outX (P : Wts) (X : (⟨3, ![64, 512, 256]⟩ : Shape).Idx → EReal) (A : (⟨3, ![64, 512, 512]⟩ : Shape).Idx → EReal) :
    (⟨3, ![64, 512, 256]⟩ : Shape).Idx → EReal :=
  fun i => y P (gx X (i 0)) (gadj A (i 0)) (i 1) (i 2)

/-- The batch's stacked normalised weights, as one array: layer, graph, row, column. -/
def outA (P : Wts) (X : (⟨3, ![64, 512, 256]⟩ : Shape).Idx → EReal) (A : (⟨3, ![64, 512, 512]⟩ : Shape).Idx → EReal) :
    (⟨4, ![4, 64, 512, 512]⟩ : Shape).Idx → EReal :=
  fun i => aL P (gx X (i 1)) (gadj A (i 1)) (i 0) (i 2) (i 3)

end Cert.Gat

end
-- ==== Proof.LibDot.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDot

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDot
-- ==== Proof.KLayer.lean ====
/-
  The kernel's layer operations, read entry by entry, are the specification's.

  A vector of shape [512, 256] or [512, 512] is read as a matrix by its two coordinates; a transposed weight slice
  [1, 256, 256] as the "output by input" matrix whose entry (o, d) is the slice's entry (0, d, o); a bias slice
  [1, 256] as its row. Read this way, a layer's normalised weights, a layer's new features and the final dense map
  are `Cert.Gat.att`, `Cert.Gat.step` and `Cert.Gat.lin`: every matrix product into a zero accumulator is the plain
  sum over the contracted index, a change of float format is the identity on the extended reals, the row sum is
  the plain sum over the row, and the diagonal mask is "row index equals column index".
-/
import proofs.«111148_j14611478741207_2_alg».proof.Proof.KDefs
import proofs.«111148_j14611478741207_2_alg».proof.Proof.Spec
import proofs.«111148_j14611478741207_2_alg».proof.Proof.LibDot
import Idealize.ShloMosaic.Lib.Pipeline.Value
import Idealize.ShloMosaic.Lib.ValueLayout

noncomputable section

namespace Cert.Gat.K

open Idealize.ShloMosaic Idealize.ShloMosaic.ValueIdx Idealize.SL.Sem Cert.KernelIdeal Cert.KernelIdeal.Gen Cert.Gat

/-- A [512, 256] vector as a matrix. -/
def toM {φ : FTy} (v : FVec Ideal S512x256 φ) : Mat 512 256 := fun n d => v (ix2 n d)
/-- A [512, 512] vector as a matrix. -/
def toS {φ : FTy} (v : FVec Ideal S512x512 φ) : Mat 512 512 := fun i k => v (ix2 i k)
/-- A transposed weight slice as the "output by input" matrix. -/
def wT (w : Vec Ideal S1x256x256 .f32) : Mat 256 256 := fun o d => w (ix3 0 d o)
/-- A bias slice as its row. -/
def bV (b : Vec Ideal S1x256 .f32) : Fin 256 → EReal := fun o => b (ix2 0 o)

/-! ## The three products' dimension records -/

/-- The dense map's record is a plain rows-by-columns product. -/
theorem plain_dense : Cert.LibDot.Plain dot_S512x256_S256x256_S512x256_1_0_0_1_n_n where
  hrank := rfl
  hs := rfl
  hl0 := fun _ _ => rfl
  hl1 := fun j k => dot_S512x256_S256x256_S512x256_1_0_0_1_n_n.lhsIdx_val_of_single rfl j k
  hr0 := fun j k => dot_S512x256_S256x256_S512x256_1_0_0_1_n_n.rhsIdx_val_of_single rfl j k
  hr1 := fun _ _ => rfl

/-- The mix's record is a plain rows-by-columns product. -/
theorem plain_mix : Cert.LibDot.Plain dot_S512x512_S512x256_S512x256_1_0_0_1_n_n where
  hrank := rfl
  hs := rfl
  hl0 := fun _ _ => rfl
  hl1 := fun j k => dot_S512x512_S512x256_S512x256_1_0_0_1_n_n.lhsIdx_val_of_single rfl j k
  hr0 := fun j k => dot_S512x512_S512x256_S512x256_1_0_0_1_n_n.rhsIdx_val_of_single rfl j k
  hr1 := fun _ _ => rfl

/-- The scores' product contracts the second axis of both operands: at entry (i, k) it is the sum over j of
    left entry (i, j) times right entry (k, j). -/
theorem scores_sum (lhs : (⟨2, ![512, 256]⟩ : Shape).Idx → EReal) (rhs : (⟨2, ![512, 256]⟩ : Shape).Idx → EReal)
    (i k : Fin 512) :
    ∑ q : dot_S512x256_S512x256_S512x512_1_1_0_0_n_n.contr.Idx,
        lhs (dot_S512x256_S512x256_S512x512_1_1_0_0_n_n.lhsIdx (ix2 i k) q)
          * rhs (dot_S512x256_S512x256_S512x512_1_1_0_0_n_n.rhsIdx (ix2 i k) q)
      = ∑ j : Fin 256, lhs (ix2 i j) * rhs (ix2 k j) := by
  rw [← Equiv.sum_comp (contrEquiv1 dot_S512x256_S512x256_S512x512_1_1_0_0_n_n 256 rfl rfl).symm]
  refine Finset.sum_congr rfl fun j _ => ?_
  have e := contrEquiv1_symm_val dot_S512x256_S512x256_S512x512_1_1_0_0_n_n 256 rfl rfl j
  have el : dot_S512x256_S512x256_S512x512_1_1_0_0_n_n.lhsIdx (ix2 i k)
      ((contrEquiv1 dot_S512x256_S512x256_S512x512_1_1_0_0_n_n 256 rfl rfl).symm j) = ix2 i j := by
    funext a; apply Fin.ext
    match a with
    | ⟨0, _⟩ => rfl
    | ⟨1, _⟩ => exact (dot_S512x256_S512x256_S512x512_1_1_0_0_n_n.lhsIdx_val_of_single rfl _ _).trans e
  have er : dot_S512x256_S512x256_S512x512_1_1_0_0_n_n.rhsIdx (ix2 i k)
      ((contrEquiv1 dot_S512x256_S512x256_S512x512_1_1_0_0_n_n 256 rfl rfl).symm j) = ix2 k j := by
    funext a; apply Fin.ext
    match a with
    | ⟨0, _⟩ => rfl
    | ⟨1, _⟩ => exact (dot_S512x256_S512x256_S512x512_1_1_0_0_n_n.rhsIdx_val_of_single rfl _ _).trans e
  rw [el, er]

/-- The scores' product into a zero accumulator, at entry (i, k). -/
theorem matmul_scores_ix2 {φ₁ φ₂ : FTy} (prec : Option ContractPrecision)
    (a : FVec Ideal S512x256 φ₁) (b : FVec Ideal S512x256 φ₂) (i k : Fin 512) :
    matmul dot_S512x256_S512x256_S512x512_1_1_0_0_n_n prec a b (constant S512x512 .f32 0x00000000#32) (ix2 i k)
      = ∑ j : Fin 256, a (ix2 i j) * b (ix2 k j) :=
  (Ideal.matmul_constant_zero_apply dot_S512x256_S512x256_S512x512_1_1_0_0_n_n prec a b (ix2 i k)).trans (scores_sum a b i k)

/-! ## The diagonal mask -/

/-- Two 32-bit words of numbers below 512 are equal exactly when the numbers are. -/
theorem ofNat32_inj {a b : Nat} (ha : a < 512) (hb : b < 512) : BitVec.ofNat 32 a = BitVec.ofNat 32 b ↔ a = b := by
  constructor
  · intro h
    have h' := congrArg BitVec.toNat h
    simp only [BitVec.toNat_ofNat] at h'
    omega
  · rintro rfl; rfl

/-- The mask at (i, k) is the bit of "i = k". -/
theorem mask_apply (i k : Fin 512) : k0_pay2 (ix2 i k) = if i = k then 1#1 else 0#1 := by
  unfold k0_pay2
  show IntOp.cmpi .eq (iota .tc S512x512 32 [0] iota_S512x512_d0_w32 (ix2 i k)) (iota .tc S512x512 32 [1] iota_S512x512_d1_w32 (ix2 i k)) = _
  rw [iota_single_apply, iota_single_apply]
  show BitVec.ofBool (BitVec.ofNat 32 i.val == BitVec.ofNat 32 k.val) = _
  by_cases h : i = k
  · subst h
    rw [if_pos rfl, beq_self_eq_true]; rfl
  · rw [if_neg h]
    have hne : BitVec.ofNat 32 i.val ≠ BitVec.ofNat 32 k.val := fun hh => h (Fin.ext ((ofNat32_inj i.isLt k.isLt).1 hh))
    rw [beq_eq_false_iff_ne.2 hne]; rfl

/-- A select on the mask is the choice on "i = k". -/
theorem select_mask_apply {α : Type} (a b : S512x512.Idx → α) (i k : Fin 512) :
    select k0_pay2 a b (ix2 i k) = if i = k then a (ix2 i k) else b (ix2 i k) := by
  rw [select_apply, mask_apply]
  by_cases h : i = k
  · rw [if_pos h, if_pos h, select_one]
  · rw [if_neg h, if_neg h, select_zero]

/-! ## The row sum and the column forms -/

/-- The sum along the second axis, at row i. -/
theorem rowsum_apply (w : FVec Ideal S512x512 .f32) (i : Fin 512) :
    multiReduction (F := Ideal) .add [1] S512 w 0x00000000#32 reduces_S512x512_S512 (.inl rfl) rfl (ix1 i)
      = ∑ k : Fin 512, w (ix2 i k) := by
  refine (Ideal.multiReduction_add_single w 0x00000000#32 reduces_S512x512_S512 (.inl rfl) rfl (ix1 i)).trans ?_
  refine Finset.sum_congr rfl fun k _ => congrArg w ?_
  funext a
  match a with
  | ⟨0, _⟩ => rfl
  | ⟨1, _⟩ => rfl

/-- A [512] vector as a [512, 1] column reads its entry at the row. -/
theorem shapeCast_a_a1_apply {α : Type} (x : S512.Idx → α) (h : S512.ShapeCasts S512x1) (i : Fin 512) (u : Fin 1) :
    shapeCast S512x1 x h (ix2 i u) = x (ix1 i) :=
  shapeCast_apply x h _ _ (by
    have hu : u.val = 0 := by omega
    rw [Shape.rowMajor_val_two, Shape.rowMajor_val_one]
    show i.val = i.val * 1 + u.val
    omega)

/-- A [512, 1] column broadcast over 512 columns reads, at (i, k), the column's entry at row i. -/
theorem broadcastTo_a1_ab_apply {α : Type} (v : S512x1.Idx → α) (h : S512x1.Broadcasts S512x512) (i k : Fin 512) :
    broadcastTo S512x512 v h (ix2 i k) = v (ix2 i (0 : Fin 1)) := by
  refine broadcastTo_apply v h (ix2 i k) (ix2 i (0 : Fin 1)) fun ax => ?_
  match ax with
  | ⟨0, _⟩ => rfl
  | ⟨1, _⟩ => rfl

/-! ## The operations as matrices -/

/-- A change of float format does not change the matrix. -/
theorem toM_truncf {φ ψ : FTy} (v : FVec Ideal S512x256 φ) (h : ψ.bits < φ.bits) : toM (truncf ψ v h) = toM v := rfl
/-- The same for a [512, 512] vector. -/
theorem toS_truncf {φ ψ : FTy} (v : FVec Ideal S512x512 φ) (h : ψ.bits < φ.bits) : toS (truncf ψ v h) = toS v := rfl

/-- A sum of vectors is the entrywise sum of the matrices. -/
theorem toM_addf {φ : FTy} (a b : FVec Ideal S512x256 φ) : toM (addf a b) = fun n o => toM a n o + toM b n o := rfl

/-- The dense map is the specification's. -/
theorem toM_dense (v : FVec Ideal S512x256 .bf16) (w : Vec Ideal S1x256x256 .f32) (b : Vec Ideal S1x256 .f32) :
    toM (dense v w b) = lin (toM v) (wT w) (bV b) := by
  funext n o
  show dense v w b (ix2 n o) = _
  unfold dense
  rw [addf_apply, Cert.LibDot.matmul_ix2 plain_dense, broadcastTo_1b_ab_apply, shapeCast_a_1a_apply, shapeCast_1a_a_apply]
  unfold lin
  refine congrArg (· + b (ix2 0 o)) (Finset.sum_congr rfl fun d _ => ?_)
  rw [truncf_apply, shapeCast_1ab_ab_apply]
  rfl

/-- The scores are the specification's. -/
theorem toS_scores (q : FVec Ideal S512x256 .f32) (xbf : FVec Ideal S512x256 .bf16) :
    toS (scores q xbf) = score (toM q) (toM xbf) := by
  funext i k
  show scores q xbf (ix2 i k) = _
  unfold scores
  rw [matmul_scores_ix2]
  rfl

/-- The unnormalised weights are the specification's. -/
theorem toS_weights (s adj : FVec Ideal S512x512 .f32) :
    toS (weights k0_pay2 s adj) = wgt eps (toS s) (toS adj) := by
  funext i k
  show weights k0_pay2 s adj (ix2 i k) = _
  unfold weights
  rw [select_mask_apply]
  rfl

/-- The division of every row by its sum is the specification's. -/
theorem toS_rownorm (w : FVec Ideal S512x512 .f32) : toS (rownorm w) = nrm (toS w) := by
  funext i k
  show rownorm w (ix2 i k) = _
  unfold rownorm
  rw [divf_apply, broadcastTo_a1_ab_apply, shapeCast_a_a1_apply, rowsum_apply]
  rfl

/-- The mix is the specification's. -/
theorem toM_mixed (abf : FVec Ideal S512x512 .bf16) (xbf : FVec Ideal S512x256 .bf16) :
    toM (mixed abf xbf) = mix (toS abf) (toM xbf) := by
  funext i d
  show mixed abf xbf (ix2 i d) = _
  unfold mixed
  rw [Cert.LibDot.matmul_ix2 plain_mix]
  rfl

/-- The rectifier is the specification's. -/
theorem toM_rect (v : FVec Ideal S512x256 .f32) : toM (rect v) = relu (toM v) := by
  funext n o
  show rect v (ix2 n o) = _
  unfold rect
  rw [maximumf_apply, broadcast_apply]
  show max (v (ix2 n o)) (Ideal.ofBits .f32 0x00000000#32) = _
  rw [Ideal.ofBits_zero_f32]
  rfl

/-! ## The three results -/

/-- A layer's normalised weights. -/
theorem layerA_eq (x : FVec Ideal S512x256 .f32) (adj : FVec Ideal S512x512 .f32) (wa : Vec Ideal S1x256x256 .f32) (ba : Vec Ideal S1x256 .f32) :
    toS (layerA k0_pay2 x adj wa ba) = att eps (toM x) (toS adj) (wT wa) (bV ba) := by
  unfold layerA attn
  rw [toS_rownorm, toS_weights, toS_scores, toM_dense, toM_truncf]
  rfl

/-- A layer's new features. -/
theorem layerX_eq (x : FVec Ideal S512x256 .f32) (adj : FVec Ideal S512x512 .f32) (wa : Vec Ideal S1x256x256 .f32) (ba : Vec Ideal S1x256 .f32)
    (w0 : Vec Ideal S1x256x256 .f32) (b0 : Vec Ideal S1x256 .f32) (w1 : Vec Ideal S1x256x256 .f32) (b1 : Vec Ideal S1x256 .f32) :
    toM (layerX k0_pay2 x adj wa ba w0 b0 w1 b1)
      = step eps (toM x) (toS adj) (wT wa) (bV ba) (wT w0) (bV b0) (wT w1) (bV b1) := by
  unfold layerX next
  rw [toM_addf, toM_rect, toM_dense, toM_truncf, toM_rect, toM_dense, toM_truncf, toM_mixed, toS_truncf, layerA_eq, toM_truncf]
  rfl

/-- The final dense map. -/
theorem final_eq (x : FVec Ideal S512x256 .f32) (wf : Vec Ideal S256x256 .f32) (bf : Vec Ideal S256 .f32) :
    toM (final x wf bf) = lin (toM x) (fun o d => wf (ix2 d o)) (fun o => bf (ix1 o)) := by
  funext n o
  show final x wf bf (ix2 n o) = _
  unfold final
  rw [addf_apply, Cert.LibDot.matmul_ix2 plain_dense, broadcastTo_1b_ab_apply, shapeCast_a_1a_apply]
  unfold lin
  refine congrArg (· + bf (ix1 o)) (Finset.sum_congr rfl fun d _ => ?_)
  rw [truncf_apply, truncf_apply, shapeCast_self]
  rfl

end Cert.Gat.K

end
-- ==== Proof.KBlk.lean ====
/-
  One grid point's two result blocks as functions of its input blocks.

  A grid point's input blocks are: two graphs' features [2, 512, 256] and adjacency [2, 512, 512], the three stacked
  weight arrays, each layer's matrix already transposed ([4, 256, 256], entry (l, d, o) the weight of input feature d
  into output feature o), their biases [4, 256], the transposed final matrix [256, 256] and the final bias [256].
  Reading the weight blocks back in "output by input" layout gives a set of network weights `blkP`; graph `sb` of the
  block has features `blkX sb` and adjacency `blkAdj sb`. What the body leaves in the features block at
  (sb, n, o) is the network's features result for graph sb, and in the weights block at (l, sb, i, k) layer l's
  normalised weights for graph sb: every stored piece is that one function of the block index, and the pieces cover.
-/
import proofs.«111148_j14611478741207_2_alg».proof.Proof.KPay
import proofs.«111148_j14611478741207_2_alg».proof.Proof.KLayer

noncomputable section

namespace Cert.Gat.K

open Idealize.ShloMosaic Idealize.ShloMosaic.ValueIdx Idealize.SL.Sem Cert.KernelIdeal Cert.KernelIdeal.Gen Cert.Gat

variable (x0 : Vec Ideal S2x512x256 .f32) (x1 : Vec Ideal S2x512x512 .f32)
  (x2 : Vec Ideal S4x256x256 .f32) (x3 : Vec Ideal S4x256 .f32) (x4 : Vec Ideal S4x256x256 .f32) (x5 : Vec Ideal S4x256 .f32)
  (x6 : Vec Ideal S4x256x256 .f32) (x7 : Vec Ideal S4x256 .f32) (x8 : Vec Ideal S256x256 .f32) (x9 : Vec Ideal S256 .f32)

/-- The network weights the weight blocks denote: every matrix transposed back to "output by input". -/
def blkP : Wts where
  wa := fun i => x2 (ix3 (i 0) (i 2) (i 1))
  ba := fun i => x3 i
  w0 := fun i => x4 (ix3 (i 0) (i 2) (i 1))
  b0 := fun i => x5 i
  w1 := fun i => x6 (ix3 (i 0) (i 2) (i 1))
  b1 := fun i => x7 i
  wf := fun i => x8 (ix2 (i 1) (i 0))
  bf := fun i => x9 i

/-- Graph `sb` of the block: its features and its adjacency. -/
def blkX (sb : Fin 2) : Mat 512 256 := fun n d => x0 (ix3 sb n d)
def blkAdj (sb : Fin 2) : Mat 512 512 := fun i k => x1 (ix3 sb i k)

/-- The features block after the body. -/
def GX : S2x512x256.Idx → EReal :=
  fun j => y (blkP x2 x3 x4 x5 x6 x7 x8 x9) (blkX x0 (j 0)) (blkAdj x1 (j 0)) (j 1) (j 2)

/-- The weights block after the body. -/
def GA : S4x2x512x512.Idx → EReal :=
  fun j => aL (blkP x2 x3 x4 x5 x6 x7 x8 x9) (blkX x0 (j 1)) (blkAdj x1 (j 1)) (j 0) (j 2) (j 3)

/-! ## The loaded slices -/

/-- A load through a unit-stride rectangle reads the contents at the rectangle's offsets plus the local index. -/
theorem ld_apply {S : Shape} {e : EltTy} {Val : EltTy → Type} (X : S.Idx → Val e) (r : Rect S) (j : r.shape.Idx) :
    View.ld X r j = X (r.emb j) := rfl

theorem wT_ld0 (x : Vec Ideal S4x256x256 .f32) : wT (View.ld x r0_4) = fun o d => x (ix3 0 d o) := by
  funext o d
  show x (r0_4.emb (ix3 0 d o)) = x (ix3 0 d o)
  refine congrArg x (funext fun a => Fin.ext ?_)
  match a with
  | ⟨0, _⟩ => rfl
  | ⟨1, _⟩ => show 0 + 1 * (d : Nat) = d; omega
  | ⟨2, _⟩ => show 0 + 1 * (o : Nat) = o; omega
theorem bV_ld0 (x : Vec Ideal S4x256 .f32) : bV (View.ld x r0_5) = fun o => x (ix2 0 o) := by
  funext o
  show x (r0_5.emb (ix2 0 o)) = x (ix2 0 o)
  refine congrArg x (funext fun a => Fin.ext ?_)
  match a with
  | ⟨0, _⟩ => rfl
  | ⟨1, _⟩ => show 0 + 1 * (o : Nat) = o; omega
theorem wT_ld1 (x : Vec Ideal S4x256x256 .f32) : wT (View.ld x r0_7) = fun o d => x (ix3 1 d o) := by
  funext o d
  show x (r0_7.emb (ix3 0 d o)) = x (ix3 1 d o)
  refine congrArg x (funext fun a => Fin.ext ?_)
  match a with
  | ⟨0, _⟩ => rfl
  | ⟨1, _⟩ => show 0 + 1 * (d : Nat) = d; omega
  | ⟨2, _⟩ => show 0 + 1 * (o : Nat) = o; omega
theorem bV_ld1 (x : Vec Ideal S4x256 .f32) : bV (View.ld x r0_8) = fun o => x (ix2 1 o) := by
  funext o
  show x (r0_8.emb (ix2 0 o)) = x (ix2 1 o)
  refine congrArg x (funext fun a => Fin.ext ?_)
  match a with
  | ⟨0, _⟩ => rfl
  | ⟨1, _⟩ => show 0 + 1 * (o : Nat) = o; omega
theorem wT_ld2 (x : Vec Ideal S4x256x256 .f32) : wT (View.ld x r0_10) = fun o d => x (ix3 2 d o) := by
  funext o d
  show x (r0_10.emb (ix3 0 d o)) = x (ix3 2 d o)
  refine congrArg x (funext fun a => Fin.ext ?_)
  match a with
  | ⟨0, _⟩ => rfl
  | ⟨1, _⟩ => show 0 + 1 * (d : Nat) = d; omega
  | ⟨2, _⟩ => show 0 + 1 * (o : Nat) = o; omega
theorem bV_ld2 (x : Vec Ideal S4x256 .f32) : bV (View.ld x r0_11) = fun o => x (ix2 2 o) := by
  funext o
  show x (r0_11.emb (ix2 0 o)) = x (ix2 2 o)
  refine congrArg x (funext fun a => Fin.ext ?_)
  match a with
  | ⟨0, _⟩ => rfl
  | ⟨1, _⟩ => show 0 + 1 * (o : Nat) = o; omega
theorem wT_ld3 (x : Vec Ideal S4x256x256 .f32) : wT (View.ld x r0_13) = fun o d => x (ix3 3 d o) := by
  funext o d
  show x (r0_13.emb (ix3 0 d o)) = x (ix3 3 d o)
  refine congrArg x (funext fun a => Fin.ext ?_)
  match a with
  | ⟨0, _⟩ => rfl
  | ⟨1, _⟩ => show 0 + 1 * (d : Nat) = d; omega
  | ⟨2, _⟩ => show 0 + 1 * (o : Nat) = o; omega
theorem bV_ld3 (x : Vec Ideal S4x256 .f32) : bV (View.ld x r0_14) = fun o => x (ix2 3 o) := by
  funext o
  show x (r0_14.emb (ix2 0 o)) = x (ix2 3 o)
  refine congrArg x (funext fun a => Fin.ext ?_)
  match a with
  | ⟨0, _⟩ => rfl
  | ⟨1, _⟩ => show 0 + 1 * (o : Nat) = o; omega

theorem ld_whole8 (x : Vec Ideal S256x256 .f32) : View.ld x r0_0 = x :=
  View.ld_unit_zero (funext fun a => by fin_cases a <;> rfl) _ x
theorem ld_whole9 (x : Vec Ideal S256 .f32) : View.ld x r0_1 = x :=
  View.ld_unit_zero (funext fun a => by fin_cases a <;> rfl) _ x

/-- The two graphs' features and adjacency as the body loads them are the block's graphs. -/
theorem toM_xg0 : toM (xg0 x0) = blkX x0 0 := by
  funext n d
  show shapeCast S512x256 (View.ld x0 r0_2) shapeCasts_S1x512x256_S512x256 (ix2 n d) = x0 (ix3 0 n d)
  rw [shapeCast_apply (View.ld x0 r0_2) shapeCasts_S1x512x256_S512x256 (ix2 n d) (ix3 0 n d) (by
    rw [Shape.rowMajor_val_three, Shape.rowMajor_val_two]
    show ((0 : Nat) * 512 + (n : Nat)) * 256 + (d : Nat) = (n : Nat) * 256 + (d : Nat); omega)]
  show x0 (r0_2.emb (ix3 0 n d)) = x0 (ix3 0 n d)
  refine congrArg x0 (funext fun a => Fin.ext ?_)
  match a with
  | ⟨0, _⟩ => rfl
  | ⟨1, _⟩ => show 0 + 1 * (n : Nat) = n; omega
  | ⟨2, _⟩ => show 0 + 1 * (d : Nat) = d; omega
theorem toM_xg1 : toM (xg1 x0) = blkX x0 1 := by
  funext n d
  show shapeCast S512x256 (View.ld x0 r0_16) shapeCasts_S1x512x256_S512x256 (ix2 n d) = x0 (ix3 1 n d)
  rw [shapeCast_apply (View.ld x0 r0_16) shapeCasts_S1x512x256_S512x256 (ix2 n d) (ix3 0 n d) (by
    rw [Shape.rowMajor_val_three, Shape.rowMajor_val_two]
    show ((0 : Nat) * 512 + (n : Nat)) * 256 + (d : Nat) = (n : Nat) * 256 + (d : Nat); omega)]
  show x0 (r0_16.emb (ix3 0 n d)) = x0 (ix3 1 n d)
  refine congrArg x0 (funext fun a => Fin.ext ?_)
  match a with
  | ⟨0, _⟩ => rfl
  | ⟨1, _⟩ => show 0 + 1 * (n : Nat) = n; omega
  | ⟨2, _⟩ => show 0 + 1 * (d : Nat) = d; omega
theorem toS_ag0 : toS (ag0 x1) = blkAdj x1 0 := by
  funext i k
  show shapeCast S512x512 (View.ld x1 r0_3) shapeCasts_S1x512x512_S512x512 (ix2 i k) = x1 (ix3 0 i k)
  rw [shapeCast_apply (View.ld x1 r0_3) shapeCasts_S1x512x512_S512x512 (ix2 i k) (ix3 0 i k) (by
    rw [Shape.rowMajor_val_three, Shape.rowMajor_val_two]
    show ((0 : Nat) * 512 + (i : Nat)) * 512 + (k : Nat) = (i : Nat) * 512 + (k : Nat); omega)]
  show x1 (r0_3.emb (ix3 0 i k)) = x1 (ix3 0 i k)
  refine congrArg x1 (funext fun a => Fin.ext ?_)
  match a with
  | ⟨0, _⟩ => rfl
  | ⟨1, _⟩ => show 0 + 1 * (i : Nat) = i; omega
  | ⟨2, _⟩ => show 0 + 1 * (k : Nat) = k; omega
theorem toS_ag1 : toS (ag1 x1) = blkAdj x1 1 := by
  funext i k
  show shapeCast S512x512 (View.ld x1 r0_17) shapeCasts_S1x512x512_S512x512 (ix2 i k) = x1 (ix3 1 i k)
  rw [shapeCast_apply (View.ld x1 r0_17) shapeCasts_S1x512x512_S512x512 (ix2 i k) (ix3 0 i k) (by
    rw [Shape.rowMajor_val_three, Shape.rowMajor_val_two]
    show ((0 : Nat) * 512 + (i : Nat)) * 512 + (k : Nat) = (i : Nat) * 512 + (k : Nat); omega)]
  show x1 (r0_17.emb (ix3 0 i k)) = x1 (ix3 1 i k)
  refine congrArg x1 (funext fun a => Fin.ext ?_)
  match a with
  | ⟨0, _⟩ => rfl
  | ⟨1, _⟩ => show 0 + 1 * (i : Nat) = i; omega
  | ⟨2, _⟩ => show 0 + 1 * (k : Nat) = k; omega

/-! ## One graph through the four layers -/

section chain
variable (xg : FVec Ideal S512x256 .f32) (ag : FVec Ideal S512x512 .f32)

local notation "PP" => blkP x2 x3 x4 x5 x6 x7 x8 x9

theorem toM_X1 : toM (X1 xg ag x2 x3 x4 x5 x6 x7) = Gat.x1 PP (toM xg) (toS ag) := by
  unfold X1; rw [layerX_eq, wT_ld0, bV_ld0, wT_ld0, bV_ld0, wT_ld0, bV_ld0]; rfl
theorem toM_X2 : toM (X2 xg ag x2 x3 x4 x5 x6 x7) = Gat.x2 PP (toM xg) (toS ag) := by
  unfold X2; rw [layerX_eq, toM_X1 x2 x3 x4 x5 x6 x7 x8 x9, wT_ld1, bV_ld1, wT_ld1, bV_ld1, wT_ld1, bV_ld1]; rfl
theorem toM_X3 : toM (X3 xg ag x2 x3 x4 x5 x6 x7) = Gat.x3 PP (toM xg) (toS ag) := by
  unfold X3; rw [layerX_eq, toM_X2 x2 x3 x4 x5 x6 x7 x8 x9, wT_ld2, bV_ld2, wT_ld2, bV_ld2, wT_ld2, bV_ld2]; rfl
theorem toM_X4 : toM (X4 xg ag x2 x3 x4 x5 x6 x7) = Gat.x4 PP (toM xg) (toS ag) := by
  unfold X4; rw [layerX_eq, toM_X3 x2 x3 x4 x5 x6 x7 x8 x9, wT_ld3, bV_ld3, wT_ld3, bV_ld3, wT_ld3, bV_ld3]; rfl

theorem toS_L0 : toS (layerA k0_pay2 xg ag (View.ld x2 r0_4) (View.ld x3 r0_5)) = aL PP (toM xg) (toS ag) 0 := by
  rw [layerA_eq, wT_ld0, bV_ld0]; rfl
theorem toS_L1 : toS (layerA k0_pay2 (X1 xg ag x2 x3 x4 x5 x6 x7) ag (View.ld x2 r0_7) (View.ld x3 r0_8)) = aL PP (toM xg) (toS ag) 1 := by
  rw [layerA_eq, toM_X1 x2 x3 x4 x5 x6 x7 x8 x9, wT_ld1, bV_ld1]; rfl
theorem toS_L2 : toS (layerA k0_pay2 (X2 xg ag x2 x3 x4 x5 x6 x7) ag (View.ld x2 r0_10) (View.ld x3 r0_11)) = aL PP (toM xg) (toS ag) 2 := by
  rw [layerA_eq, toM_X2 x2 x3 x4 x5 x6 x7 x8 x9, wT_ld2, bV_ld2]; rfl
theorem toS_L3 : toS (layerA k0_pay2 (X3 xg ag x2 x3 x4 x5 x6 x7) ag (View.ld x2 r0_13) (View.ld x3 r0_14)) = aL PP (toM xg) (toS ag) 3 := by
  rw [layerA_eq, toM_X3 x2 x3 x4 x5 x6 x7 x8 x9, wT_ld3, bV_ld3]; rfl

theorem toM_final : toM (final (X4 xg ag x2 x3 x4 x5 x6 x7) (View.ld x8 r0_0) (View.ld x9 r0_1)) = Gat.y PP (toM xg) (toS ag) := by
  rw [final_eq, toM_X4 x2 x3 x4 x5 x6 x7 x8 x9, ld_whole8, ld_whole9]; rfl

end chain

/-! ## The stored pieces are the block functions -/

/-- A [512, 512] matrix stored as a [1, 1, 512, 512] piece, read at a local index. -/
theorem piece4 (v : FVec Ideal S512x512 .f32) (x : S1x1x512x512.Idx) :
    shapeCast S1x1x512x512 v shapeCasts_S512x512_S1x1x512x512 x = toS v (x 2) (x 3) := by
  refine shapeCast_apply v shapeCasts_S512x512_S1x1x512x512 x (ix2 (x 2) (x 3)) ?_
  rw [Shape.rowMajor_val_two, Shape.rowMajor_val_four]
  have h0 : (x 0 : Nat) = 0 := by have h : (x 0 : Nat) < 1 := (x 0).isLt; omega
  have h1 : (x 1 : Nat) = 0 := by have h : (x 1 : Nat) < 1 := (x 1).isLt; omega
  show (x 2 : Nat) * 512 + (x 3 : Nat) = (((x 0 : Nat) * 1 + (x 1 : Nat)) * 512 + (x 2 : Nat)) * 512 + (x 3 : Nat)
  rw [h0, h1]; omega

/-- A [512, 256] matrix stored as a [1, 512, 256] piece, read at a local index. -/
theorem piece3 (v : FVec Ideal S512x256 .f32) (x : S1x512x256.Idx) :
    shapeCast S1x512x256 v shapeCasts_S512x256_S1x512x256 x = toM v (x 1) (x 2) := by
  refine shapeCast_apply v shapeCasts_S512x256_S1x512x256 x (ix2 (x 1) (x 2)) ?_
  rw [Shape.rowMajor_val_two, Shape.rowMajor_val_three]
  have h0 : (x 0 : Nat) = 0 := by have h : (x 0 : Nat) < 1 := (x 0).isLt; omega
  show (x 1 : Nat) * 256 + (x 2 : Nat) = ((x 0 : Nat) * 512 + (x 1 : Nat)) * 256 + (x 2 : Nat)
  rw [h0]; omega

/-! ## The blocks after the body -/

theorem emb_r0_21 (x : S1x1x512x512.Idx) : r0_21.emb x = (ix4 (3 : Fin 4) (1 : Fin 2) (x 2) (x 3) : S4x2x512x512.Idx) := by
  funext a; apply Fin.ext
  have h0 : (x 0 : Nat) = 0 := by have h : (x 0 : Nat) < 1 := (x 0).isLt; omega
  have h1 : (x 1 : Nat) = 0 := by have h : (x 1 : Nat) < 1 := (x 1).isLt; omega
  match a with
  | ⟨0, _⟩ => show 3 + 1 * (x 0 : Nat) = 3; omega
  | ⟨1, _⟩ => show 1 + 1 * (x 1 : Nat) = 1; omega
  | ⟨2, _⟩ => show 0 + 1 * (x 2 : Nat) = (x 2 : Nat); omega
  | ⟨3, _⟩ => show 0 + 1 * (x 3 : Nat) = (x 3 : Nat); omega
theorem emb_r0_20 (x : S1x1x512x512.Idx) : r0_20.emb x = (ix4 (2 : Fin 4) (1 : Fin 2) (x 2) (x 3) : S4x2x512x512.Idx) := by
  funext a; apply Fin.ext
  have h0 : (x 0 : Nat) = 0 := by have h : (x 0 : Nat) < 1 := (x 0).isLt; omega
  have h1 : (x 1 : Nat) = 0 := by have h : (x 1 : Nat) < 1 := (x 1).isLt; omega
  match a with
  | ⟨0, _⟩ => show 2 + 1 * (x 0 : Nat) = 2; omega
  | ⟨1, _⟩ => show 1 + 1 * (x 1 : Nat) = 1; omega
  | ⟨2, _⟩ => show 0 + 1 * (x 2 : Nat) = (x 2 : Nat); omega
  | ⟨3, _⟩ => show 0 + 1 * (x 3 : Nat) = (x 3 : Nat); omega
theorem emb_r0_19 (x : S1x1x512x512.Idx) : r0_19.emb x = (ix4 (1 : Fin 4) (1 : Fin 2) (x 2) (x 3) : S4x2x512x512.Idx) := by
  funext a; apply Fin.ext
  have h0 : (x 0 : Nat) = 0 := by have h : (x 0 : Nat) < 1 := (x 0).isLt; omega
  have h1 : (x 1 : Nat) = 0 := by have h : (x 1 : Nat) < 1 := (x 1).isLt; omega
  match a with
  | ⟨0, _⟩ => show 1 + 1 * (x 0 : Nat) = 1; omega
  | ⟨1, _⟩ => show 1 + 1 * (x 1 : Nat) = 1; omega
  | ⟨2, _⟩ => show 0 + 1 * (x 2 : Nat) = (x 2 : Nat); omega
  | ⟨3, _⟩ => show 0 + 1 * (x 3 : Nat) = (x 3 : Nat); omega
theorem emb_r0_18 (x : S1x1x512x512.Idx) : r0_18.emb x = (ix4 (0 : Fin 4) (1 : Fin 2) (x 2) (x 3) : S4x2x512x512.Idx) := by
  funext a; apply Fin.ext
  have h0 : (x 0 : Nat) = 0 := by have h : (x 0 : Nat) < 1 := (x 0).isLt; omega
  have h1 : (x 1 : Nat) = 0 := by have h : (x 1 : Nat) < 1 := (x 1).isLt; omega
  match a with
  | ⟨0, _⟩ => show 0 + 1 * (x 0 : Nat) = 0; omega
  | ⟨1, _⟩ => show 1 + 1 * (x 1 : Nat) = 1; omega
  | ⟨2, _⟩ => show 0 + 1 * (x 2 : Nat) = (x 2 : Nat); omega
  | ⟨3, _⟩ => show 0 + 1 * (x 3 : Nat) = (x 3 : Nat); omega
theorem emb_r0_15 (x : S1x1x512x512.Idx) : r0_15.emb x = (ix4 (3 : Fin 4) (0 : Fin 2) (x 2) (x 3) : S4x2x512x512.Idx) := by
  funext a; apply Fin.ext
  have h0 : (x 0 : Nat) = 0 := by have h : (x 0 : Nat) < 1 := (x 0).isLt; omega
  have h1 : (x 1 : Nat) = 0 := by have h : (x 1 : Nat) < 1 := (x 1).isLt; omega
  match a with
  | ⟨0, _⟩ => show 3 + 1 * (x 0 : Nat) = 3; omega
  | ⟨1, _⟩ => show 0 + 1 * (x 1 : Nat) = 0; omega
  | ⟨2, _⟩ => show 0 + 1 * (x 2 : Nat) = (x 2 : Nat); omega
  | ⟨3, _⟩ => show 0 + 1 * (x 3 : Nat) = (x 3 : Nat); omega
theorem emb_r0_12 (x : S1x1x512x512.Idx) : r0_12.emb x = (ix4 (2 : Fin 4) (0 : Fin 2) (x 2) (x 3) : S4x2x512x512.Idx) := by
  funext a; apply Fin.ext
  have h0 : (x 0 : Nat) = 0 := by have h : (x 0 : Nat) < 1 := (x 0).isLt; omega
  have h1 : (x 1 : Nat) = 0 := by have h : (x 1 : Nat) < 1 := (x 1).isLt; omega
  match a with
  | ⟨0, _⟩ => show 2 + 1 * (x 0 : Nat) = 2; omega
  | ⟨1, _⟩ => show 0 + 1 * (x 1 : Nat) = 0; omega
  | ⟨2, _⟩ => show 0 + 1 * (x 2 : Nat) = (x 2 : Nat); omega
  | ⟨3, _⟩ => show 0 + 1 * (x 3 : Nat) = (x 3 : Nat); omega
theorem emb_r0_9 (x : S1x1x512x512.Idx) : r0_9.emb x = (ix4 (1 : Fin 4) (0 : Fin 2) (x 2) (x 3) : S4x2x512x512.Idx) := by
  funext a; apply Fin.ext
  have h0 : (x 0 : Nat) = 0 := by have h : (x 0 : Nat) < 1 := (x 0).isLt; omega
  have h1 : (x 1 : Nat) = 0 := by have h : (x 1 : Nat) < 1 := (x 1).isLt; omega
  match a with
  | ⟨0, _⟩ => show 1 + 1 * (x 0 : Nat) = 1; omega
  | ⟨1, _⟩ => show 0 + 1 * (x 1 : Nat) = 0; omega
  | ⟨2, _⟩ => show 0 + 1 * (x 2 : Nat) = (x 2 : Nat); omega
  | ⟨3, _⟩ => show 0 + 1 * (x 3 : Nat) = (x 3 : Nat); omega
theorem emb_r0_6 (x : S1x1x512x512.Idx) : r0_6.emb x = (ix4 (0 : Fin 4) (0 : Fin 2) (x 2) (x 3) : S4x2x512x512.Idx) := by
  funext a; apply Fin.ext
  have h0 : (x 0 : Nat) = 0 := by have h : (x 0 : Nat) < 1 := (x 0).isLt; omega
  have h1 : (x 1 : Nat) = 0 := by have h : (x 1 : Nat) < 1 := (x 1).isLt; omega
  match a with
  | ⟨0, _⟩ => show 0 + 1 * (x 0 : Nat) = 0; omega
  | ⟨1, _⟩ => show 0 + 1 * (x 1 : Nat) = 0; omega
  | ⟨2, _⟩ => show 0 + 1 * (x 2 : Nat) = (x 2 : Nat); omega
  | ⟨3, _⟩ => show 0 + 1 * (x 3 : Nat) = (x 3 : Nat); omega

theorem emb_r0_16 (x : S1x512x256.Idx) : r0_16.emb x = (ix3 (1 : Fin 2) (x 1) (x 2) : S2x512x256.Idx) := by
  funext a; apply Fin.ext
  have h0 : (x 0 : Nat) = 0 := by have h : (x 0 : Nat) < 1 := (x 0).isLt; omega
  match a with
  | ⟨0, _⟩ => show 1 + 1 * (x 0 : Nat) = 1; omega
  | ⟨1, _⟩ => show 0 + 1 * (x 1 : Nat) = (x 1 : Nat); omega
  | ⟨2, _⟩ => show 0 + 1 * (x 2 : Nat) = (x 2 : Nat); omega
theorem emb_r0_2 (x : S1x512x256.Idx) : r0_2.emb x = (ix3 (0 : Fin 2) (x 1) (x 2) : S2x512x256.Idx) := by
  funext a; apply Fin.ext
  have h0 : (x 0 : Nat) = 0 := by have h : (x 0 : Nat) < 1 := (x 0).isLt; omega
  match a with
  | ⟨0, _⟩ => show 0 + 1 * (x 0 : Nat) = 0; omega
  | ⟨1, _⟩ => show 0 + 1 * (x 1 : Nat) = (x 1 : Nat); omega
  | ⟨2, _⟩ => show 0 + 1 * (x 2 : Nat) = (x 2 : Nat); omega

/-- The weights block after the body is `GA` of the input blocks. -/
theorem out11_G : out0_11 x0 x1 x2 x3 x4 x5 x6 x7 x8 x9 = GA x0 x1 x2 x3 x4 x5 x6 x7 x8 x9 := by
  funext j
  rw [out11_eq]
  refine View.canon_apply_of_pieces (Val := Elt Ideal) (GA x0 x1 x2 x3 x4 x5 x6 x7 x8 x9 : S4x2x512x512.Idx → Elt Ideal .f32) _ ?_ j (cover0_11 _ _ _ _ _ _ _ _ j)
  intro p hp x
  simp only [List.mem_cons, List.not_mem_nil, or_false] at hp
  rcases hp with rfl | rfl | rfl | rfl | rfl | rfl | rfl | rfl
  · show A3 (xg1 x0) (ag1 x1) x2 x3 x4 x5 x6 x7 x = GA x0 x1 x2 x3 x4 x5 x6 x7 x8 x9 (r0_21.emb x)
    rw [emb_r0_21]
    unfold A3
    rw [piece4, toS_L3 x2 x3 x4 x5 x6 x7 x8 x9, toM_xg1, toS_ag1]
    rfl
  · show A2 (xg1 x0) (ag1 x1) x2 x3 x4 x5 x6 x7 x = GA x0 x1 x2 x3 x4 x5 x6 x7 x8 x9 (r0_20.emb x)
    rw [emb_r0_20]
    unfold A2
    rw [piece4, toS_L2 x2 x3 x4 x5 x6 x7 x8 x9, toM_xg1, toS_ag1]
    rfl
  · show A1 (xg1 x0) (ag1 x1) x2 x3 x4 x5 x6 x7 x = GA x0 x1 x2 x3 x4 x5 x6 x7 x8 x9 (r0_19.emb x)
    rw [emb_r0_19]
    unfold A1
    rw [piece4, toS_L1 x2 x3 x4 x5 x6 x7 x8 x9, toM_xg1, toS_ag1]
    rfl
  · show A0 (xg1 x0) (ag1 x1) x2 x3 x = GA x0 x1 x2 x3 x4 x5 x6 x7 x8 x9 (r0_18.emb x)
    rw [emb_r0_18]
    unfold A0
    rw [piece4, toS_L0 x2 x3 x4 x5 x6 x7 x8 x9, toM_xg1, toS_ag1]
    rfl
  · show A3 (xg0 x0) (ag0 x1) x2 x3 x4 x5 x6 x7 x = GA x0 x1 x2 x3 x4 x5 x6 x7 x8 x9 (r0_15.emb x)
    rw [emb_r0_15]
    unfold A3
    rw [piece4, toS_L3 x2 x3 x4 x5 x6 x7 x8 x9, toM_xg0, toS_ag0]
    rfl
  · show A2 (xg0 x0) (ag0 x1) x2 x3 x4 x5 x6 x7 x = GA x0 x1 x2 x3 x4 x5 x6 x7 x8 x9 (r0_12.emb x)
    rw [emb_r0_12]
    unfold A2
    rw [piece4, toS_L2 x2 x3 x4 x5 x6 x7 x8 x9, toM_xg0, toS_ag0]
    rfl
  · show A1 (xg0 x0) (ag0 x1) x2 x3 x4 x5 x6 x7 x = GA x0 x1 x2 x3 x4 x5 x6 x7 x8 x9 (r0_9.emb x)
    rw [emb_r0_9]
    unfold A1
    rw [piece4, toS_L1 x2 x3 x4 x5 x6 x7 x8 x9, toM_xg0, toS_ag0]
    rfl
  · show A0 (xg0 x0) (ag0 x1) x2 x3 x = GA x0 x1 x2 x3 x4 x5 x6 x7 x8 x9 (r0_6.emb x)
    rw [emb_r0_6]
    unfold A0
    rw [piece4, toS_L0 x2 x3 x4 x5 x6 x7 x8 x9, toM_xg0, toS_ag0]
    rfl

/-- The features block after the body is `GX` of the input blocks. -/
theorem out10_G : out0_10 x0 x1 x2 x3 x4 x5 x6 x7 x8 x9 = GX x0 x1 x2 x3 x4 x5 x6 x7 x8 x9 := by
  funext j
  rw [out10_eq]
  refine View.canon_apply_of_pieces (Val := Elt Ideal) (GX x0 x1 x2 x3 x4 x5 x6 x7 x8 x9 : S2x512x256.Idx → Elt Ideal .f32) _ ?_ j (cover0_10 _ _ j)
  intro p hp x
  simp only [List.mem_cons, List.not_mem_nil, or_false] at hp
  rcases hp with rfl | rfl
  · show Y (xg1 x0) (ag1 x1) x2 x3 x4 x5 x6 x7 x8 x9 x = GX x0 x1 x2 x3 x4 x5 x6 x7 x8 x9 (r0_16.emb x)
    rw [emb_r0_16]
    unfold Y
    rw [piece3, toM_final x2 x3 x4 x5 x6 x7 x8 x9, toM_xg1, toS_ag1]
    rfl
  · show Y (xg0 x0) (ag0 x1) x2 x3 x4 x5 x6 x7 x8 x9 x = GX x0 x1 x2 x3 x4 x5 x6 x7 x8 x9 (r0_2.emb x)
    rw [emb_r0_2]
    unfold Y
    rw [piece3, toM_final x2 x3 x4 x5 x6 x7 x8 x9, toM_xg0, toS_ag0]
    rfl

end Cert.Gat.K

end
-- ==== Proof.KRun.lean ====
/-
  The kernel's run ends with the specification's two arrays.

  Grid point `t` of 32 holds graphs 2t and 2t + 1: its features and adjacency blocks are rows 2t, 2t + 1 of the
  batch arrays, its weight blocks are the whole weight arrays (the three stacked matrices and the final matrix
  transposed on the host before the launch, so that reading them back in "output by input" layout gives the
  arguments themselves), and it writes back rows 2t, 2t + 1 of the features result and columns 2t, 2t + 1 (on the
  graph axis) of the stacked weights result. So what point `t` writes back is block `t` of `outX` and of `outA` of
  the arguments; the 32 blocks cover both result arrays; and the arrays after the run are `outX` and `outA`.
-/
import proofs.«111148_j14611478741207_2_alg».proof.Proof.KBlk
import proofs.«111148_j14611478741207_2_alg».proof.Proof.Gen.KernelIdeal.Value
import Idealize.ShloMosaic.Lib.StableHlo.Run

noncomputable section

namespace Cert.Gat.K

open Idealize.ShloMosaic Idealize.ShloMosaic.ValueIdx Idealize.ShloMosaic.TcCoe Idealize.SL.Sem Idealize.ShloMosaic.StableHlo
open Cert.KernelIdeal Cert.KernelIdeal.Gen Cert.Gat
open Idealize.ShloMosaic.Pipeline (Dat)

variable (m : (ℓ : Loc nD τ sig) → Buf (Elt Ideal) ℓ) (ρ : Dev nD → PrngReg)

/-- The network weights the arguments hold. -/
def argP (c : Dev nD) : Wts :=
  ⟨(m ((c : Thread nD τ).loc main_arg2)), (m ((c : Thread nD τ).loc main_arg3)), (m ((c : Thread nD τ).loc main_arg4)), (m ((c : Thread nD τ).loc main_arg5)), (m ((c : Thread nD τ).loc main_arg6)), (m ((c : Thread nD τ).loc main_arg7)), (m ((c : Thread nD τ).loc main_arg8)), (m ((c : Thread nD τ).loc main_arg9))⟩

/-- The features result and the stacked weights result of the arguments. -/
def resX (c : Dev nD) : S64x512x256.Idx → EReal := outX (argP m c) (m ((c : Thread nD τ).loc main_arg0)) (m ((c : Thread nD τ).loc main_arg1))
def resA (c : Dev nD) : S4x64x512x512.Idx → EReal := outA (argP m c) (m ((c : Thread nD τ).loc main_arg0)) (m ((c : Thread nD τ).loc main_arg1))

/-! ## The index maps, decided over the 32 grid points -/

theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_10.index t (0 : Fin 3) = t.val ∧ win0_10.index t (1 : Fin 3) = 0 ∧ win0_10.index t (2 : Fin 3) = 0
    ∧ win0_11.index t (0 : Fin 4) = 0 ∧ win0_11.index t (1 : Fin 4) = t.val ∧ win0_11.index t (2 : Fin 4) = 0 ∧ win0_11.index t (3 : Fin 4) = 0 :=
  (by decide +kernel : ∀ t : Fin grid0.N, _)

theorem idx_zero3 : ∀ t : Fin cfg0.N, (∀ a : Fin 3, win0_2.index t a = 0) ∧ (∀ a : Fin 3, win0_4.index t a = 0) ∧ (∀ a : Fin 3, win0_6.index t a = 0) :=
  (by decide +kernel : ∀ t : Fin grid0.N, _)
theorem idx_zero2 : ∀ t : Fin cfg0.N, (∀ a : Fin 2, win0_3.index t a = 0) ∧ (∀ a : Fin 2, win0_5.index t a = 0) ∧ (∀ a : Fin 2, win0_7.index t a = 0) ∧ (∀ a : Fin 2, win0_8.index t a = 0) :=
  (by decide +kernel : ∀ t : Fin grid0.N, _)
theorem idx_zero1 : ∀ t : Fin cfg0.N, (∀ a : Fin 1, win0_9.index t a = 0) :=
  (by decide +kernel : ∀ t : Fin grid0.N, _)

/-! ## The arrays the region finds -/

theorem V_v0 (c : Dev nD) : (V m c main_v0 : S4x256x256.Idx → EReal) = transpose S4x256x256 [0, 2, 1] (m ((c : Thread nD τ).loc main_arg2)) transposes_S4x256x256_S4x256x256_0_2_1 := by
  dsimp only [Gen.V, Gen.hostOps0]; after_results
theorem V_v1 (c : Dev nD) : (V m c main_v1 : S4x256x256.Idx → EReal) = transpose S4x256x256 [0, 2, 1] (m ((c : Thread nD τ).loc main_arg4)) transposes_S4x256x256_S4x256x256_0_2_1 := by
  dsimp only [Gen.V, Gen.hostOps0]; after_results
theorem V_v2 (c : Dev nD) : (V m c main_v2 : S4x256x256.Idx → EReal) = transpose S4x256x256 [0, 2, 1] (m ((c : Thread nD τ).loc main_arg6)) transposes_S4x256x256_S4x256x256_0_2_1 := by
  dsimp only [Gen.V, Gen.hostOps0]; after_results
theorem V_v3 (c : Dev nD) : (V m c main_v3 : S256x256.Idx → EReal) = transpose S256x256 [1, 0] (m ((c : Thread nD τ).loc main_arg8)) transposes_S256x256_S256x256_1_0 := by
  dsimp only [Gen.V, Gen.hostOps0]; after_results

/-- A stacked matrix transposed layer by layer, read with the last two coordinates swapped, is the matrix. -/
theorem transpose3_swap (x : S4x256x256.Idx → EReal) (i : S4x256x256.Idx) :
    transpose S4x256x256 [0, 2, 1] x transposes_S4x256x256_S4x256x256_0_2_1 (ix3 (i 0) (i 2) (i 1)) = x i :=
  transpose_apply [0, 2, 1] x transposes_S4x256x256_S4x256x256_0_2_1 (ix3 (i 0) (i 2) (i 1)) i (fun b => by
    match b with
    | ⟨0, _⟩ => rfl
    | ⟨1, _⟩ => rfl
    | ⟨2, _⟩ => rfl)
theorem transpose2_swap (x : S256x256.Idx → EReal) (i : S256x256.Idx) :
    transpose S256x256 [1, 0] x transposes_S256x256_S256x256_1_0 (ix2 (i 1) (i 0)) = x i :=
  transpose_apply [1, 0] x transposes_S256x256_S256x256_1_0 (ix2 (i 1) (i 0)) i (fun b => by
    match b with
    | ⟨0, _⟩ => rfl
    | ⟨1, _⟩ => rfl)

/-! ## The input blocks at a grid point -/

/-- A weight window's block is its whole array. -/
theorem iblk2 (c : Dev nD) (t : Fin cfg0.N) (y : S4x256x256.Idx) : iblk m c 2 t y = V m c main_v0 y := by
  show V m c main_v0 (((cfg0.win 2).blk t).view.emb y) = V m c main_v0 y
  refine congrArg (V m c main_v0) (funext fun a => Fin.ext ?_)
  have h := (idx_zero3 t).1 a
  show win0_2.index t a * S4x256x256.size a + 1 * (y a).val = (y a).val
  rw [h]; omega
theorem iblk4 (c : Dev nD) (t : Fin cfg0.N) (y : S4x256x256.Idx) : iblk m c 4 t y = V m c main_v1 y := by
  show V m c main_v1 (((cfg0.win 4).blk t).view.emb y) = V m c main_v1 y
  refine congrArg (V m c main_v1) (funext fun a => Fin.ext ?_)
  have h := (idx_zero3 t).2.1 a
  show win0_4.index t a * S4x256x256.size a + 1 * (y a).val = (y a).val
  rw [h]; omega
theorem iblk6 (c : Dev nD) (t : Fin cfg0.N) (y : S4x256x256.Idx) : iblk m c 6 t y = V m c main_v2 y := by
  show V m c main_v2 (((cfg0.win 6).blk t).view.emb y) = V m c main_v2 y
  refine congrArg (V m c main_v2) (funext fun a => Fin.ext ?_)
  have h := (idx_zero3 t).2.2 a
  show win0_6.index t a * S4x256x256.size a + 1 * (y a).val = (y a).val
  rw [h]; omega
theorem iblk8 (c : Dev nD) (t : Fin cfg0.N) (y : S256x256.Idx) : iblk m c 8 t y = V m c main_v3 y := by
  show V m c main_v3 (((cfg0.win 8).blk t).view.emb y) = V m c main_v3 y
  refine congrArg (V m c main_v3) (funext fun a => Fin.ext ?_)
  have h := (idx_zero2 t).2.2.2 a
  show win0_8.index t a * S256x256.size a + 1 * (y a).val = (y a).val
  rw [h]; omega
theorem iblk3 (c : Dev nD) (t : Fin cfg0.N) (y : S4x256.Idx) : iblk m c 3 t y = (m ((c : Thread nD τ).loc main_arg3)) y := by
  show V m c main_arg3 (((cfg0.win 3).blk t).view.emb y) = _
  rw [V_main_arg3]
  refine congrArg (m ((c : Thread nD τ).loc main_arg3)) (funext fun a => Fin.ext ?_)
  have h := (idx_zero2 t).1 a
  show win0_3.index t a * S4x256.size a + 1 * (y a).val = (y a).val
  rw [h]; omega
theorem iblk5 (c : Dev nD) (t : Fin cfg0.N) (y : S4x256.Idx) : iblk m c 5 t y = (m ((c : Thread nD τ).loc main_arg5)) y := by
  show V m c main_arg5 (((cfg0.win 5).blk t).view.emb y) = _
  rw [V_main_arg5]
  refine congrArg (m ((c : Thread nD τ).loc main_arg5)) (funext fun a => Fin.ext ?_)
  have h := (idx_zero2 t).2.1 a
  show win0_5.index t a * S4x256.size a + 1 * (y a).val = (y a).val
  rw [h]; omega
theorem iblk7 (c : Dev nD) (t : Fin cfg0.N) (y : S4x256.Idx) : iblk m c 7 t y = (m ((c : Thread nD τ).loc main_arg7)) y := by
  show V m c main_arg7 (((cfg0.win 7).blk t).view.emb y) = _
  rw [V_main_arg7]
  refine congrArg (m ((c : Thread nD τ).loc main_arg7)) (funext fun a => Fin.ext ?_)
  have h := (idx_zero2 t).2.2.1 a
  show win0_7.index t a * S4x256.size a + 1 * (y a).val = (y a).val
  rw [h]; omega
theorem iblk9 (c : Dev nD) (t : Fin cfg0.N) (y : S256.Idx) : iblk m c 9 t y = (m ((c : Thread nD τ).loc main_arg9)) y := by
  show V m c main_arg9 (((cfg0.win 9).blk t).view.emb y) = _
  rw [V_main_arg9]
  refine congrArg (m ((c : Thread nD τ).loc main_arg9)) (funext fun a => Fin.ext ?_)
  have h := idx_zero1 t a
  show win0_9.index t a * S256.size a + 1 * (y a).val = (y a).val
  rw [h]; omega

/-- The weight blocks, read back, are the arguments' weights. -/
theorem blkP_eq (c : Dev nD) (t : Fin cfg0.N) :
    blkP (iblk m c 2 t) (iblk m c 3 t) (iblk m c 4 t) (iblk m c 5 t) (iblk m c 6 t) (iblk m c 7 t) (iblk m c 8 t) (iblk m c 9 t) = argP m c := by
  unfold blkP argP
  congr 1
  · funext i; rw [iblk2, V_v0, transpose3_swap]
  · funext i; rw [iblk3]
  · funext i; rw [iblk4, V_v1, transpose3_swap]
  · funext i; rw [iblk5]
  · funext i; rw [iblk6, V_v2, transpose3_swap]
  · funext i; rw [iblk7]
  · funext i; rw [iblk8, V_v3, transpose2_swap]
  · funext i; rw [iblk9]

/-- Graph `sb` of point `t`'s blocks is graph `2t + sb` of the batch. -/
theorem blkX_eq (c : Dev nD) (t : Fin cfg0.N) (sb : Fin 2) (g : Fin 64) (hg : g.val = 2 * t.val + sb.val) :
    blkX (iblk m c 0 t) sb = gx (m ((c : Thread nD τ).loc main_arg0)) g := by
  funext n d
  show V m c main_arg0 (((cfg0.win 0).blk t).view.emb (ix3 sb n d)) = (m ((c : Thread nD τ).loc main_arg0)) (ix3 g n d)
  rw [V_main_arg0]
  refine congrArg (m ((c : Thread nD τ).loc main_arg0)) (funext fun a => Fin.ext ?_)
  obtain ⟨e0, e1, e2, -⟩ := idx_facts t
  match a with
  | ⟨0, _⟩ => show win0_0.index t (0 : Fin 3) * 2 + 1 * sb.val = g.val; rw [e0]; omega
  | ⟨1, _⟩ => show win0_0.index t (1 : Fin 3) * 512 + 1 * n.val = n.val; rw [e1]; omega
  | ⟨2, _⟩ => show win0_0.index t (2 : Fin 3) * 256 + 1 * d.val = d.val; rw [e2]; omega
theorem blkAdj_eq (c : Dev nD) (t : Fin cfg0.N) (sb : Fin 2) (g : Fin 64) (hg : g.val = 2 * t.val + sb.val) :
    blkAdj (iblk m c 1 t) sb = gadj (m ((c : Thread nD τ).loc main_arg1)) g := by
  funext i k
  show V m c main_arg1 (((cfg0.win 1).blk t).view.emb (ix3 sb i k)) = (m ((c : Thread nD τ).loc main_arg1)) (ix3 g i k)
  rw [V_main_arg1]
  refine congrArg (m ((c : Thread nD τ).loc main_arg1)) (funext fun a => Fin.ext ?_)
  obtain ⟨-, -, -, e0, e1, e2, -⟩ := idx_facts t
  match a with
  | ⟨0, _⟩ => show win0_1.index t (0 : Fin 3) * 2 + 1 * sb.val = g.val; rw [e0]; omega
  | ⟨1, _⟩ => show win0_1.index t (1 : Fin 3) * 512 + 1 * i.val = i.val; rw [e1]; omega
  | ⟨2, _⟩ => show win0_1.index t (2 : Fin 3) * 512 + 1 * k.val = k.val; rw [e2]; omega

/-! ## What a grid point writes back -/

/-- Point `t` writes back block `t` of the stacked weights result. -/
theorem flushed11_eq (c : Dev nD) (t : Fin cfg0.N) :
    (dats m 0 c).flushed 11 t = ((cfg0.win 11).blk t).view.read (Elt Ideal) (resA m c) := by
  rw [Value.flushed11, out11_G]
  funext j
  obtain ⟨-, -, -, -, -, -, -, -, -, e0, e1, e2, e3⟩ := idx_facts t
  have hj1 : (j 1 : Nat) < 2 := (j 1).isLt
  have ht : t.val < 32 := by have h := t.isLt; have e : cfg0.N = 32 := N_0; omega
  -- the local index as four coordinates, and its place in the array
  let l : Fin 4 := ⟨(j 0 : Nat), (j 0).isLt⟩
  let sb : Fin 2 := ⟨(j 1 : Nat), (j 1).isLt⟩
  let i : Fin 512 := ⟨(j 2 : Nat), (j 2).isLt⟩
  let k : Fin 512 := ⟨(j 3 : Nat), (j 3).isLt⟩
  let g : Fin 64 := ⟨2 * t.val + (j 1 : Nat), by omega⟩
  have hx : (cfg0.win 11).xinj (grid0.coords t) j = (ix4 l sb i k : S4x2x512x512.Idx) := by
    funext a; apply Fin.ext
    match a with
    | ⟨0, _⟩ => rfl
    | ⟨1, _⟩ => rfl
    | ⟨2, _⟩ => rfl
    | ⟨3, _⟩ => rfl
  have he : ((cfg0.win 11).blk t).view.emb j = (ix4 l g i k : S4x64x512x512.Idx) := by
    funext a; apply Fin.ext
    match a with
    | ⟨0, _⟩ => show win0_11.index t (0 : Fin 4) * 4 + 1 * (j 0 : Nat) = (j 0 : Nat); rw [e0]; omega
    | ⟨1, _⟩ => show win0_11.index t (1 : Fin 4) * 2 + 1 * (j 1 : Nat) = 2 * t.val + (j 1 : Nat); rw [e1]; omega
    | ⟨2, _⟩ => show win0_11.index t (2 : Fin 4) * 512 + 1 * (j 2 : Nat) = (j 2 : Nat); rw [e2]; omega
    | ⟨3, _⟩ => show win0_11.index t (3 : Fin 4) * 512 + 1 * (j 3 : Nat) = (j 3 : Nat); rw [e3]; omega
  show GA (iblk m c 0 t) (iblk m c 1 t) (iblk m c 2 t) (iblk m c 3 t) (iblk m c 4 t) (iblk m c 5 t) (iblk m c 6 t) (iblk m c 7 t) (iblk m c 8 t) (iblk m c 9 t)
      ((cfg0.win 11).xinj (grid0.coords t) j) = resA m c (((cfg0.win 11).blk t).view.emb j)
  rw [hx, he]
  show aL (blkP (iblk m c 2 t) (iblk m c 3 t) (iblk m c 4 t) (iblk m c 5 t) (iblk m c 6 t) (iblk m c 7 t) (iblk m c 8 t) (iblk m c 9 t))
      (blkX (iblk m c 0 t) sb) (blkAdj (iblk m c 1 t) sb) l i k
    = aL (argP m c) (gx (m ((c : Thread nD τ).loc main_arg0)) g) (gadj (m ((c : Thread nD τ).loc main_arg1)) g) l i k
  rw [blkP_eq, blkX_eq m c t sb g rfl, blkAdj_eq m c t sb g rfl]

/-- Point `t` writes back block `t` of the features result. -/
theorem flushed10_eq (c : Dev nD) (t : Fin cfg0.N) :
    (dats m 0 c).flushed 10 t = ((cfg0.win 10).blk t).view.read (Elt Ideal) (resX m c) := by
  rw [Value.flushed10, out10_G]
  funext j
  obtain ⟨-, -, -, -, -, -, e0, e1, e2, -⟩ := idx_facts t
  have hj0 : (j 0 : Nat) < 2 := (j 0).isLt
  have ht : t.val < 32 := by have h := t.isLt; have e : cfg0.N = 32 := N_0; omega
  let sb : Fin 2 := ⟨(j 0 : Nat), (j 0).isLt⟩
  let n : Fin 512 := ⟨(j 1 : Nat), (j 1).isLt⟩
  let o : Fin 256 := ⟨(j 2 : Nat), (j 2).isLt⟩
  let g : Fin 64 := ⟨2 * t.val + (j 0 : Nat), by omega⟩
  have hx : (cfg0.win 10).xinj (grid0.coords t) j = (ix3 sb n o : S2x512x256.Idx) := by
    funext a; apply Fin.ext
    match a with
    | ⟨0, _⟩ => rfl
    | ⟨1, _⟩ => rfl
    | ⟨2, _⟩ => rfl
  have he : ((cfg0.win 10).blk t).view.emb j = (ix3 g n o : S64x512x256.Idx) := by
    funext a; apply Fin.ext
    match a with
    | ⟨0, _⟩ => show win0_10.index t (0 : Fin 3) * 2 + 1 * (j 0 : Nat) = 2 * t.val + (j 0 : Nat); rw [e0]; omega
    | ⟨1, _⟩ => show win0_10.index t (1 : Fin 3) * 512 + 1 * (j 1 : Nat) = (j 1 : Nat); rw [e1]; omega
    | ⟨2, _⟩ => show win0_10.index t (2 : Fin 3) * 256 + 1 * (j 2 : Nat) = (j 2 : Nat); rw [e2]; omega
  show GX (iblk m c 0 t) (iblk m c 1 t) (iblk m c 2 t) (iblk m c 3 t) (iblk m c 4 t) (iblk m c 5 t) (iblk m c 6 t) (iblk m c 7 t) (iblk m c 8 t) (iblk m c 9 t)
      ((cfg0.win 10).xinj (grid0.coords t) j) = resX m c (((cfg0.win 10).blk t).view.emb j)
  rw [hx, he]
  show Gat.y (blkP (iblk m c 2 t) (iblk m c 3 t) (iblk m c 4 t) (iblk m c 5 t) (iblk m c 6 t) (iblk m c 7 t) (iblk m c 8 t) (iblk m c 9 t))
      (blkX (iblk m c 0 t) sb) (blkAdj (iblk m c 1 t) sb) n o
    = Gat.y (argP m c) (gx (m ((c : Thread nD τ).loc main_arg0)) g) (gadj (m ((c : Thread nD τ).loc main_arg1)) g) n o
  rw [blkP_eq, blkX_eq m c t sb g rfl, blkAdj_eq m c t sb g rfl]

/-! ## The blocks cover the arrays -/

theorem mem_blk11 (t : Fin cfg0.N) (i : S4x64x512x512.Idx) :
    i ∈ ((cfg0.win 11).blk t).view.set ↔ ∀ a : Fin 4, win0_11.index t a * S4x2x512x512.size a ≤ (i a).val ∧ (i a).val < win0_11.index t a * S4x2x512x512.size a + S4x2x512x512.size a := by
  show i ∈ ((View.whole main_v4_1).slice (win0_11.rect t)).set ↔ _
  rw [View.set_slice_whole, Rect.mem_set_unit]
  exact Iff.rfl
theorem mem_blk10 (t : Fin cfg0.N) (i : S64x512x256.Idx) :
    i ∈ ((cfg0.win 10).blk t).view.set ↔ ∀ a : Fin 3, win0_10.index t a * S2x512x256.size a ≤ (i a).val ∧ (i a).val < win0_10.index t a * S2x512x256.size a + S2x512x256.size a := by
  show i ∈ ((View.whole main_v4_0).slice (win0_10.rect t)).set ↔ _
  rw [View.set_slice_whole, Rect.mem_set_unit]
  exact Iff.rfl

/-- Graph `g` is in the block of point `g / 2`. -/
theorem cover11 (i : S4x64x512x512.Idx) : ∃ t : Fin cfg0.N, (cfg0.win 11).flush t = true ∧ i ∈ ((cfg0.win 11).blk t).view.set := by
  have h0 : (i 0 : Nat) < 4 := (i 0).isLt
  have h1 : (i 1 : Nat) < 64 := (i 1).isLt
  have h2 : (i 2 : Nat) < 512 := (i 2).isLt
  have h3 : (i 3 : Nat) < 512 := (i 3).isLt
  let t : Fin cfg0.N := ⟨(i 1 : Nat) / 2, by rw [show cfg0.N = 32 from N_0]; omega⟩
  refine ⟨t, flush0_11 t, ?_⟩
  obtain ⟨-, -, -, -, -, -, -, -, -, e0, e1, e2, e3⟩ := idx_facts t
  rw [mem_blk11]
  intro a
  match a with
  | ⟨0, _⟩ => show win0_11.index t (0 : Fin 4) * 4 ≤ (i 0 : Nat) ∧ (i 0 : Nat) < win0_11.index t (0 : Fin 4) * 4 + 4; rw [e0]; omega
  | ⟨1, _⟩ => show win0_11.index t (1 : Fin 4) * 2 ≤ (i 1 : Nat) ∧ (i 1 : Nat) < win0_11.index t (1 : Fin 4) * 2 + 2; rw [e1]; show (i 1 : Nat) / 2 * 2 ≤ (i 1 : Nat) ∧ (i 1 : Nat) < (i 1 : Nat) / 2 * 2 + 2; omega
  | ⟨2, _⟩ => show win0_11.index t (2 : Fin 4) * 512 ≤ (i 2 : Nat) ∧ (i 2 : Nat) < win0_11.index t (2 : Fin 4) * 512 + 512; rw [e2]; omega
  | ⟨3, _⟩ => show win0_11.index t (3 : Fin 4) * 512 ≤ (i 3 : Nat) ∧ (i 3 : Nat) < win0_11.index t (3 : Fin 4) * 512 + 512; rw [e3]; omega
theorem cover10 (i : S64x512x256.Idx) : ∃ t : Fin cfg0.N, (cfg0.win 10).flush t = true ∧ i ∈ ((cfg0.win 10).blk t).view.set := by
  have h0 : (i 0 : Nat) < 64 := (i 0).isLt
  have h1 : (i 1 : Nat) < 512 := (i 1).isLt
  have h2 : (i 2 : Nat) < 256 := (i 2).isLt
  let t : Fin cfg0.N := ⟨(i 0 : Nat) / 2, by rw [show cfg0.N = 32 from N_0]; omega⟩
  refine ⟨t, flush0_10 t, ?_⟩
  obtain ⟨-, -, -, -, -, -, e0, e1, e2, -⟩ := idx_facts t
  rw [mem_blk10]
  intro a
  match a with
  | ⟨0, _⟩ => show win0_10.index t (0 : Fin 3) * 2 ≤ (i 0 : Nat) ∧ (i 0 : Nat) < win0_10.index t (0 : Fin 3) * 2 + 2; rw [e0]; show (i 0 : Nat) / 2 * 2 ≤ (i 0 : Nat) ∧ (i 0 : Nat) < (i 0 : Nat) / 2 * 2 + 2; omega
  | ⟨1, _⟩ => show win0_10.index t (1 : Fin 3) * 512 ≤ (i 1 : Nat) ∧ (i 1 : Nat) < win0_10.index t (1 : Fin 3) * 512 + 512; rw [e1]; omega
  | ⟨2, _⟩ => show win0_10.index t (2 : Fin 3) * 256 ≤ (i 2 : Nat) ∧ (i 2 : Nat) < win0_10.index t (2 : Fin 3) * 256 + 256; rw [e2]; omega

/-! ## The arrays after the run, and the run -/

theorem final11 (c : Dev nD) : (dats m 0 c).arrAt 11 cfg0.N = resA m c :=
  (dats m 0 c).arrAt_eq_of_cover 11 (resA m c) (fun t _ => flushed11_eq m c t) cover11
theorem final10 (c : Dev nD) : (dats m 0 c).arrAt 10 cfg0.N = resX m c :=
  (dats m 0 c).arrAt_eq_of_cover 10 (resX m c) (fun t _ => flushed10_eq m c t) cover10

/-- Every weakly fair execution of the idealized kernel terminates with the two results at the specification's
    arrays of the arguments, the arguments unchanged. -/
theorem run : θ_run defs (onTc (τ := τ) (main (F := Ideal))) ⟨m, fun _ => 0, ρ⟩ fun r => ∀ c : Dev nD,
      r.2.mem ((c : Thread nD τ).loc main_v4_0) = resX m c
      ∧ r.2.mem ((c : Thread nD τ).loc main_v4_1) = resA m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final10 m c), (h c).2.1.trans (final11 m c), (h c).2.2⟩)
    (Value.run_blocks m ρ)

end Cert.Gat.K

end
-- ==== Proof.RefLayers.lean ====
/-
  The reference program, read one operation at a time at an index, computes the network of the specification.

  The program is four copies of one layer (43 operations each) between a head (the adjacency's diagonal set to one, taken
  here as the hypothesis `AdjDiag`; the matrix `eps` times the identity) and a tail (a last dense map; the four layers'
  normalised weights stacked). Every operation's element is given by the imported generated module's `_apply` lemma; the
  lemmas below chain them, layer by layer, in the order of the specification: queries, scores, the logistic function,
  the unnormalised weights, the row sums, the normalised weights, the mix, two dense maps each followed by the
  rectifier, and the residual. Sums are kept in the order the operations give them, which is the order the
  specification is written in, so that apart from the step named below both sides are the same expression.

  The one step with content is the unnormalised weight: the program computes `(sig + eps · e) · a'` with `e` the
  identity matrix and `a'` the adjacency with ones on its diagonal; on the diagonal that is `(sig + eps · 1) · 1`, off it
  `(sig + eps · 0) · a` (`wgt_alg`). Both identities hold on all extended reals, so no finiteness is used anywhere.
-/
import Mathlib
import Idealize.ShloMosaic.Lib.Pipeline.Value
import Idealize.ShloMosaic.Lib.ValueIdx
import Idealize.ShloMosaic.PureOps.Ideal.Laws
import proofs.«111148_j14611478741207_2_alg».proof.Proof.ReadP
import proofs.«111148_j14611478741207_2_alg».proof.Proof.Spec

noncomputable section

namespace Cert.RefLayers

open Idealize.ShloMosaic Idealize.ShloMosaic.ValueIdx Cert.Gat Cert.ReferenceIdeal Cert.ReferenceIdeal.Gen Cert.ReferenceIdeal.ReadP

/-- The network's weight arrays as one record. -/
abbrev P (wa : S4x256x256.Idx → EReal) (ba : S4x256.Idx → EReal) (w0 : S4x256x256.Idx → EReal) (b0 : S4x256.Idx → EReal)
    (w1 : S4x256x256.Idx → EReal) (b1 : S4x256.Idx → EReal) (wf : S256x256.Idx → EReal) (bf : S256.Idx → EReal) : Wts :=
  ⟨wa, ba, w0, b0, w1, b1, wf, bf⟩

variable {X : S64x512x256.Idx → EReal} {A : S64x512x512.Idx → EReal}
  {wa w0 w1 : S4x256x256.Idx → EReal} {ba b0 b1 : S4x256.Idx → EReal}
  {wf : S256x256.Idx → EReal} {bf : S256.Idx → EReal}

/-- Two index functions of rank three (two, one) with the same coordinates are one function. -/
local macro "idx3" : tactic => `(tactic| (funext a; match a with | ⟨0, _⟩ => rfl | ⟨1, _⟩ => rfl | ⟨2, _⟩ => rfl))
local macro "idx2" : tactic => `(tactic| (funext a; match a with | ⟨0, _⟩ => rfl | ⟨1, _⟩ => rfl))
local macro "idx1" : tactic => `(tactic| (funext a; match a with | ⟨0, _⟩ => rfl))

/-- What the scatter at the head of the program does, taken as a hypothesis here: the adjacency with its diagonal set to one. -/
abbrev AdjDiag (A : S64x512x512.Idx → EReal) : Prop :=
  ∀ (g : Fin 64) (i k : Fin 512), val_main_v15 (F := Ideal) A (ix3 g i k) = if i = k then (1 : EReal) else A (ix3 g i k)

/-! ## The constants -/

/-- The word 0x3F800000 is the number one. -/
theorem one_f32 : Ideal.ofBits .f32 0x3F800000#32 = 1 := by
  simp [Ideal.ofBits, Ideal.ieee, -EReal.coe_mul]; norm_num

/-- Comparing a row number with a column number, as 32-bit words, gives the bit "they are equal". -/
theorem eye_word (i k : Fin 512) :
    IntOp.cmpi .eq (IntOp.addi (BitVec.ofNat 32 i.val) 0#32) (BitVec.ofNat 32 k.val) = if i = k then 1#1 else 0#1 := by
  by_cases hik : i = k
  · subst hik
    show BitVec.ofBool (BitVec.ofNat 32 i.val + 0#32 == BitVec.ofNat 32 i.val) = if i = i then 1#1 else 0#1
    simp
  · rw [if_neg hik]
    have hne : ¬ (BitVec.ofNat 32 i.val = BitVec.ofNat 32 k.val) := fun h => hik (Fin.ext (by
      have h2 := congrArg BitVec.toNat h
      simp only [BitVec.toNat_ofNat] at h2
      have := i.isLt; have := k.isLt; omega))
    have hb : (BitVec.ofNat 32 i.val == BitVec.ofNat 32 k.val) = false := beq_eq_false_iff_ne.2 hne
    show BitVec.ofBool (BitVec.ofNat 32 i.val + 0#32 == BitVec.ofNat 32 k.val) = 0#1
    rw [BitVec.add_zero, hb]; rfl

/-- That bit as a number: one on the diagonal, zero off it. -/
theorem eye_bit (i k : Fin 512) :
    FloatOps.uitofp (F := Ideal) .f32 (IntOp.cmpi .eq (IntOp.addi (BitVec.ofNat 32 i.val) 0#32) (BitVec.ofNat 32 k.val))
      = if i = k then (1 : EReal) else 0 := by
  rw [eye_word]
  by_cases hik : i = k
  · rw [if_pos hik, if_pos hik]; show (((1#1 : BitVec 1).toNat : ℝ) : EReal) = 1; simp
  · rw [if_neg hik, if_neg hik]; show (((0#1 : BitVec 1).toNat : ℝ) : EReal) = 0; simp

/-- The one piece of algebra. The logistic value plus `e` times the identity matrix's entry, times the entry of the
    adjacency whose diagonal was set to one: on the diagonal `(s + e · 1) · 1 = s + e`, off it `(s + e · 0) · a = s · a`.
    Both hold for all extended reals. -/
theorem wgt_alg (s e a : EReal) (i k : Fin 512) :
    (s + e * (if i = k then (1 : EReal) else 0)) * (if i = k then (1 : EReal) else a) = if i = k then s + e else s * a := by
  by_cases hik : i = k
  · simp only [if_pos hik, mul_one]
  · simp only [if_neg hik, mul_zero, add_zero]

/-- The small diagonal matrix the program builds once: `eps` times the identity. -/
theorem eye23 (i k : Fin 512) :
    val_main_v23 (F := Ideal) (ix2 i k) = eps * (if i = k then (1 : EReal) else 0) := by
  rw [val_main_v23_apply, val_main_v22_apply, val_main_cst_4_apply, val_main_v21_apply, val_main_v20_apply,
    val_main_v19_apply, val_main_v16_apply, val_main_v17_apply, val_main_v18_apply, val_main_c_3_apply]
  exact congrArg (eps * ·) (eye_bit i k)

/-! ## Layer 0 -/

/-- Layer 0's slice of the stacked query weights, as a matrix. -/
theorem wa_0 (w : S4x256x256.Idx → EReal) (o d : Fin 256) :
    val_main_v25 (F := Ideal) w (ix2 o d) = w (ix3 0 o d) := by
  rw [val_main_v25_apply, val_main_v24_apply]
  refine congrArg w (funext fun a => Fin.ext ?_)
  have ho := o.isLt; have hd := d.isLt
  match a with
  | ⟨0, _⟩ => rfl
  | ⟨1, _⟩ => show (o.val * 256 + d.val) / 256 % 256 = o.val; omega
  | ⟨2, _⟩ => show (o.val * 256 + d.val) % 256 = d.val; omega

/-- Layer 0's slice of the stacked query biases, spread over graphs and nodes. -/
theorem ba_0 (b : S4x256.Idx → EReal) (g : Fin 64) (n : Fin 512) (o : Fin 256) :
    val_main_v30 (F := Ideal) b (ix3 g n o) = b (ix2 0 o) := by
  rw [val_main_v30_apply, val_main_v29_apply, val_main_v28_apply, val_main_v27_apply]
  refine congrArg b (funext fun a => Fin.ext ?_)
  have ho := o.isLt
  match a with
  | ⟨0, _⟩ => rfl
  | ⟨1, _⟩ => show o.val % 256 = o.val; omega

/-- Layer 0's queries: a dense map of the layer's input. -/
theorem q_0 (g : Fin 64) (n : Fin 512) (o : Fin 256) :
    val_main_v31 (F := Ideal) X wa ba (ix3 g n o) = lin (gx X g) (Wof wa 0) (bof ba 0) n o := by
  rw [val_main_v31_apply, val_main_v26_apply, ba_0]
  refine congrArg₂ (· + ·) (Finset.sum_congr rfl fun d _ => ?_) rfl
  rw [show lidx_main_v26 (ix3 g n o) d = ix3 g n d by idx3, show ridx_main_v26 (ix3 g n o) d = ix2 o d by idx2,
    wa_0, (show X (ix3 g n d) = gx X g n d from rfl)]
  rfl

/-- Layer 0's scores: query row `i` against feature row `k`. -/
theorem s_0 (g : Fin 64) (i k : Fin 512) :
    val_main_v32 (F := Ideal) X wa ba (ix3 g i k) = score (lin (gx X g) (Wof wa 0) (bof ba 0)) (gx X g) i k := by
  rw [val_main_v32_apply]
  refine Finset.sum_congr rfl fun j _ => ?_
  rw [show lidx_main_v32 (ix3 g i k) j = ix3 g i j by idx3, show ridx_main_v32 (ix3 g i k) j = ix3 g k j by idx3,
    q_0 g i j, (show X (ix3 g k j) = gx X g k j from rfl)]

/-- The logistic function, which the program spells out as one over one plus the exponential of the negated score. -/
theorem sig_0 (g : Fin 64) (i k : Fin 512) :
    val_main_v38 (F := Ideal) X wa ba (ix3 g i k) = Ideal.logistic (score (lin (gx X g) (Wof wa 0) (bof ba 0)) (gx X g) i k) := by
  rw [val_main_v38_apply, val_main_v37_apply, val_main_cst_6_apply, val_main_v36_apply, val_main_v35_apply,
    val_main_cst_5_apply, val_main_v34_apply, val_main_v33_apply, s_0 g i k]
  simp only [Ideal.hostDivf_def, Ideal.ofBits_def, one_f32, Ideal.addf_def, Ideal.hostUnary_exp_def, Ideal.hostNegf_def,
    Ideal.negf_def]
  rfl

/-- The small diagonal matrix, spread over the graphs. -/
theorem eye_0 (g : Fin 64) (i k : Fin 512) :
    val_main_v40 (F := Ideal) (ix3 g i k) = eps * (if i = k then (1 : EReal) else 0) := by
  rw [val_main_v40_apply, val_main_v39_apply,
    show idx_main_v39 (idx_main_v40 (ix3 g i k)) = ix2 i k by idx2, eye23]

/-- Layer 0's unnormalised weights. Here the adjacency's diagonal of ones meets the small diagonal matrix. -/
theorem w_0 (hadj : AdjDiag A) (g : Fin 64) (i k : Fin 512) :
    val_main_v42 (F := Ideal) X A wa ba (ix3 g i k) = wgt eps (score (lin (gx X g) (Wof wa 0) (bof ba 0)) (gx X g)) (gadj A g) i k := by
  rw [val_main_v42_apply, val_main_v41_apply, sig_0 g i k, eye_0, hadj g i k]
  exact wgt_alg _ _ _ i k

/-- The sum of a row of unnormalised weights; the sum starts from the word zero. -/
theorem rowsum_0 (hadj : AdjDiag A) (g : Fin 64) (i : Fin 512) :
    val_main_v43 (F := Ideal) X A wa ba (ix2 g i) = ∑ k' : Fin 512, wgt eps (score (lin (gx X g) (Wof wa 0) (bof ba 0)) (gx X g)) (gadj A g) i k' := by
  rw [val_main_v43_apply, val_main_cst_7_apply]
  simp only [Ideal.ofBits_def, Ideal.ofBits_zero_f32, zero_add]
  refine Finset.sum_congr rfl fun k' _ => ?_
  rw [show idx_main_v43 (ix2 g i) k' = ix3 g i k' by idx3, w_0 hadj g i k']

/-- Layer 0's normalised weights: the layer's second result. -/
theorem ref_att_0 (hadj : AdjDiag A) (g : Fin 64) (i k : Fin 512) :
    val_main_v46 (F := Ideal) X A wa ba (ix3 g i k) = attL (P wa ba w0 b0 w1 b1 wf bf) 0 (gx X g) (gadj A g) i k := by
  rw [val_main_v46_apply, val_main_v45_apply, val_main_v44_apply,
    show idx_main_v44 (idx_main_v45 (ix3 g i k)) = ix2 g i by idx2, rowsum_0 hadj g i, w_0 hadj g i k]
  rfl

/-- The weights mix the feature rows. -/
theorem mix_0 (hadj : AdjDiag A) (g : Fin 64) (i : Fin 512) (d : Fin 256) :
    val_main_v47 (F := Ideal) X A wa ba (ix3 g i d) = mix (attL (P wa ba w0 b0 w1 b1 wf bf) 0 (gx X g) (gadj A g)) (gx X g) i d := by
  rw [val_main_v47_apply]
  refine Finset.sum_congr rfl fun j _ => ?_
  rw [show lidx_main_v47 (ix3 g i d) j = ix3 g i j by idx3, show ridx_main_v47 (ix3 g i d) j = ix3 g j d by idx3,
    ref_att_0 (wf := wf) (bf := bf) hadj g i j, (show X (ix3 g j d) = gx X g j d from rfl)]

/-- Layer 0's slice of the stacked first dense weights, as a matrix. -/
theorem w0_0 (w : S4x256x256.Idx → EReal) (o d : Fin 256) :
    val_main_v49 (F := Ideal) w (ix2 o d) = w (ix3 0 o d) := by
  rw [val_main_v49_apply, val_main_v48_apply]
  refine congrArg w (funext fun a => Fin.ext ?_)
  have ho := o.isLt; have hd := d.isLt
  match a with
  | ⟨0, _⟩ => rfl
  | ⟨1, _⟩ => show (o.val * 256 + d.val) / 256 % 256 = o.val; omega
  | ⟨2, _⟩ => show (o.val * 256 + d.val) % 256 = d.val; omega

/-- Layer 0's slice of the stacked first dense biases, spread over graphs and nodes. -/
theorem b0_0 (b : S4x256.Idx → EReal) (g : Fin 64) (n : Fin 512) (o : Fin 256) :
    val_main_v54 (F := Ideal) b (ix3 g n o) = b (ix2 0 o) := by
  rw [val_main_v54_apply, val_main_v53_apply, val_main_v52_apply, val_main_v51_apply]
  refine congrArg b (funext fun a => Fin.ext ?_)
  have ho := o.isLt
  match a with
  | ⟨0, _⟩ => rfl
  | ⟨1, _⟩ => show o.val % 256 = o.val; omega

/-- The first dense map after the mix. -/
theorem d0_0 (hadj : AdjDiag A) (g : Fin 64) (n : Fin 512) (o : Fin 256) :
    val_main_v55 (F := Ideal) X A wa ba w0 b0 (ix3 g n o) = lin (mix (attL (P wa ba w0 b0 w1 b1 wf bf) 0 (gx X g) (gadj A g)) (gx X g)) (Wof w0 0) (bof b0 0) n o := by
  rw [val_main_v55_apply, val_main_v50_apply, b0_0]
  refine congrArg₂ (· + ·) (Finset.sum_congr rfl fun d _ => ?_) rfl
  rw [show lidx_main_v50 (ix3 g n o) d = ix3 g n d by idx3, show ridx_main_v50 (ix3 g n o) d = ix2 o d by idx2,
    w0_0, mix_0 (wf := wf) (bf := bf) hadj g n d]
  rfl

/-- The rectifier: the maximum with a zero array. -/
theorem r0_0 (hadj : AdjDiag A) (g : Fin 64) (n : Fin 512) (o : Fin 256) :
    val_main_v56 (F := Ideal) X A wa ba w0 b0 (ix3 g n o) = relu (lin (mix (attL (P wa ba w0 b0 w1 b1 wf bf) 0 (gx X g) (gadj A g)) (gx X g)) (Wof w0 0) (bof b0 0)) n o := by
  rw [val_main_v56_apply, val_main_call0_v0_apply, val_main_call0_cst_apply, d0_0 (wf := wf) (bf := bf) hadj g n o]
  simp only [Ideal.maximumf_def, Ideal.ofBits_def, Ideal.ofBits_zero_f32]
  rfl

/-- Layer 0's slice of the stacked second dense weights, as a matrix. -/
theorem w1_0 (w : S4x256x256.Idx → EReal) (o d : Fin 256) :
    val_main_v58 (F := Ideal) w (ix2 o d) = w (ix3 0 o d) := by
  rw [val_main_v58_apply, val_main_v57_apply]
  refine congrArg w (funext fun a => Fin.ext ?_)
  have ho := o.isLt; have hd := d.isLt
  match a with
  | ⟨0, _⟩ => rfl
  | ⟨1, _⟩ => show (o.val * 256 + d.val) / 256 % 256 = o.val; omega
  | ⟨2, _⟩ => show (o.val * 256 + d.val) % 256 = d.val; omega

/-- Layer 0's slice of the stacked second dense biases, spread over graphs and nodes. -/
theorem b1_0 (b : S4x256.Idx → EReal) (g : Fin 64) (n : Fin 512) (o : Fin 256) :
    val_main_v63 (F := Ideal) b (ix3 g n o) = b (ix2 0 o) := by
  rw [val_main_v63_apply, val_main_v62_apply, val_main_v61_apply, val_main_v60_apply]
  refine congrArg b (funext fun a => Fin.ext ?_)
  have ho := o.isLt
  match a with
  | ⟨0, _⟩ => rfl
  | ⟨1, _⟩ => show o.val % 256 = o.val; omega

/-- The second dense map. -/
theorem d1_0 (hadj : AdjDiag A) (g : Fin 64) (n : Fin 512) (o : Fin 256) :
    val_main_v64 (F := Ideal) X A wa ba w0 b0 w1 b1 (ix3 g n o) = lin (relu (lin (mix (attL (P wa ba w0 b0 w1 b1 wf bf) 0 (gx X g) (gadj A g)) (gx X g)) (Wof w0 0) (bof b0 0))) (Wof w1 0) (bof b1 0) n o := by
  rw [val_main_v64_apply, val_main_v59_apply, b1_0]
  refine congrArg₂ (· + ·) (Finset.sum_congr rfl fun d _ => ?_) rfl
  rw [show lidx_main_v59 (ix3 g n o) d = ix3 g n d by idx3, show ridx_main_v59 (ix3 g n o) d = ix2 o d by idx2,
    w1_0, r0_0 (wf := wf) (bf := bf) hadj g n d]
  rfl

/-- The rectifier: the maximum with a zero array. -/
theorem r1_0 (hadj : AdjDiag A) (g : Fin 64) (n : Fin 512) (o : Fin 256) :
    val_main_v65 (F := Ideal) X A wa ba w0 b0 w1 b1 (ix3 g n o) = relu (lin (relu (lin (mix (attL (P wa ba w0 b0 w1 b1 wf bf) 0 (gx X g) (gadj A g)) (gx X g)) (Wof w0 0) (bof b0 0))) (Wof w1 0) (bof b1 0)) n o := by
  rw [val_main_v65_apply, val_main_call1_v0_apply, val_main_call1_cst_apply, d1_0 (wf := wf) (bf := bf) hadj g n o]
  simp only [Ideal.maximumf_def, Ideal.ofBits_def, Ideal.ofBits_zero_f32]
  rfl

/-- Layer 0's new features: the layer's input is added back. -/
theorem ref_x_1 (hadj : AdjDiag A) (g : Fin 64) (n : Fin 512) (o : Fin 256) :
    val_main_v66 (F := Ideal) X A wa ba w0 b0 w1 b1 (ix3 g n o) = x1 (P wa ba w0 b0 w1 b1 wf bf) (gx X g) (gadj A g) n o := by
  rw [val_main_v66_apply, r1_0 (wf := wf) (bf := bf) hadj g n o, (show X (ix3 g n o) = gx X g n o from rfl)]
  rfl

/-! ## Layer 1 -/

/-- Layer 1's slice of the stacked query weights, as a matrix. -/
theorem wa_1 (w : S4x256x256.Idx → EReal) (o d : Fin 256) :
    val_main_v68 (F := Ideal) w (ix2 o d) = w (ix3 1 o d) := by
  rw [val_main_v68_apply, val_main_v67_apply]
  refine congrArg w (funext fun a => Fin.ext ?_)
  have ho := o.isLt; have hd := d.isLt
  match a with
  | ⟨0, _⟩ => rfl
  | ⟨1, _⟩ => show (o.val * 256 + d.val) / 256 % 256 = o.val; omega
  | ⟨2, _⟩ => show (o.val * 256 + d.val) % 256 = d.val; omega

/-- Layer 1's slice of the stacked query biases, spread over graphs and nodes. -/
theorem ba_1 (b : S4x256.Idx → EReal) (g : Fin 64) (n : Fin 512) (o : Fin 256) :
    val_main_v73 (F := Ideal) b (ix3 g n o) = b (ix2 1 o) := by
  rw [val_main_v73_apply, val_main_v72_apply, val_main_v71_apply, val_main_v70_apply]
  refine congrArg b (funext fun a => Fin.ext ?_)
  have ho := o.isLt
  match a with
  | ⟨0, _⟩ => rfl
  | ⟨1, _⟩ => show o.val % 256 = o.val; omega

/-- Layer 1's queries: a dense map of the layer's input. -/
theorem q_1 (hadj : AdjDiag A) (g : Fin 64) (n : Fin 512) (o : Fin 256) :
    val_main_v74 (F := Ideal) X A wa ba w0 b0 w1 b1 (ix3 g n o) = lin (x1 (P wa ba w0 b0 w1 b1 wf bf) (gx X g) (gadj A g)) (Wof wa 1) (bof ba 1) n o := by
  rw [val_main_v74_apply, val_main_v69_apply, ba_1]
  refine congrArg₂ (· + ·) (Finset.sum_congr rfl fun d _ => ?_) rfl
  rw [show lidx_main_v69 (ix3 g n o) d = ix3 g n d by idx3, show ridx_main_v69 (ix3 g n o) d = ix2 o d by idx2,
    wa_1, (ref_x_1 (wf := wf) (bf := bf) hadj g n d)]
  rfl

/-- Layer 1's scores: query row `i` against feature row `k`. -/
theorem s_1 (hadj : AdjDiag A) (g : Fin 64) (i k : Fin 512) :
    val_main_v75 (F := Ideal) X A wa ba w0 b0 w1 b1 (ix3 g i k) = score (lin (x1 (P wa ba w0 b0 w1 b1 wf bf) (gx X g) (gadj A g)) (Wof wa 1) (bof ba 1)) (x1 (P wa ba w0 b0 w1 b1 wf bf) (gx X g) (gadj A g)) i k := by
  rw [val_main_v75_apply]
  refine Finset.sum_congr rfl fun j _ => ?_
  rw [show lidx_main_v75 (ix3 g i k) j = ix3 g i j by idx3, show ridx_main_v75 (ix3 g i k) j = ix3 g k j by idx3,
    q_1 (wf := wf) (bf := bf) hadj g i j, (ref_x_1 (wf := wf) (bf := bf) hadj g k j)]

/-- The logistic function, which the program spells out as one over one plus the exponential of the negated score. -/
theorem sig_1 (hadj : AdjDiag A) (g : Fin 64) (i k : Fin 512) :
    val_main_v81 (F := Ideal) X A wa ba w0 b0 w1 b1 (ix3 g i k) = Ideal.logistic (score (lin (x1 (P wa ba w0 b0 w1 b1 wf bf) (gx X g) (gadj A g)) (Wof wa 1) (bof ba 1)) (x1 (P wa ba w0 b0 w1 b1 wf bf) (gx X g) (gadj A g)) i k) := by
  rw [val_main_v81_apply, val_main_v80_apply, val_main_cst_9_apply, val_main_v79_apply, val_main_v78_apply,
    val_main_cst_8_apply, val_main_v77_apply, val_main_v76_apply, s_1 (wf := wf) (bf := bf) hadj g i k]
  simp only [Ideal.hostDivf_def, Ideal.ofBits_def, one_f32, Ideal.addf_def, Ideal.hostUnary_exp_def, Ideal.hostNegf_def,
    Ideal.negf_def]
  rfl

/-- The small diagonal matrix, spread over the graphs. -/
theorem eye_1 (g : Fin 64) (i k : Fin 512) :
    val_main_v83 (F := Ideal) (ix3 g i k) = eps * (if i = k then (1 : EReal) else 0) := by
  rw [val_main_v83_apply, val_main_v82_apply,
    show idx_main_v82 (idx_main_v83 (ix3 g i k)) = ix2 i k by idx2, eye23]

/-- Layer 1's unnormalised weights. Here the adjacency's diagonal of ones meets the small diagonal matrix. -/
theorem w_1 (hadj : AdjDiag A) (g : Fin 64) (i k : Fin 512) :
    val_main_v85 (F := Ideal) X A wa ba w0 b0 w1 b1 (ix3 g i k) = wgt eps (score (lin (x1 (P wa ba w0 b0 w1 b1 wf bf) (gx X g) (gadj A g)) (Wof wa 1) (bof ba 1)) (x1 (P wa ba w0 b0 w1 b1 wf bf) (gx X g) (gadj A g))) (gadj A g) i k := by
  rw [val_main_v85_apply, val_main_v84_apply, sig_1 (wf := wf) (bf := bf) hadj g i k, eye_1, hadj g i k]
  exact wgt_alg _ _ _ i k

/-- The sum of a row of unnormalised weights; the sum starts from the word zero. -/
theorem rowsum_1 (hadj : AdjDiag A) (g : Fin 64) (i : Fin 512) :
    val_main_v86 (F := Ideal) X A wa ba w0 b0 w1 b1 (ix2 g i) = ∑ k' : Fin 512, wgt eps (score (lin (x1 (P wa ba w0 b0 w1 b1 wf bf) (gx X g) (gadj A g)) (Wof wa 1) (bof ba 1)) (x1 (P wa ba w0 b0 w1 b1 wf bf) (gx X g) (gadj A g))) (gadj A g) i k' := by
  rw [val_main_v86_apply, val_main_cst_10_apply]
  simp only [Ideal.ofBits_def, Ideal.ofBits_zero_f32, zero_add]
  refine Finset.sum_congr rfl fun k' _ => ?_
  rw [show idx_main_v86 (ix2 g i) k' = ix3 g i k' by idx3, w_1 (wf := wf) (bf := bf) hadj g i k']

/-- Layer 1's normalised weights: the layer's second result. -/
theorem ref_att_1 (hadj : AdjDiag A) (g : Fin 64) (i k : Fin 512) :
    val_main_v89 (F := Ideal) X A wa ba w0 b0 w1 b1 (ix3 g i k) = attL (P wa ba w0 b0 w1 b1 wf bf) 1 (x1 (P wa ba w0 b0 w1 b1 wf bf) (gx X g) (gadj A g)) (gadj A g) i k := by
  rw [val_main_v89_apply, val_main_v88_apply, val_main_v87_apply,
    show idx_main_v87 (idx_main_v88 (ix3 g i k)) = ix2 g i by idx2, rowsum_1 (wf := wf) (bf := bf) hadj g i, w_1 (wf := wf) (bf := bf) hadj g i k]
  rfl

/-- The weights mix the feature rows. -/
theorem mix_1 (hadj : AdjDiag A) (g : Fin 64) (i : Fin 512) (d : Fin 256) :
    val_main_v90 (F := Ideal) X A wa ba w0 b0 w1 b1 (ix3 g i d) = mix (attL (P wa ba w0 b0 w1 b1 wf bf) 1 (x1 (P wa ba w0 b0 w1 b1 wf bf) (gx X g) (gadj A g)) (gadj A g)) (x1 (P wa ba w0 b0 w1 b1 wf bf) (gx X g) (gadj A g)) i d := by
  rw [val_main_v90_apply]
  refine Finset.sum_congr rfl fun j _ => ?_
  rw [show lidx_main_v90 (ix3 g i d) j = ix3 g i j by idx3, show ridx_main_v90 (ix3 g i d) j = ix3 g j d by idx3,
    ref_att_1 (wf := wf) (bf := bf) hadj g i j, (ref_x_1 (wf := wf) (bf := bf) hadj g j d)]

/-- Layer 1's slice of the stacked first dense weights, as a matrix. -/
theorem w0_1 (w : S4x256x256.Idx → EReal) (o d : Fin 256) :
    val_main_v92 (F := Ideal) w (ix2 o d) = w (ix3 1 o d) := by
  rw [val_main_v92_apply, val_main_v91_apply]
  refine congrArg w (funext fun a => Fin.ext ?_)
  have ho := o.isLt; have hd := d.isLt
  match a with
  | ⟨0, _⟩ => rfl
  | ⟨1, _⟩ => show (o.val * 256 + d.val) / 256 % 256 = o.val; omega
  | ⟨2, _⟩ => show (o.val * 256 + d.val) % 256 = d.val; omega

/-- Layer 1's slice of the stacked first dense biases, spread over graphs and nodes. -/
theorem b0_1 (b : S4x256.Idx → EReal) (g : Fin 64) (n : Fin 512) (o : Fin 256) :
    val_main_v97 (F := Ideal) b (ix3 g n o) = b (ix2 1 o) := by
  rw [val_main_v97_apply, val_main_v96_apply, val_main_v95_apply, val_main_v94_apply]
  refine congrArg b (funext fun a => Fin.ext ?_)
  have ho := o.isLt
  match a with
  | ⟨0, _⟩ => rfl
  | ⟨1, _⟩ => show o.val % 256 = o.val; omega

/-- The first dense map after the mix. -/
theorem d0_1 (hadj : AdjDiag A) (g : Fin 64) (n : Fin 512) (o : Fin 256) :
    val_main_v98 (F := Ideal) X A wa ba w0 b0 w1 b1 (ix3 g n o) = lin (mix (attL (P wa ba w0 b0 w1 b1 wf bf) 1 (x1 (P wa ba w0 b0 w1 b1 wf bf) (gx X g) (gadj A g)) (gadj A g)) (x1 (P wa ba w0 b0 w1 b1 wf bf) (gx X g) (gadj A g))) (Wof w0 1) (bof b0 1) n o := by
  rw [val_main_v98_apply, val_main_v93_apply, b0_1]
  refine congrArg₂ (· + ·) (Finset.sum_congr rfl fun d _ => ?_) rfl
  rw [show lidx_main_v93 (ix3 g n o) d = ix3 g n d by idx3, show ridx_main_v93 (ix3 g n o) d = ix2 o d by idx2,
    w0_1, mix_1 (wf := wf) (bf := bf) hadj g n d]
  rfl

/-- The rectifier: the maximum with a zero array. -/
theorem r0_1 (hadj : AdjDiag A) (g : Fin 64) (n : Fin 512) (o : Fin 256) :
    val_main_v99 (F := Ideal) X A wa ba w0 b0 w1 b1 (ix3 g n o) = relu (lin (mix (attL (P wa ba w0 b0 w1 b1 wf bf) 1 (x1 (P wa ba w0 b0 w1 b1 wf bf) (gx X g) (gadj A g)) (gadj A g)) (x1 (P wa ba w0 b0 w1 b1 wf bf) (gx X g) (gadj A g))) (Wof w0 1) (bof b0 1)) n o := by
  rw [val_main_v99_apply, val_main_call2_v0_apply, val_main_call2_cst_apply, d0_1 (wf := wf) (bf := bf) hadj g n o]
  simp only [Ideal.maximumf_def, Ideal.ofBits_def, Ideal.ofBits_zero_f32]
  rfl

/-- Layer 1's slice of the stacked second dense weights, as a matrix. -/
theorem w1_1 (w : S4x256x256.Idx → EReal) (o d : Fin 256) :
    val_main_v101 (F := Ideal) w (ix2 o d) = w (ix3 1 o d) := by
  rw [val_main_v101_apply, val_main_v100_apply]
  refine congrArg w (funext fun a => Fin.ext ?_)
  have ho := o.isLt; have hd := d.isLt
  match a with
  | ⟨0, _⟩ => rfl
  | ⟨1, _⟩ => show (o.val * 256 + d.val) / 256 % 256 = o.val; omega
  | ⟨2, _⟩ => show (o.val * 256 + d.val) % 256 = d.val; omega

/-- Layer 1's slice of the stacked second dense biases, spread over graphs and nodes. -/
theorem b1_1 (b : S4x256.Idx → EReal) (g : Fin 64) (n : Fin 512) (o : Fin 256) :
    val_main_v106 (F := Ideal) b (ix3 g n o) = b (ix2 1 o) := by
  rw [val_main_v106_apply, val_main_v105_apply, val_main_v104_apply, val_main_v103_apply]
  refine congrArg b (funext fun a => Fin.ext ?_)
  have ho := o.isLt
  match a with
  | ⟨0, _⟩ => rfl
  | ⟨1, _⟩ => show o.val % 256 = o.val; omega

/-- The second dense map. -/
theorem d1_1 (hadj : AdjDiag A) (g : Fin 64) (n : Fin 512) (o : Fin 256) :
    val_main_v107 (F := Ideal) X A wa ba w0 b0 w1 b1 (ix3 g n o) = lin (relu (lin (mix (attL (P wa ba w0 b0 w1 b1 wf bf) 1 (x1 (P wa ba w0 b0 w1 b1 wf bf) (gx X g) (gadj A g)) (gadj A g)) (x1 (P wa ba w0 b0 w1 b1 wf bf) (gx X g) (gadj A g))) (Wof w0 1) (bof b0 1))) (Wof w1 1) (bof b1 1) n o := by
  rw [val_main_v107_apply, val_main_v102_apply, b1_1]
  refine congrArg₂ (· + ·) (Finset.sum_congr rfl fun d _ => ?_) rfl
  rw [show lidx_main_v102 (ix3 g n o) d = ix3 g n d by idx3, show ridx_main_v102 (ix3 g n o) d = ix2 o d by idx2,
    w1_1, r0_1 (wf := wf) (bf := bf) hadj g n d]
  rfl

/-- The rectifier: the maximum with a zero array. -/
theorem r1_1 (hadj : AdjDiag A) (g : Fin 64) (n : Fin 512) (o : Fin 256) :
    val_main_v108 (F := Ideal) X A wa ba w0 b0 w1 b1 (ix3 g n o) = relu (lin (relu (lin (mix (attL (P wa ba w0 b0 w1 b1 wf bf) 1 (x1 (P wa ba w0 b0 w1 b1 wf bf) (gx X g) (gadj A g)) (gadj A g)) (x1 (P wa ba w0 b0 w1 b1 wf bf) (gx X g) (gadj A g))) (Wof w0 1) (bof b0 1))) (Wof w1 1) (bof b1 1)) n o := by
  rw [val_main_v108_apply, val_main_call3_v0_apply, val_main_call3_cst_apply, d1_1 (wf := wf) (bf := bf) hadj g n o]
  simp only [Ideal.maximumf_def, Ideal.ofBits_def, Ideal.ofBits_zero_f32]
  rfl

/-- Layer 1's new features: the layer's input is added back. -/
theorem ref_x_2 (hadj : AdjDiag A) (g : Fin 64) (n : Fin 512) (o : Fin 256) :
    val_main_v109 (F := Ideal) X A wa ba w0 b0 w1 b1 (ix3 g n o) = x2 (P wa ba w0 b0 w1 b1 wf bf) (gx X g) (gadj A g) n o := by
  rw [val_main_v109_apply, r1_1 (wf := wf) (bf := bf) hadj g n o, (ref_x_1 (wf := wf) (bf := bf) hadj g n o)]
  rfl

/-! ## Layer 2 -/

/-- Layer 2's slice of the stacked query weights, as a matrix. -/
theorem wa_2 (w : S4x256x256.Idx → EReal) (o d : Fin 256) :
    val_main_v111 (F := Ideal) w (ix2 o d) = w (ix3 2 o d) := by
  rw [val_main_v111_apply, val_main_v110_apply]
  refine congrArg w (funext fun a => Fin.ext ?_)
  have ho := o.isLt; have hd := d.isLt
  match a with
  | ⟨0, _⟩ => rfl
  | ⟨1, _⟩ => show (o.val * 256 + d.val) / 256 % 256 = o.val; omega
  | ⟨2, _⟩ => show (o.val * 256 + d.val) % 256 = d.val; omega

/-- Layer 2's slice of the stacked query biases, spread over graphs and nodes. -/
theorem ba_2 (b : S4x256.Idx → EReal) (g : Fin 64) (n : Fin 512) (o : Fin 256) :
    val_main_v116 (F := Ideal) b (ix3 g n o) = b (ix2 2 o) := by
  rw [val_main_v116_apply, val_main_v115_apply, val_main_v114_apply, val_main_v113_apply]
  refine congrArg b (funext fun a => Fin.ext ?_)
  have ho := o.isLt
  match a with
  | ⟨0, _⟩ => rfl
  | ⟨1, _⟩ => show o.val % 256 = o.val; omega

/-- Layer 2's queries: a dense map of the layer's input. -/
theorem q_2 (hadj : AdjDiag A) (g : Fin 64) (n : Fin 512) (o : Fin 256) :
    val_main_v117 (F := Ideal) X A wa ba w0 b0 w1 b1 (ix3 g n o) = lin (x2 (P wa ba w0 b0 w1 b1 wf bf) (gx X g) (gadj A g)) (Wof wa 2) (bof ba 2) n o := by
  rw [val_main_v117_apply, val_main_v112_apply, ba_2]
  refine congrArg₂ (· + ·) (Finset.sum_congr rfl fun d _ => ?_) rfl
  rw [show lidx_main_v112 (ix3 g n o) d = ix3 g n d by idx3, show ridx_main_v112 (ix3 g n o) d = ix2 o d by idx2,
    wa_2, (ref_x_2 (wf := wf) (bf := bf) hadj g n d)]
  rfl

/-- Layer 2's scores: query row `i` against feature row `k`. -/
theorem s_2 (hadj : AdjDiag A) (g : Fin 64) (i k : Fin 512) :
    val_main_v118 (F := Ideal) X A wa ba w0 b0 w1 b1 (ix3 g i k) = score (lin (x2 (P wa ba w0 b0 w1 b1 wf bf) (gx X g) (gadj A g)) (Wof wa 2) (bof ba 2)) (x2 (P wa ba w0 b0 w1 b1 wf bf) (gx X g) (gadj A g)) i k := by
  rw [val_main_v118_apply]
  refine Finset.sum_congr rfl fun j _ => ?_
  rw [show lidx_main_v118 (ix3 g i k) j = ix3 g i j by idx3, show ridx_main_v118 (ix3 g i k) j = ix3 g k j by idx3,
    q_2 (wf := wf) (bf := bf) hadj g i j, (ref_x_2 (wf := wf) (bf := bf) hadj g k j)]

/-- The logistic function, which the program spells out as one over one plus the exponential of the negated score. -/
theorem sig_2 (hadj : AdjDiag A) (g : Fin 64) (i k : Fin 512) :
    val_main_v124 (F := Ideal) X A wa ba w0 b0 w1 b1 (ix3 g i k) = Ideal.logistic (score (lin (x2 (P wa ba w0 b0 w1 b1 wf bf) (gx X g) (gadj A g)) (Wof wa 2) (bof ba 2)) (x2 (P wa ba w0 b0 w1 b1 wf bf) (gx X g) (gadj A g)) i k) := by
  rw [val_main_v124_apply, val_main_v123_apply, val_main_cst_12_apply, val_main_v122_apply, val_main_v121_apply,
    val_main_cst_11_apply, val_main_v120_apply, val_main_v119_apply, s_2 (wf := wf) (bf := bf) hadj g i k]
  simp only [Ideal.hostDivf_def, Ideal.ofBits_def, one_f32, Ideal.addf_def, Ideal.hostUnary_exp_def, Ideal.hostNegf_def,
    Ideal.negf_def]
  rfl

/-- The small diagonal matrix, spread over the graphs. -/
theorem eye_2 (g : Fin 64) (i k : Fin 512) :
    val_main_v126 (F := Ideal) (ix3 g i k) = eps * (if i = k then (1 : EReal) else 0) := by
  rw [val_main_v126_apply, val_main_v125_apply,
    show idx_main_v125 (idx_main_v126 (ix3 g i k)) = ix2 i k by idx2, eye23]

/-- Layer 2's unnormalised weights. Here the adjacency's diagonal of ones meets the small diagonal matrix. -/
theorem w_2 (hadj : AdjDiag A) (g : Fin 64) (i k : Fin 512) :
    val_main_v128 (F := Ideal) X A wa ba w0 b0 w1 b1 (ix3 g i k) = wgt eps (score (lin (x2 (P wa ba w0 b0 w1 b1 wf bf) (gx X g) (gadj A g)) (Wof wa 2) (bof ba 2)) (x2 (P wa ba w0 b0 w1 b1 wf bf) (gx X g) (gadj A g))) (gadj A g) i k := by
  rw [val_main_v128_apply, val_main_v127_apply, sig_2 (wf := wf) (bf := bf) hadj g i k, eye_2, hadj g i k]
  exact wgt_alg _ _ _ i k

/-- The sum of a row of unnormalised weights; the sum starts from the word zero. -/
theorem rowsum_2 (hadj : AdjDiag A) (g : Fin 64) (i : Fin 512) :
    val_main_v129 (F := Ideal) X A wa ba w0 b0 w1 b1 (ix2 g i) = ∑ k' : Fin 512, wgt eps (score (lin (x2 (P wa ba w0 b0 w1 b1 wf bf) (gx X g) (gadj A g)) (Wof wa 2) (bof ba 2)) (x2 (P wa ba w0 b0 w1 b1 wf bf) (gx X g) (gadj A g))) (gadj A g) i k' := by
  rw [val_main_v129_apply, val_main_cst_13_apply]
  simp only [Ideal.ofBits_def, Ideal.ofBits_zero_f32, zero_add]
  refine Finset.sum_congr rfl fun k' _ => ?_
  rw [show idx_main_v129 (ix2 g i) k' = ix3 g i k' by idx3, w_2 (wf := wf) (bf := bf) hadj g i k']

/-- Layer 2's normalised weights: the layer's second result. -/
theorem ref_att_2 (hadj : AdjDiag A) (g : Fin 64) (i k : Fin 512) :
    val_main_v132 (F := Ideal) X A wa ba w0 b0 w1 b1 (ix3 g i k) = attL (P wa ba w0 b0 w1 b1 wf bf) 2 (x2 (P wa ba w0 b0 w1 b1 wf bf) (gx X g) (gadj A g)) (gadj A g) i k := by
  rw [val_main_v132_apply, val_main_v131_apply, val_main_v130_apply,
    show idx_main_v130 (idx_main_v131 (ix3 g i k)) = ix2 g i by idx2, rowsum_2 (wf := wf) (bf := bf) hadj g i, w_2 (wf := wf) (bf := bf) hadj g i k]
  rfl

/-- The weights mix the feature rows. -/
theorem mix_2 (hadj : AdjDiag A) (g : Fin 64) (i : Fin 512) (d : Fin 256) :
    val_main_v133 (F := Ideal) X A wa ba w0 b0 w1 b1 (ix3 g i d) = mix (attL (P wa ba w0 b0 w1 b1 wf bf) 2 (x2 (P wa ba w0 b0 w1 b1 wf bf) (gx X g) (gadj A g)) (gadj A g)) (x2 (P wa ba w0 b0 w1 b1 wf bf) (gx X g) (gadj A g)) i d := by
  rw [val_main_v133_apply]
  refine Finset.sum_congr rfl fun j _ => ?_
  rw [show lidx_main_v133 (ix3 g i d) j = ix3 g i j by idx3, show ridx_main_v133 (ix3 g i d) j = ix3 g j d by idx3,
    ref_att_2 (wf := wf) (bf := bf) hadj g i j, (ref_x_2 (wf := wf) (bf := bf) hadj g j d)]

/-- Layer 2's slice of the stacked first dense weights, as a matrix. -/
theorem w0_2 (w : S4x256x256.Idx → EReal) (o d : Fin 256) :
    val_main_v135 (F := Ideal) w (ix2 o d) = w (ix3 2 o d) := by
  rw [val_main_v135_apply, val_main_v134_apply]
  refine congrArg w (funext fun a => Fin.ext ?_)
  have ho := o.isLt; have hd := d.isLt
  match a with
  | ⟨0, _⟩ => rfl
  | ⟨1, _⟩ => show (o.val * 256 + d.val) / 256 % 256 = o.val; omega
  | ⟨2, _⟩ => show (o.val * 256 + d.val) % 256 = d.val; omega

/-- Layer 2's slice of the stacked first dense biases, spread over graphs and nodes. -/
theorem b0_2 (b : S4x256.Idx → EReal) (g : Fin 64) (n : Fin 512) (o : Fin 256) :
    val_main_v140 (F := Ideal) b (ix3 g n o) = b (ix2 2 o) := by
  rw [val_main_v140_apply, val_main_v139_apply, val_main_v138_apply, val_main_v137_apply]
  refine congrArg b (funext fun a => Fin.ext ?_)
  have ho := o.isLt
  match a with
  | ⟨0, _⟩ => rfl
  | ⟨1, _⟩ => show o.val % 256 = o.val; omega

/-- The first dense map after the mix. -/
theorem d0_2 (hadj : AdjDiag A) (g : Fin 64) (n : Fin 512) (o : Fin 256) :
    val_main_v141 (F := Ideal) X A wa ba w0 b0 w1 b1 (ix3 g n o) = lin (mix (attL (P wa ba w0 b0 w1 b1 wf bf) 2 (x2 (P wa ba w0 b0 w1 b1 wf bf) (gx X g) (gadj A g)) (gadj A g)) (x2 (P wa ba w0 b0 w1 b1 wf bf) (gx X g) (gadj A g))) (Wof w0 2) (bof b0 2) n o := by
  rw [val_main_v141_apply, val_main_v136_apply, b0_2]
  refine congrArg₂ (· + ·) (Finset.sum_congr rfl fun d _ => ?_) rfl
  rw [show lidx_main_v136 (ix3 g n o) d = ix3 g n d by idx3, show ridx_main_v136 (ix3 g n o) d = ix2 o d by idx2,
    w0_2, mix_2 (wf := wf) (bf := bf) hadj g n d]
  rfl

/-- The rectifier: the maximum with a zero array. -/
theorem r0_2 (hadj : AdjDiag A) (g : Fin 64) (n : Fin 512) (o : Fin 256) :
    val_main_v142 (F := Ideal) X A wa ba w0 b0 w1 b1 (ix3 g n o) = relu (lin (mix (attL (P wa ba w0 b0 w1 b1 wf bf) 2 (x2 (P wa ba w0 b0 w1 b1 wf bf) (gx X g) (gadj A g)) (gadj A g)) (x2 (P wa ba w0 b0 w1 b1 wf bf) (gx X g) (gadj A g))) (Wof w0 2) (bof b0 2)) n o := by
  rw [val_main_v142_apply, val_main_call4_v0_apply, val_main_call4_cst_apply, d0_2 (wf := wf) (bf := bf) hadj g n o]
  simp only [Ideal.maximumf_def, Ideal.ofBits_def, Ideal.ofBits_zero_f32]
  rfl

/-- Layer 2's slice of the stacked second dense weights, as a matrix. -/
theorem w1_2 (w : S4x256x256.Idx → EReal) (o d : Fin 256) :
    val_main_v144 (F := Ideal) w (ix2 o d) = w (ix3 2 o d) := by
  rw [val_main_v144_apply, val_main_v143_apply]
  refine congrArg w (funext fun a => Fin.ext ?_)
  have ho := o.isLt; have hd := d.isLt
  match a with
  | ⟨0, _⟩ => rfl
  | ⟨1, _⟩ => show (o.val * 256 + d.val) / 256 % 256 = o.val; omega
  | ⟨2, _⟩ => show (o.val * 256 + d.val) % 256 = d.val; omega

/-- Layer 2's slice of the stacked second dense biases, spread over graphs and nodes. -/
theorem b1_2 (b : S4x256.Idx → EReal) (g : Fin 64) (n : Fin 512) (o : Fin 256) :
    val_main_v149 (F := Ideal) b (ix3 g n o) = b (ix2 2 o) := by
  rw [val_main_v149_apply, val_main_v148_apply, val_main_v147_apply, val_main_v146_apply]
  refine congrArg b (funext fun a => Fin.ext ?_)
  have ho := o.isLt
  match a with
  | ⟨0, _⟩ => rfl
  | ⟨1, _⟩ => show o.val % 256 = o.val; omega

/-- The second dense map. -/
theorem d1_2 (hadj : AdjDiag A) (g : Fin 64) (n : Fin 512) (o : Fin 256) :
    val_main_v150 (F := Ideal) X A wa ba w0 b0 w1 b1 (ix3 g n o) = lin (relu (lin (mix (attL (P wa ba w0 b0 w1 b1 wf bf) 2 (x2 (P wa ba w0 b0 w1 b1 wf bf) (gx X g) (gadj A g)) (gadj A g)) (x2 (P wa ba w0 b0 w1 b1 wf bf) (gx X g) (gadj A g))) (Wof w0 2) (bof b0 2))) (Wof w1 2) (bof b1 2) n o := by
  rw [val_main_v150_apply, val_main_v145_apply, b1_2]
  refine congrArg₂ (· + ·) (Finset.sum_congr rfl fun d _ => ?_) rfl
  rw [show lidx_main_v145 (ix3 g n o) d = ix3 g n d by idx3, show ridx_main_v145 (ix3 g n o) d = ix2 o d by idx2,
    w1_2, r0_2 (wf := wf) (bf := bf) hadj g n d]
  rfl

/-- The rectifier: the maximum with a zero array. -/
theorem r1_2 (hadj : AdjDiag A) (g : Fin 64) (n : Fin 512) (o : Fin 256) :
    val_main_v151 (F := Ideal) X A wa ba w0 b0 w1 b1 (ix3 g n o) = relu (lin (relu (lin (mix (attL (P wa ba w0 b0 w1 b1 wf bf) 2 (x2 (P wa ba w0 b0 w1 b1 wf bf) (gx X g) (gadj A g)) (gadj A g)) (x2 (P wa ba w0 b0 w1 b1 wf bf) (gx X g) (gadj A g))) (Wof w0 2) (bof b0 2))) (Wof w1 2) (bof b1 2)) n o := by
  rw [val_main_v151_apply, val_main_call5_v0_apply, val_main_call5_cst_apply, d1_2 (wf := wf) (bf := bf) hadj g n o]
  simp only [Ideal.maximumf_def, Ideal.ofBits_def, Ideal.ofBits_zero_f32]
  rfl

/-- Layer 2's new features: the layer's input is added back. -/
theorem ref_x_3 (hadj : AdjDiag A) (g : Fin 64) (n : Fin 512) (o : Fin 256) :
    val_main_v152 (F := Ideal) X A wa ba w0 b0 w1 b1 (ix3 g n o) = x3 (P wa ba w0 b0 w1 b1 wf bf) (gx X g) (gadj A g) n o := by
  rw [val_main_v152_apply, r1_2 (wf := wf) (bf := bf) hadj g n o, (ref_x_2 (wf := wf) (bf := bf) hadj g n o)]
  rfl

/-! ## Layer 3 -/

/-- Layer 3's slice of the stacked query weights, as a matrix. -/
theorem wa_3 (w : S4x256x256.Idx → EReal) (o d : Fin 256) :
    val_main_v154 (F := Ideal) w (ix2 o d) = w (ix3 3 o d) := by
  rw [val_main_v154_apply, val_main_v153_apply]
  refine congrArg w (funext fun a => Fin.ext ?_)
  have ho := o.isLt; have hd := d.isLt
  match a with
  | ⟨0, _⟩ => rfl
  | ⟨1, _⟩ => show (o.val * 256 + d.val) / 256 % 256 = o.val; omega
  | ⟨2, _⟩ => show (o.val * 256 + d.val) % 256 = d.val; omega

/-- Layer 3's slice of the stacked query biases, spread over graphs and nodes. -/
theorem ba_3 (b : S4x256.Idx → EReal) (g : Fin 64) (n : Fin 512) (o : Fin 256) :
    val_main_v159 (F := Ideal) b (ix3 g n o) = b (ix2 3 o) := by
  rw [val_main_v159_apply, val_main_v158_apply, val_main_v157_apply, val_main_v156_apply]
  refine congrArg b (funext fun a => Fin.ext ?_)
  have ho := o.isLt
  match a with
  | ⟨0, _⟩ => rfl
  | ⟨1, _⟩ => show o.val % 256 = o.val; omega

/-- Layer 3's queries: a dense map of the layer's input. -/
theorem q_3 (hadj : AdjDiag A) (g : Fin 64) (n : Fin 512) (o : Fin 256) :
    val_main_v160 (F := Ideal) X A wa ba w0 b0 w1 b1 (ix3 g n o) = lin (x3 (P wa ba w0 b0 w1 b1 wf bf) (gx X g) (gadj A g)) (Wof wa 3) (bof ba 3) n o := by
  rw [val_main_v160_apply, val_main_v155_apply, ba_3]
  refine congrArg₂ (· + ·) (Finset.sum_congr rfl fun d _ => ?_) rfl
  rw [show lidx_main_v155 (ix3 g n o) d = ix3 g n d by idx3, show ridx_main_v155 (ix3 g n o) d = ix2 o d by idx2,
    wa_3, (ref_x_3 (wf := wf) (bf := bf) hadj g n d)]
  rfl

/-- Layer 3's scores: query row `i` against feature row `k`. -/
theorem s_3 (hadj : AdjDiag A) (g : Fin 64) (i k : Fin 512) :
    val_main_v161 (F := Ideal) X A wa ba w0 b0 w1 b1 (ix3 g i k) = score (lin (x3 (P wa ba w0 b0 w1 b1 wf bf) (gx X g) (gadj A g)) (Wof wa 3) (bof ba 3)) (x3 (P wa ba w0 b0 w1 b1 wf bf) (gx X g) (gadj A g)) i k := by
  rw [val_main_v161_apply]
  refine Finset.sum_congr rfl fun j _ => ?_
  rw [show lidx_main_v161 (ix3 g i k) j = ix3 g i j by idx3, show ridx_main_v161 (ix3 g i k) j = ix3 g k j by idx3,
    q_3 (wf := wf) (bf := bf) hadj g i j, (ref_x_3 (wf := wf) (bf := bf) hadj g k j)]

/-- The logistic function, which the program spells out as one over one plus the exponential of the negated score. -/
theorem sig_3 (hadj : AdjDiag A) (g : Fin 64) (i k : Fin 512) :
    val_main_v167 (F := Ideal) X A wa ba w0 b0 w1 b1 (ix3 g i k) = Ideal.logistic (score (lin (x3 (P wa ba w0 b0 w1 b1 wf bf) (gx X g) (gadj A g)) (Wof wa 3) (bof ba 3)) (x3 (P wa ba w0 b0 w1 b1 wf bf) (gx X g) (gadj A g)) i k) := by
  rw [val_main_v167_apply, val_main_v166_apply, val_main_cst_15_apply, val_main_v165_apply, val_main_v164_apply,
    val_main_cst_14_apply, val_main_v163_apply, val_main_v162_apply, s_3 (wf := wf) (bf := bf) hadj g i k]
  simp only [Ideal.hostDivf_def, Ideal.ofBits_def, one_f32, Ideal.addf_def, Ideal.hostUnary_exp_def, Ideal.hostNegf_def,
    Ideal.negf_def]
  rfl

/-- The small diagonal matrix, spread over the graphs. -/
theorem eye_3 (g : Fin 64) (i k : Fin 512) :
    val_main_v169 (F := Ideal) (ix3 g i k) = eps * (if i = k then (1 : EReal) else 0) := by
  rw [val_main_v169_apply, val_main_v168_apply,
    show idx_main_v168 (idx_main_v169 (ix3 g i k)) = ix2 i k by idx2, eye23]

/-- Layer 3's unnormalised weights. Here the adjacency's diagonal of ones meets the small diagonal matrix. -/
theorem w_3 (hadj : AdjDiag A) (g : Fin 64) (i k : Fin 512) :
    val_main_v171 (F := Ideal) X A wa ba w0 b0 w1 b1 (ix3 g i k) = wgt eps (score (lin (x3 (P wa ba w0 b0 w1 b1 wf bf) (gx X g) (gadj A g)) (Wof wa 3) (bof ba 3)) (x3 (P wa ba w0 b0 w1 b1 wf bf) (gx X g) (gadj A g))) (gadj A g) i k := by
  rw [val_main_v171_apply, val_main_v170_apply, sig_3 (wf := wf) (bf := bf) hadj g i k, eye_3, hadj g i k]
  exact wgt_alg _ _ _ i k

/-- The sum of a row of unnormalised weights; the sum starts from the word zero. -/
theorem rowsum_3 (hadj : AdjDiag A) (g : Fin 64) (i : Fin 512) :
    val_main_v172 (F := Ideal) X A wa ba w0 b0 w1 b1 (ix2 g i) = ∑ k' : Fin 512, wgt eps (score (lin (x3 (P wa ba w0 b0 w1 b1 wf bf) (gx X g) (gadj A g)) (Wof wa 3) (bof ba 3)) (x3 (P wa ba w0 b0 w1 b1 wf bf) (gx X g) (gadj A g))) (gadj A g) i k' := by
  rw [val_main_v172_apply, val_main_cst_16_apply]
  simp only [Ideal.ofBits_def, Ideal.ofBits_zero_f32, zero_add]
  refine Finset.sum_congr rfl fun k' _ => ?_
  rw [show idx_main_v172 (ix2 g i) k' = ix3 g i k' by idx3, w_3 (wf := wf) (bf := bf) hadj g i k']

/-- Layer 3's normalised weights: the layer's second result. -/
theorem ref_att_3 (hadj : AdjDiag A) (g : Fin 64) (i k : Fin 512) :
    val_main_v175 (F := Ideal) X A wa ba w0 b0 w1 b1 (ix3 g i k) = attL (P wa ba w0 b0 w1 b1 wf bf) 3 (x3 (P wa ba w0 b0 w1 b1 wf bf) (gx X g) (gadj A g)) (gadj A g) i k := by
  rw [val_main_v175_apply, val_main_v174_apply, val_main_v173_apply,
    show idx_main_v173 (idx_main_v174 (ix3 g i k)) = ix2 g i by idx2, rowsum_3 (wf := wf) (bf := bf) hadj g i, w_3 (wf := wf) (bf := bf) hadj g i k]
  rfl

/-- The weights mix the feature rows. -/
theorem mix_3 (hadj : AdjDiag A) (g : Fin 64) (i : Fin 512) (d : Fin 256) :
    val_main_v176 (F := Ideal) X A wa ba w0 b0 w1 b1 (ix3 g i d) = mix (attL (P wa ba w0 b0 w1 b1 wf bf) 3 (x3 (P wa ba w0 b0 w1 b1 wf bf) (gx X g) (gadj A g)) (gadj A g)) (x3 (P wa ba w0 b0 w1 b1 wf bf) (gx X g) (gadj A g)) i d := by
  rw [val_main_v176_apply]
  refine Finset.sum_congr rfl fun j _ => ?_
  rw [show lidx_main_v176 (ix3 g i d) j = ix3 g i j by idx3, show ridx_main_v176 (ix3 g i d) j = ix3 g j d by idx3,
    ref_att_3 (wf := wf) (bf := bf) hadj g i j, (ref_x_3 (wf := wf) (bf := bf) hadj g j d)]

/-- Layer 3's slice of the stacked first dense weights, as a matrix. -/
theorem w0_3 (w : S4x256x256.Idx → EReal) (o d : Fin 256) :
    val_main_v178 (F := Ideal) w (ix2 o d) = w (ix3 3 o d) := by
  rw [val_main_v178_apply, val_main_v177_apply]
  refine congrArg w (funext fun a => Fin.ext ?_)
  have ho := o.isLt; have hd := d.isLt
  match a with
  | ⟨0, _⟩ => rfl
  | ⟨1, _⟩ => show (o.val * 256 + d.val) / 256 % 256 = o.val; omega
  | ⟨2, _⟩ => show (o.val * 256 + d.val) % 256 = d.val; omega

/-- Layer 3's slice of the stacked first dense biases, spread over graphs and nodes. -/
theorem b0_3 (b : S4x256.Idx → EReal) (g : Fin 64) (n : Fin 512) (o : Fin 256) :
    val_main_v183 (F := Ideal) b (ix3 g n o) = b (ix2 3 o) := by
  rw [val_main_v183_apply, val_main_v182_apply, val_main_v181_apply, val_main_v180_apply]
  refine congrArg b (funext fun a => Fin.ext ?_)
  have ho := o.isLt
  match a with
  | ⟨0, _⟩ => rfl
  | ⟨1, _⟩ => show o.val % 256 = o.val; omega

/-- The first dense map after the mix. -/
theorem d0_3 (hadj : AdjDiag A) (g : Fin 64) (n : Fin 512) (o : Fin 256) :
    val_main_v184 (F := Ideal) X A wa ba w0 b0 w1 b1 (ix3 g n o) = lin (mix (attL (P wa ba w0 b0 w1 b1 wf bf) 3 (x3 (P wa ba w0 b0 w1 b1 wf bf) (gx X g) (gadj A g)) (gadj A g)) (x3 (P wa ba w0 b0 w1 b1 wf bf) (gx X g) (gadj A g))) (Wof w0 3) (bof b0 3) n o := by
  rw [val_main_v184_apply, val_main_v179_apply, b0_3]
  refine congrArg₂ (· + ·) (Finset.sum_congr rfl fun d _ => ?_) rfl
  rw [show lidx_main_v179 (ix3 g n o) d = ix3 g n d by idx3, show ridx_main_v179 (ix3 g n o) d = ix2 o d by idx2,
    w0_3, mix_3 (wf := wf) (bf := bf) hadj g n d]
  rfl

/-- The rectifier: the maximum with a zero array. -/
theorem r0_3 (hadj : AdjDiag A) (g : Fin 64) (n : Fin 512) (o : Fin 256) :
    val_main_v185 (F := Ideal) X A wa ba w0 b0 w1 b1 (ix3 g n o) = relu (lin (mix (attL (P wa ba w0 b0 w1 b1 wf bf) 3 (x3 (P wa ba w0 b0 w1 b1 wf bf) (gx X g) (gadj A g)) (gadj A g)) (x3 (P wa ba w0 b0 w1 b1 wf bf) (gx X g) (gadj A g))) (Wof w0 3) (bof b0 3)) n o := by
  rw [val_main_v185_apply, val_main_call6_v0_apply, val_main_call6_cst_apply, d0_3 (wf := wf) (bf := bf) hadj g n o]
  simp only [Ideal.maximumf_def, Ideal.ofBits_def, Ideal.ofBits_zero_f32]
  rfl

/-- Layer 3's slice of the stacked second dense weights, as a matrix. -/
theorem w1_3 (w : S4x256x256.Idx → EReal) (o d : Fin 256) :
    val_main_v187 (F := Ideal) w (ix2 o d) = w (ix3 3 o d) := by
  rw [val_main_v187_apply, val_main_v186_apply]
  refine congrArg w (funext fun a => Fin.ext ?_)
  have ho := o.isLt; have hd := d.isLt
  match a with
  | ⟨0, _⟩ => rfl
  | ⟨1, _⟩ => show (o.val * 256 + d.val) / 256 % 256 = o.val; omega
  | ⟨2, _⟩ => show (o.val * 256 + d.val) % 256 = d.val; omega

/-- Layer 3's slice of the stacked second dense biases, spread over graphs and nodes. -/
theorem b1_3 (b : S4x256.Idx → EReal) (g : Fin 64) (n : Fin 512) (o : Fin 256) :
    val_main_v192 (F := Ideal) b (ix3 g n o) = b (ix2 3 o) := by
  rw [val_main_v192_apply, val_main_v191_apply, val_main_v190_apply, val_main_v189_apply]
  refine congrArg b (funext fun a => Fin.ext ?_)
  have ho := o.isLt
  match a with
  | ⟨0, _⟩ => rfl
  | ⟨1, _⟩ => show o.val % 256 = o.val; omega

/-- The second dense map. -/
theorem d1_3 (hadj : AdjDiag A) (g : Fin 64) (n : Fin 512) (o : Fin 256) :
    val_main_v193 (F := Ideal) X A wa ba w0 b0 w1 b1 (ix3 g n o) = lin (relu (lin (mix (attL (P wa ba w0 b0 w1 b1 wf bf) 3 (x3 (P wa ba w0 b0 w1 b1 wf bf) (gx X g) (gadj A g)) (gadj A g)) (x3 (P wa ba w0 b0 w1 b1 wf bf) (gx X g) (gadj A g))) (Wof w0 3) (bof b0 3))) (Wof w1 3) (bof b1 3) n o := by
  rw [val_main_v193_apply, val_main_v188_apply, b1_3]
  refine congrArg₂ (· + ·) (Finset.sum_congr rfl fun d _ => ?_) rfl
  rw [show lidx_main_v188 (ix3 g n o) d = ix3 g n d by idx3, show ridx_main_v188 (ix3 g n o) d = ix2 o d by idx2,
    w1_3, r0_3 (wf := wf) (bf := bf) hadj g n d]
  rfl

/-- The rectifier: the maximum with a zero array. -/
theorem r1_3 (hadj : AdjDiag A) (g : Fin 64) (n : Fin 512) (o : Fin 256) :
    val_main_v194 (F := Ideal) X A wa ba w0 b0 w1 b1 (ix3 g n o) = relu (lin (relu (lin (mix (attL (P wa ba w0 b0 w1 b1 wf bf) 3 (x3 (P wa ba w0 b0 w1 b1 wf bf) (gx X g) (gadj A g)) (gadj A g)) (x3 (P wa ba w0 b0 w1 b1 wf bf) (gx X g) (gadj A g))) (Wof w0 3) (bof b0 3))) (Wof w1 3) (bof b1 3)) n o := by
  rw [val_main_v194_apply, val_main_call7_v0_apply, val_main_call7_cst_apply, d1_3 (wf := wf) (bf := bf) hadj g n o]
  simp only [Ideal.maximumf_def, Ideal.ofBits_def, Ideal.ofBits_zero_f32]
  rfl

/-- Layer 3's new features: the layer's input is added back. -/
theorem ref_x_4 (hadj : AdjDiag A) (g : Fin 64) (n : Fin 512) (o : Fin 256) :
    val_main_v195 (F := Ideal) X A wa ba w0 b0 w1 b1 (ix3 g n o) = x4 (P wa ba w0 b0 w1 b1 wf bf) (gx X g) (gadj A g) n o := by
  rw [val_main_v195_apply, r1_3 (wf := wf) (bf := bf) hadj g n o, (ref_x_3 (wf := wf) (bf := bf) hadj g n o)]
  rfl

/-! ## The last dense map and the stack of the four layers' weights -/

/-- The features result: a dense map of the fourth layer's features. -/
theorem y_199 (hadj : AdjDiag A) (g : Fin 64) (n : Fin 512) (o : Fin 256) :
    val_main_v199 (F := Ideal) X A wa ba w0 b0 w1 b1 wf bf (ix3 g n o) = y (P wa ba w0 b0 w1 b1 wf bf) (gx X g) (gadj A g) n o := by
  rw [val_main_v199_apply, val_main_v196_apply, val_main_v198_apply, val_main_v197_apply,
    show idx_main_v197 (idx_main_v198 (ix3 g n o)) = ix1 o by idx1]
  refine congrArg₂ (· + ·) (Finset.sum_congr rfl fun d _ => ?_) rfl
  rw [show lidx_main_v196 (ix3 g n o) d = ix3 g n d by idx3, show ridx_main_v196 (ix3 g n o) d = ix2 o d by idx2,
    ref_x_4 (wf := wf) (bf := bf) hadj g n d]

/-- The reference's first result is the network's features result, as whole arrays. -/
theorem ref_outX (X : S64x512x256.Idx → EReal) (A : S64x512x512.Idx → EReal)
    (wa : S4x256x256.Idx → EReal) (ba : S4x256.Idx → EReal) (w0 : S4x256x256.Idx → EReal) (b0 : S4x256.Idx → EReal)
    (w1 : S4x256x256.Idx → EReal) (b1 : S4x256.Idx → EReal) (wf : S256x256.Idx → EReal) (bf : S256.Idx → EReal)
    (hadj : AdjDiag A) :
    val_main_v199 (F := Ideal) X A wa ba w0 b0 w1 b1 wf bf = outX (P wa ba w0 b0 w1 b1 wf bf) X A := by
  funext j
  obtain ⟨g, n, o, rfl⟩ : ∃ g n o, j = ix3 g n o := ⟨j 0, j 1, j 2, eq_ix3 j⟩
  exact y_199 hadj g n o

/-- The four arrays the program stacks: each layer's normalised weights under a leading axis of extent one. -/
abbrev pieces (X : S64x512x256.Idx → EReal) (A : S64x512x512.Idx → EReal)
    (wa : S4x256x256.Idx → EReal) (ba : S4x256.Idx → EReal) (w0 : S4x256x256.Idx → EReal) (b0 : S4x256.Idx → EReal)
    (w1 : S4x256x256.Idx → EReal) (b1 : S4x256.Idx → EReal) : List ((s : Shape) × (s.Idx → EReal)) :=
  [⟨S1x64x512x512, val_main_v200 (F := Ideal) X A wa ba⟩, ⟨S1x64x512x512, val_main_v201 (F := Ideal) X A wa ba w0 b0 w1 b1⟩,
    ⟨S1x64x512x512, val_main_v202 (F := Ideal) X A wa ba w0 b0 w1 b1⟩, ⟨S1x64x512x512, val_main_v203 (F := Ideal) X A wa ba w0 b0 w1 b1⟩]

/-- Layer 0's piece of the stack. -/
theorem stack_0 (hadj : AdjDiag A) (g : Fin 64) (i k : Fin 512) :
    val_main_v204 (F := Ideal) X A wa ba w0 b0 w1 b1 (ix4 0 g i k) = attL (P wa ba w0 b0 w1 b1 wf bf) 0 (gx X g) (gadj A g) i k := by
  have h := concatenate_apply_piece 0 (pieces X A wa ba w0 b0 w1 b1) concatenates_S1x64x512x512_S1x64x512x512_S1x64x512x512_S1x64x512x512_S4x64x512x512_d0 (ix4 0 g i k) 0 (show _ < 4 by omega)
    S1x64x512x512 (val_main_v200 (F := Ideal) X A wa ba) rfl rfl 0 rfl (ix4 0 g i k)
    (fun b hb => by
      match b with
      | ⟨0, _⟩ => exact absurd rfl hb
      | ⟨1, _⟩ => rfl
      | ⟨2, _⟩ => rfl
      | ⟨3, _⟩ => rfl) rfl
  refine h.trans ?_
  rw [val_main_v200_apply, show idx_main_v200 (ix4 0 g i k) = ix3 g i k by idx3]
  exact ref_att_0 (wf := wf) (bf := bf) hadj g i k

/-- Layer 1's piece of the stack. -/
theorem stack_1 (hadj : AdjDiag A) (g : Fin 64) (i k : Fin 512) :
    val_main_v204 (F := Ideal) X A wa ba w0 b0 w1 b1 (ix4 1 g i k) = attL (P wa ba w0 b0 w1 b1 wf bf) 1 (x1 (P wa ba w0 b0 w1 b1 wf bf) (gx X g) (gadj A g)) (gadj A g) i k := by
  have h := concatenate_apply_piece 0 (pieces X A wa ba w0 b0 w1 b1) concatenates_S1x64x512x512_S1x64x512x512_S1x64x512x512_S1x64x512x512_S4x64x512x512_d0 (ix4 1 g i k) 1 (show _ < 4 by omega)
    S1x64x512x512 (val_main_v201 (F := Ideal) X A wa ba w0 b0 w1 b1) rfl rfl 1 rfl (ix4 0 g i k)
    (fun b hb => by
      match b with
      | ⟨0, _⟩ => exact absurd rfl hb
      | ⟨1, _⟩ => rfl
      | ⟨2, _⟩ => rfl
      | ⟨3, _⟩ => rfl) rfl
  refine h.trans ?_
  rw [val_main_v201_apply, show idx_main_v201 (ix4 0 g i k) = ix3 g i k by idx3]
  exact ref_att_1 (wf := wf) (bf := bf) hadj g i k

/-- Layer 2's piece of the stack. -/
theorem stack_2 (hadj : AdjDiag A) (g : Fin 64) (i k : Fin 512) :
    val_main_v204 (F := Ideal) X A wa ba w0 b0 w1 b1 (ix4 2 g i k) = attL (P wa ba w0 b0 w1 b1 wf bf) 2 (x2 (P wa ba w0 b0 w1 b1 wf bf) (gx X g) (gadj A g)) (gadj A g) i k := by
  have h := concatenate_apply_piece 0 (pieces X A wa ba w0 b0 w1 b1) concatenates_S1x64x512x512_S1x64x512x512_S1x64x512x512_S1x64x512x512_S4x64x512x512_d0 (ix4 2 g i k) 2 (show _ < 4 by omega)
    S1x64x512x512 (val_main_v202 (F := Ideal) X A wa ba w0 b0 w1 b1) rfl rfl 2 rfl (ix4 0 g i k)
    (fun b hb => by
      match b with
      | ⟨0, _⟩ => exact absurd rfl hb
      | ⟨1, _⟩ => rfl
      | ⟨2, _⟩ => rfl
      | ⟨3, _⟩ => rfl) rfl
  refine h.trans ?_
  rw [val_main_v202_apply, show idx_main_v202 (ix4 0 g i k) = ix3 g i k by idx3]
  exact ref_att_2 (wf := wf) (bf := bf) hadj g i k

/-- Layer 3's piece of the stack. -/
theorem stack_3 (hadj : AdjDiag A) (g : Fin 64) (i k : Fin 512) :
    val_main_v204 (F := Ideal) X A wa ba w0 b0 w1 b1 (ix4 3 g i k) = attL (P wa ba w0 b0 w1 b1 wf bf) 3 (x3 (P wa ba w0 b0 w1 b1 wf bf) (gx X g) (gadj A g)) (gadj A g) i k := by
  have h := concatenate_apply_piece 0 (pieces X A wa ba w0 b0 w1 b1) concatenates_S1x64x512x512_S1x64x512x512_S1x64x512x512_S1x64x512x512_S4x64x512x512_d0 (ix4 3 g i k) 3 (show _ < 4 by omega)
    S1x64x512x512 (val_main_v203 (F := Ideal) X A wa ba w0 b0 w1 b1) rfl rfl 3 rfl (ix4 0 g i k)
    (fun b hb => by
      match b with
      | ⟨0, _⟩ => exact absurd rfl hb
      | ⟨1, _⟩ => rfl
      | ⟨2, _⟩ => rfl
      | ⟨3, _⟩ => rfl) rfl
  refine h.trans ?_
  rw [val_main_v203_apply, show idx_main_v203 (ix4 0 g i k) = ix3 g i k by idx3]
  exact ref_att_3 (wf := wf) (bf := bf) hadj g i k

/-- The reference's second result is the four layers' normalised weights, stacked. -/
theorem ref_outA (X : S64x512x256.Idx → EReal) (A : S64x512x512.Idx → EReal)
    (wa : S4x256x256.Idx → EReal) (ba : S4x256.Idx → EReal) (w0 : S4x256x256.Idx → EReal) (b0 : S4x256.Idx → EReal)
    (w1 : S4x256x256.Idx → EReal) (b1 : S4x256.Idx → EReal) (wf : S256x256.Idx → EReal) (bf : S256.Idx → EReal)
    (hadj : AdjDiag A) :
    val_main_v204 (F := Ideal) X A wa ba w0 b0 w1 b1 = outA (P wa ba w0 b0 w1 b1 wf bf) X A := by
  funext j
  obtain ⟨l, g, i, k, rfl⟩ : ∃ l g i k, j = ix4 l g i k := ⟨j 0, j 1, j 2, j 3, eq_ix4 j⟩
  match l with
  | ⟨0, _⟩ => exact stack_0 (wf := wf) (bf := bf) hadj g i k
  | ⟨1, _⟩ => exact stack_1 (wf := wf) (bf := bf) hadj g i k
  | ⟨2, _⟩ => exact stack_2 (wf := wf) (bf := bf) hadj g i k
  | ⟨3, _⟩ => exact stack_3 (wf := wf) (bf := bf) hadj g i k

end Cert.RefLayers

end
-- ==== Proof.RefAdj.lean ====
/-
  The reference's first step read at an index: a scatter that writes one constant at the operand indices
  `(g, m, m)` (the assignment `adj[:, m, m] := c` for every `m < 512`) holds that constant on the diagonal of
  every matrix of the batch and the operand everywhere else.

  The scatter is a left fold of pointwise writes over the update indices. Read at one position, such a fold is the
  initial value when no update lands there, and the written constant once one does (every update writes the same
  constant, so the order of the writes does not matter). For these dimension numbers update `(g, m)` lands at
  `(g, idx[m, 0], idx[m, 1])`; with both index columns holding the row number that is `(g, m, m)`, which equals
  `(g, i, k)` for some `m` exactly when `i = k`.
-/
import proofs.«111148_j14611478741207_2_alg».proof.Proof.Gen.ReferenceIdeal
import Idealize.ShloMosaic.Lib.Pipeline.Value
import Idealize.ShloMosaic.Lib.ValueIdx
import Idealize.ShloMosaic.Lib.IdealHost

noncomputable section
namespace Cert.Gat.RefAdj
open Idealize.ShloMosaic Idealize.ShloMosaic.ValueIdx
open Cert.ReferenceIdeal

/-! ## A left fold of pointwise writes, read at one position -/

/-- A left fold whose step leaves position `i'` alone at every list element keeps the value at `i'`. -/
theorem foldl_miss {ι κ α : Type} (step : (κ → α) → ι → (κ → α)) (i' : κ) (P : ι → Prop)
    (hmiss : ∀ r n, ¬ P n → step r n i' = r i') :
    ∀ (L : List ι) (x : κ → α), (∀ n ∈ L, ¬ P n) → (L.foldl step x) i' = x i' := by
  intro L
  induction L with
  | nil => intro x _; rfl
  | cons a L ih =>
    intro x h
    rw [List.foldl_cons, ih (step x a) (fun n hn => h n (List.mem_cons_of_mem a hn)),
      hmiss x a (h a List.mem_cons_self)]

/-- A left fold whose step writes `c` at position `i'` at the list elements that satisfy `P` and leaves it alone at the
    others holds `c` at `i'` once some list element satisfies `P`. -/
theorem foldl_hit {ι κ α : Type} (step : (κ → α) → ι → (κ → α)) (i' : κ) (c : α) (P : ι → Prop)
    (hmiss : ∀ r n, ¬ P n → step r n i' = r i') (hhit : ∀ r n, P n → step r n i' = c) :
    ∀ (L : List ι) (x : κ → α), (∃ n ∈ L, P n) → (L.foldl step x) i' = c := by
  intro L
  induction L with
  | nil => intro x h; obtain ⟨n, hn, _⟩ := h; cases hn
  | cons a L ih =>
    intro x h
    rw [List.foldl_cons]
    by_cases hL : ∃ n ∈ L, P n
    · exact ih _ hL
    · have ha : P a := by
        obtain ⟨n, hn, hp⟩ := h
        rcases List.mem_cons.1 hn with rfl | hn'
        · exact hp
        · exact absurd ⟨n, hn', hp⟩ hL
      rw [foldl_miss step i' P hmiss L _ (fun n hn hp => hL ⟨n, hn, hp⟩), hhit x a ha]

/-! ## A scatter read at an index: the last write wins, and equal writes need no order -/

section Scatter
variable {s si u : Shape} {α : Type} {w : Nat}

/-- A scatter does not change an element no update lands at. -/
theorem scatter_miss (d : ScatterDims s si u) (f : α → α → α) (x : s.Idx → α) (idx : IVec si w) (upd : u.Idx → α)
    (i' : s.Idx) (h : ∀ j, ¬ d.resultIdx? j idx = some i') : Host.scatter d f x idx upd i' = x i' := by
  unfold Host.scatter
  apply foldl_miss (P := fun n => d.resultIdx? (u.rowMajor.symm n) idx = some i')
  · intro r n hn
    generalize d.resultIdx? (u.rowMajor.symm n) idx = o at hn ⊢
    cases o with
    | none => rfl
    | some i₀ =>
      have hne : ¬ (i' = i₀) := fun e => hn (by rw [e])
      dsimp only
      rw [if_neg hne]
  · intro n _; exact h _

/-- A scatter whose body gives `c` at every update that lands at an element holds `c` there, once some update does. -/
theorem scatter_hit (d : ScatterDims s si u) (f : α → α → α) (x : s.Idx → α) (idx : IVec si w) (upd : u.Idx → α)
    (i' : s.Idx) (c : α) (hc : ∀ a j, d.resultIdx? j idx = some i' → f a (upd j) = c)
    (h : ∃ j, d.resultIdx? j idx = some i') : Host.scatter d f x idx upd i' = c := by
  unfold Host.scatter
  apply foldl_hit (P := fun n => d.resultIdx? (u.rowMajor.symm n) idx = some i') (c := c)
  · intro r n hn
    generalize d.resultIdx? (u.rowMajor.symm n) idx = o at hn ⊢
    cases o with
    | none => rfl
    | some i₀ =>
      have hne : ¬ (i' = i₀) := fun e => hn (by rw [e])
      dsimp only
      rw [if_neg hne]
  · intro r n hn
    have hv := hc (r i') (u.rowMajor.symm n) hn
    rw [hn]
    dsimp only
    rw [if_pos rfl, hv]
  · obtain ⟨j, hj⟩ := h
    refine ⟨u.rowMajor j, List.mem_finRange _, ?_⟩
    show d.resultIdx? (u.rowMajor.symm (u.rowMajor j)) idx = some i'
    rw [Equiv.symm_apply_apply]
    exact hj

end Scatter

/-! ## The scatter's dimension numbers: update `(g, m)` lands at operand index `(g, idx[m, 0], idx[m, 1])` -/

abbrev dd := scatter_S64x512x512_S512x2_S64x512_0_12_12_1

theorem window0 (g : Fin 64) (m : Fin 512) : dd.window (ix2 g m) 0 = g.val := rfl
theorem window1 (g : Fin 64) (m : Fin 512) : dd.window (ix2 g m) 1 = 0 := rfl
theorem window2 (g : Fin 64) (m : Fin 512) : dd.window (ix2 g m) 2 = 0 := rfl
theorem siIdx0 (g : Fin 64) (m : Fin 512) : dd.siIdx (ix2 g m) ⟨0, by decide⟩ = ix2 m 0 := by
  funext b; match b with | ⟨0, _⟩ => rfl | ⟨1, _⟩ => rfl
theorem siIdx1 (g : Fin 64) (m : Fin 512) : dd.siIdx (ix2 g m) ⟨1, by decide⟩ = ix2 m 1 := by
  funext b; match b with | ⟨0, _⟩ => rfl | ⟨1, _⟩ => rfl
theorem start0 (g : Fin 64) (m : Fin 512) (idx : IVec S512x2 32) : dd.start (ix2 g m) idx 0 = 0 := rfl
theorem start1 (g : Fin 64) (m : Fin 512) (idx : IVec S512x2 32) : dd.start (ix2 g m) idx 1 = (idx (ix2 m 0)).toInt := by
  have h : dd.start (ix2 g m) idx 1 = (idx (dd.siIdx (ix2 g m) ⟨0, by decide⟩)).toInt := rfl
  rw [h, siIdx0]
theorem start2 (g : Fin 64) (m : Fin 512) (idx : IVec S512x2 32) : dd.start (ix2 g m) idx 2 = (idx (ix2 m 1)).toInt := by
  have h : dd.start (ix2 g m) idx 2 = (idx (dd.siIdx (ix2 g m) ⟨1, by decide⟩)).toInt := rfl
  rw [h, siIdx1]

/-- The operand index an update index lands at, when the two scatter indices it reads are in range. -/
theorem resultIdx_eq (g : Fin 64) (m : Fin 512) (idx : IVec S512x2 32) (a b : Fin 512)
    (ha : (idx (ix2 m 0)).toInt = (a.val : Int)) (hb : (idx (ix2 m 1)).toInt = (b.val : Int)) :
    dd.resultIdx? (ix2 g m) idx = some (ix3 g a b) := by
  have e0 : dd.start (ix2 g m) idx 0 + (dd.window (ix2 g m) 0 : Int) = (g.val : Int) := by
    rw [start0, window0]; simp
  have e1 : dd.start (ix2 g m) idx 1 + (dd.window (ix2 g m) 1 : Int) = (a.val : Int) := by
    rw [start1, window1, ha]; simp
  have e2 : dd.start (ix2 g m) idx 2 + (dd.window (ix2 g m) 2 : Int) = (b.val : Int) := by
    rw [start2, window2, hb]; simp
  have h : ∀ c, 0 ≤ dd.start (ix2 g m) idx c + dd.window (ix2 g m) c ∧
      dd.start (ix2 g m) idx c + dd.window (ix2 g m) c < S64x512x512.size c := by
    intro c
    match c with
    | ⟨0, _⟩ =>
      show 0 ≤ dd.start (ix2 g m) idx 0 + (dd.window (ix2 g m) 0 : Int) ∧ dd.start (ix2 g m) idx 0 + (dd.window (ix2 g m) 0 : Int) < ((64 : Nat) : Int)
      rw [e0]; have := g.isLt; omega
    | ⟨1, _⟩ =>
      show 0 ≤ dd.start (ix2 g m) idx 1 + (dd.window (ix2 g m) 1 : Int) ∧ dd.start (ix2 g m) idx 1 + (dd.window (ix2 g m) 1 : Int) < ((512 : Nat) : Int)
      rw [e1]; have := a.isLt; omega
    | ⟨2, _⟩ =>
      show 0 ≤ dd.start (ix2 g m) idx 2 + (dd.window (ix2 g m) 2 : Int) ∧ dd.start (ix2 g m) idx 2 + (dd.window (ix2 g m) 2 : Int) < ((512 : Nat) : Int)
      rw [e2]; have := b.isLt; omega
  unfold ScatterDims.resultIdx?
  rw [dif_pos h]
  congr 1
  funext c
  match c with
  | ⟨0, _⟩ =>
    apply Fin.ext
    show (dd.start (ix2 g m) idx 0 + (dd.window (ix2 g m) 0 : Int)).toNat = g.val
    rw [e0]; simp
  | ⟨1, _⟩ =>
    apply Fin.ext
    show (dd.start (ix2 g m) idx 1 + (dd.window (ix2 g m) 1 : Int)).toNat = a.val
    rw [e1]; simp
  | ⟨2, _⟩ =>
    apply Fin.ext
    show (dd.start (ix2 g m) idx 2 + (dd.window (ix2 g m) 2 : Int)).toNat = b.val
    rw [e2]; simp

/-! ## The index column: `select(k < 0, k + 512, k)` at `k < 512` is `k` -/

theorem toInt_ofNat_small (k : Nat) (hk : k < 512) : (BitVec.ofNat 32 k).toInt = (k : Int) := by
  have h1 : (BitVec.ofNat 32 k).toNat = k := by
    rw [BitVec.toNat_ofNat]; exact Nat.mod_eq_of_lt (by omega)
  rw [BitVec.toInt_eq_toNat_of_lt (by rw [h1]; omega), h1]

theorem wrap_word (k : Nat) (hk : k < 512) :
    Scalar.select (IntOp.cmpi .slt (BitVec.ofNat 32 k) 0#32) (IntOp.addi (BitVec.ofNat 32 k) 512#32) (BitVec.ofNat 32 k)
      = BitVec.ofNat 32 k := by
  have hs : (BitVec.ofNat 32 k).slt 0#32 = false := by
    show decide ((BitVec.ofNat 32 k).toInt < (0#32 : BitVec 32).toInt) = false
    rw [toInt_ofNat_small k hk]
    simp
  have hc : IntOp.cmpi .slt (BitVec.ofNat 32 k) 0#32 = 0#1 := by
    show BitVec.ofBool ((BitVec.ofNat 32 k).slt 0#32) = 0#1
    rw [hs]; rfl
  rw [hc, select_zero]

/-! ## This scatter read at an index -/

/-- A scatter with these dimension numbers whose index rows are `(m, m)` and whose updates all equal `c`, its body
    returning the update: the result holds `c` on the diagonal of each matrix of the batch and the operand elsewhere. -/
theorem scatter_diag {α : Type} (x : S64x512x512.Idx → α) (idx : IVec S512x2 32) (upd : S64x512.Idx → α) (c : α)
    (h0 : ∀ m : Fin 512, (idx (ix2 m 0)).toInt = (m.val : Int)) (h1 : ∀ m : Fin 512, (idx (ix2 m 1)).toInt = (m.val : Int))
    (hu : ∀ j, upd j = c) (g : Fin 64) (i k : Fin 512) :
    Host.scatter dd (fun _ b => b) x idx upd (ix3 g i k) = if i = k then c else x (ix3 g i k) := by
  by_cases hik : i = k
  · rw [if_pos hik]
    apply scatter_hit
    · intro a j _; exact hu j
    · exact ⟨ix2 g i, by rw [← hik]; exact resultIdx_eq g i idx i i (h0 i) (h1 i)⟩
  · rw [if_neg hik]
    apply scatter_miss
    intro j hj
    obtain ⟨a, b, rfl⟩ : ∃ (a : Fin 64) (b : Fin 512), j = ix2 a b := ⟨j 0, j 1, eq_ix2 j⟩
    rw [resultIdx_eq a b idx b b (h0 b) (h1 b)] at hj
    have e := Option.some.inj hj
    have e1 : b = i := congrFun e 1
    have e2 : b = k := congrFun e 2
    exact hik (e1.symm.trans e2)

/-- The same with the index rows given as words: both columns hold the row number, every update is `c`. -/
theorem scatter_diag_ofNat {α : Type} (A : S64x512x512.Idx → α) (idx : IVec S512x2 32) (c : α)
    (h0 : ∀ m : Fin 512, idx (ix2 m 0) = BitVec.ofNat 32 m.val) (h1 : ∀ m : Fin 512, idx (ix2 m 1) = BitVec.ofNat 32 m.val)
    (g : Fin 64) (i k : Fin 512) :
    Host.scatter scatter_S64x512x512_S512x2_S64x512_0_12_12_1 (fun _ b => b) A idx (fun _ => c) (ix3 g i k)
      = if i = k then c else A (ix3 g i k) :=
  scatter_diag A idx (fun _ => c) c
    (fun m => by rw [h0 m]; exact toInt_ofNat_small m.val m.isLt)
    (fun m => by rw [h1 m]; exact toInt_ofNat_small m.val m.isLt)
    (fun _ => rfl) g i k

/-! ## Two columns joined along axis 1, read at an index -/

/-- The first column of two `[512, 1]` columns joined along axis 1 is the first piece. -/
theorem concat_col0 {α : Type} (x₁ x₂ : S512x1.Idx → α) (h : Shape.Concatenates [S512x1, S512x1] S512x2 1) (m : Fin 512) :
    concatenate S512x2 1 [⟨S512x1, x₁⟩, ⟨S512x1, x₂⟩] h (ix2 m 0) = x₁ (ix2 m 0) :=
  concatenate_pair_apply_left (t := S512x2) (s₁ := S512x1) (s₂ := S512x1) (1 : Fin 2) x₁ x₂ h (ix2 m (0 : Fin 2)) rfl
    (ix2 m (0 : Fin 1)) (fun b => match b with | ⟨0, _⟩ => rfl | ⟨1, _⟩ => rfl)

/-- The second column of two `[512, 1]` columns joined along axis 1 is the second piece. -/
theorem concat_col1 {α : Type} (x₁ x₂ : S512x1.Idx → α) (h : Shape.Concatenates [S512x1, S512x1] S512x2 1) (m : Fin 512) :
    concatenate S512x2 1 [⟨S512x1, x₁⟩, ⟨S512x1, x₂⟩] h (ix2 m 1) = x₂ (ix2 m 0) :=
  concatenate_pair_apply_right (t := S512x2) (s₁ := S512x1) (s₂ := S512x1) (1 : Fin 2) x₁ x₂ h (ix2 m (1 : Fin 2)) rfl rfl
    (ix2 m (0 : Fin 1)) (fun b => match b with | ⟨0, _⟩ => fun _ => rfl | ⟨1, _⟩ => fun h => absurd rfl h) rfl

/-! ## The written constant -/

/-- The f32 word `0x3F800000` is the extended real one. -/
theorem one_word : Ideal.ofBits .f32 0x3F800000#32 = (1 : EReal) := Ideal.ofBits_one_f32

end Cert.Gat.RefAdj
-- ==== Proof.RefAdj2.lean ====
/-
  The reference's diagonal write, stated over the reference's stages: the index array's two columns hold the row
  number, the written constant is one, so the scatter's result is the adjacency array with the diagonal of every
  matrix of the batch set to one. Stated twice: over the stage `val_main_v15`, and over the printed operations' term.
-/
import proofs.«111148_j14611478741207_2_alg».proof.Proof.RefAdj
import proofs.«111148_j14611478741207_2_alg».proof.Proof.ReadP

noncomputable section
namespace Cert.Gat.RefAdj
open Idealize.ShloMosaic Idealize.ShloMosaic.ValueIdx
open Cert.ReferenceIdeal

/-! ## The index array of the printed program -/

/-- The wrapped row number `select(iota < 0, iota + 512, iota)` over `[512]`. -/
abbrev wrapCol (hb : S_.BroadcastsInDim S512 (![] : Fin 0 → Fin S512.rank)) : S512.Idx → BitVec 32 :=
  select (cmpi .slt (iotaInDim S512 32 0) (broadcastInDim S512 ![] hb (constantI S_ 32 0#32)))
    (addi (iotaInDim S512 32 0) (broadcastInDim S512 ![] hb (constantI S_ 32 512#32))) (iotaInDim S512 32 0)

/-- The wrapped row number is the row number. -/
theorem wrapCol_apply (hb : S_.BroadcastsInDim S512 (![] : Fin 0 → Fin S512.rank)) (m : Fin 512) :
    wrapCol hb (ix1 m) = BitVec.ofNat 32 m.val := by
  show Scalar.select (IntOp.cmpi .slt (BitVec.ofNat 32 m.val) (broadcastInDim S512 ![] hb (constantI S_ 32 0#32) (ix1 m)))
    (IntOp.addi (BitVec.ofNat 32 m.val) (broadcastInDim S512 ![] hb (constantI S_ 32 512#32) (ix1 m))) (BitVec.ofNat 32 m.val) = _
  rw [broadcastInDim_scalar_apply, broadcastInDim_scalar_apply]
  exact wrap_word m.val m.isLt

/-- The index array: two copies of the wrapped row number as `[512, 1]` columns, joined along axis 1. -/
abbrev idxArr (hb : S_.BroadcastsInDim S512 (![] : Fin 0 → Fin S512.rank))
    (hc : S512.BroadcastsInDim S512x1 (![0] : Fin 1 → Fin S512x1.rank))
    (hj : Shape.Concatenates [S512x1, S512x1] S512x2 1) : IVec S512x2 32 :=
  concatenate S512x2 1 [⟨S512x1, broadcastInDim S512x1 ![0] hc (wrapCol hb)⟩, ⟨S512x1, broadcastInDim S512x1 ![0] hc (wrapCol hb)⟩] hj

theorem col_apply (hb : S_.BroadcastsInDim S512 (![] : Fin 0 → Fin S512.rank))
    (hc : S512.BroadcastsInDim S512x1 (![0] : Fin 1 → Fin S512x1.rank)) (m : Fin 512) :
    broadcastInDim S512x1 ![0] hc (wrapCol hb) (ix2 m 0) = BitVec.ofNat 32 m.val := by
  rw [broadcastInDim_apply _ hc (wrapCol hb) (ix2 m (0 : Fin 1)) (ix1 m) (fun a => match a with
    | ⟨0, _⟩ => by show m.val = if (512 : Nat) = 1 then 0 else m.val; rw [if_neg (by decide)])]
  exact wrapCol_apply hb m

/-- Both columns of the index array hold the row number. -/
theorem idxArr_col0 (hb) (hc) (hj) (m : Fin 512) : idxArr hb hc hj (ix2 m 0) = BitVec.ofNat 32 m.val := by
  exact (concat_col0 _ _ hj m).trans (col_apply hb hc m)
theorem idxArr_col1 (hb) (hc) (hj) (m : Fin 512) : idxArr hb hc hj (ix2 m 1) = BitVec.ofNat 32 m.val := by
  exact (concat_col1 _ _ hj m).trans (col_apply hb hc m)

/-- The printed program's first scatter, as a function of the adjacency array: the diagonal of every matrix of the
    batch set to one, the rest kept. -/
theorem adj_diag_term (hb : S_.BroadcastsInDim S512 (![] : Fin 0 → Fin S512.rank))
    (hc : S512.BroadcastsInDim S512x1 (![0] : Fin 1 → Fin S512x1.rank))
    (hj : Shape.Concatenates [S512x1, S512x1] S512x2 1)
    (hu : S_.BroadcastsInDim S64x512 (![] : Fin 0 → Fin S64x512.rank))
    (A : (⟨S64x512x512, .f32⟩ : BufTy).Contents (Elt Ideal)) (g : Fin 64) (i k : Fin 512) :
    Host.scatter scatter_S64x512x512_S512x2_S64x512_0_12_12_1 (fun _ b => b) A (idxArr hb hc hj)
        (broadcastInDim S64x512 ![] hu (constant (F := Ideal) S_ .f32 0x3F800000#32)) (ix3 g i k)
      = if i = k then (1 : EReal) else A (ix3 g i k) := by
  refine scatter_diag A (idxArr hb hc hj) _ (1 : EReal) ?_ ?_ ?_ g i k
  · intro m; rw [idxArr_col0]; exact toInt_ofNat_small m.val m.isLt
  · intro m; rw [idxArr_col1]; exact toInt_ofNat_small m.val m.isLt
  · intro j
    rw [broadcastInDim_scalar_apply]
    exact one_word

/-! ## The reference's diagonal write -/

/-- The index array's first column holds the row number. -/
theorem v13_col0 (m : Fin 512) : ReadP.val_main_v13 (F := Ideal) (ix2 m 0) = BitVec.ofNat 32 m.val := by
  unfold ReadP.val_main_v13
  rw [concatenate_pair_apply_left (t := S512x2) (s₁ := S512x1) (s₂ := S512x1) (1 : Fin 2) _ _ _ (ix2 m (0 : Fin 2)) rfl
    (ix2 m (0 : Fin 1)) (fun b => match b with | ⟨0, _⟩ => rfl | ⟨1, _⟩ => rfl)]
  rw [ReadP.val_main_v11_apply, ReadP.val_main_v5_apply, ReadP.val_main_v2_apply, ReadP.val_main_v4_apply,
    ReadP.val_main_v0_apply, ReadP.val_main_v1_apply, ReadP.val_main_c_apply, ReadP.val_main_v3_apply,
    ReadP.val_main_c_0_apply]
  exact wrap_word m.val m.isLt

/-- The index array's second column holds the row number. -/
theorem v13_col1 (m : Fin 512) : ReadP.val_main_v13 (F := Ideal) (ix2 m 1) = BitVec.ofNat 32 m.val := by
  unfold ReadP.val_main_v13
  rw [concatenate_pair_apply_right (t := S512x2) (s₁ := S512x1) (s₂ := S512x1) (1 : Fin 2) _ _ _ (ix2 m (1 : Fin 2)) rfl rfl
    (ix2 m (0 : Fin 1)) (fun b => match b with | ⟨0, _⟩ => fun _ => rfl | ⟨1, _⟩ => fun h => absurd rfl h) rfl]
  rw [ReadP.val_main_v12_apply, ReadP.val_main_v10_apply, ReadP.val_main_v7_apply, ReadP.val_main_v9_apply,
    ReadP.val_main_v0_apply, ReadP.val_main_v6_apply, ReadP.val_main_c_1_apply, ReadP.val_main_v8_apply,
    ReadP.val_main_c_2_apply]
  exact wrap_word m.val m.isLt

/-- The reference's first step: the diagonal of every matrix of the batch set to one, the rest kept. -/
theorem adj_diag (A : (⟨Cert.ReferenceIdeal.S64x512x512, .f32⟩ : BufTy).Contents (Elt Ideal)) (g : Fin 64) (i k : Fin 512) :
    Cert.ReferenceIdeal.ReadP.val_main_v15 (F := Ideal) A (ix3 g i k) = if i = k then (1 : EReal) else A (ix3 g i k) := by
  unfold ReadP.val_main_v15
  refine scatter_diag A (ReadP.val_main_v13 (F := Ideal)) (ReadP.val_main_v14 (F := Ideal)) (1 : EReal) ?_ ?_ ?_ g i k
  · intro m; rw [v13_col0]; exact toInt_ofNat_small m.val m.isLt
  · intro m; rw [v13_col1]; exact toInt_ofNat_small m.val m.isLt
  · intro j
    rw [ReadP.val_main_v14_apply, ReadP.val_main_cst_apply]
    exact one_word

end Cert.Gat.RefAdj
-- ==== Proof.RefRun.lean ====
/-
  The reference program's run, read back stage by stage. @main is a straight line of 240 host operations; a run from
  any memory ends with every buffer at the fold of the operations' results over the launch contents. The fold is read
  in seven pieces (a prefix, the four layers, the tail, the last concatenation): over ANY contents at which the buffers a piece reads hold the
  reference's stages of the arguments, the buffers it writes hold the next stages, and the buffers it does not write
  keep theirs. Chaining the pieces gives the two results as the stages `val_main_v199` / `val_main_v204` of the
  arguments' launch contents, without ever writing the composed term out as a tree.
-/
import proofs.«111148_j14611478741207_2_alg».proof.Proof.ReadP
import Idealize.ShloMosaic.Lib.StableHlo.Run

noncomputable section

namespace Cert.Gat.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations, in seven pieces -/

/-- Operations 0–30 of @main. -/
abbrev s0 : List (HloOp τ sig (Elt F)) :=
  [ nullary main_v0 (iotaInDim S512 32 0),
    nullary main_c (constantI S_ 32 0#32),
    unary main_c main_v1 (broadcastInDim S512 ![] bcast_S_S512 : (⟨S_, .i32⟩ : BufTy).Contents (Elt F) → (⟨S512, .i32⟩ : BufTy).Contents (Elt F)),
    binary main_v0 main_v1 main_v2 (cmpi .slt : (⟨S512, .i32⟩ : BufTy).Contents (Elt F) → (⟨S512, .i32⟩ : BufTy).Contents (Elt F) → (⟨S512, .i1⟩ : BufTy).Contents (Elt F)),
    nullary main_c_0 (constantI S_ 32 512#32),
    unary main_c_0 main_v3 (broadcastInDim S512 ![] bcast_S_S512 : (⟨S_, .i32⟩ : BufTy).Contents (Elt F) → (⟨S512, .i32⟩ : BufTy).Contents (Elt F)),
    binary main_v0 main_v3 main_v4 (addi : (⟨S512, .i32⟩ : BufTy).Contents (Elt F) → (⟨S512, .i32⟩ : BufTy).Contents (Elt F) → (⟨S512, .i32⟩ : BufTy).Contents (Elt F)),
    ternary main_v2 main_v4 main_v0 main_v5 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    nullary main_c_1 (constantI S_ 32 0#32),
    unary main_c_1 main_v6 (broadcastInDim S512 ![] bcast_S_S512 : (⟨S_, .i32⟩ : BufTy).Contents (Elt F) → (⟨S512, .i32⟩ : BufTy).Contents (Elt F)),
    binary main_v0 main_v6 main_v7 (cmpi .slt : (⟨S512, .i32⟩ : BufTy).Contents (Elt F) → (⟨S512, .i32⟩ : BufTy).Contents (Elt F) → (⟨S512, .i1⟩ : BufTy).Contents (Elt F)),
    nullary main_c_2 (constantI S_ 32 512#32),
    unary main_c_2 main_v8 (broadcastInDim S512 ![] bcast_S_S512 : (⟨S_, .i32⟩ : BufTy).Contents (Elt F) → (⟨S512, .i32⟩ : BufTy).Contents (Elt F)),
    binary main_v0 main_v8 main_v9 (addi : (⟨S512, .i32⟩ : BufTy).Contents (Elt F) → (⟨S512, .i32⟩ : BufTy).Contents (Elt F) → (⟨S512, .i32⟩ : BufTy).Contents (Elt F)),
    ternary main_v7 main_v9 main_v0 main_v10 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    unary main_v5 main_v11 (broadcastInDim S512x1 ![0] bcast_S512_S512x1_0 : (⟨S512, .i32⟩ : BufTy).Contents (Elt F) → (⟨S512x1, .i32⟩ : BufTy).Contents (Elt F)),
    unary main_v10 main_v12 (broadcastInDim S512x1 ![0] bcast_S512_S512x1_0 : (⟨S512, .i32⟩ : BufTy).Contents (Elt F) → (⟨S512x1, .i32⟩ : BufTy).Contents (Elt F)),
    binary main_v11 main_v12 main_v13 ((fun a b => concatenate S512x2 1 [⟨S512x1, a⟩, ⟨S512x1, b⟩] concatenates_S512x1_S512x1_S512x2_d1) : (⟨S512x1, .i32⟩ : BufTy).Contents (Elt F) → (⟨S512x1, .i32⟩ : BufTy).Contents (Elt F) → (⟨S512x2, .i32⟩ : BufTy).Contents (Elt F)),
    nullary main_cst (constant S_ .f32 0x3F800000#32),
    unary main_cst main_v14 (broadcastInDim S64x512 ![] bcast_S_S64x512 : (⟨S_, .f32⟩ : BufTy).Contents (Elt F) → (⟨S64x512, .f32⟩ : BufTy).Contents (Elt F)),
    ternary main_arg1 main_v13 main_v14 main_v15 ((fun x i u => Host.scatter scatter_S64x512x512_S512x2_S64x512_0_12_12_1 (fun _ b => b) x i u) : (⟨S64x512x512, .f32⟩ : BufTy).Contents (Elt F) → (⟨S512x2, .i32⟩ : BufTy).Contents (Elt F) → (⟨S64x512, .f32⟩ : BufTy).Contents (Elt F) → (⟨S64x512x512, .f32⟩ : BufTy).Contents (Elt F)),
    nullary main_v16 (iotaInDim S512x512 32 0),
    nullary main_v17 (iotaInDim S512x512 32 1),
    nullary main_c_3 (constantI S_ 32 0#32),
    unary main_c_3 main_v18 (broadcastInDim S512x512 ![] bcast_S_S512x512 : (⟨S_, .i32⟩ : BufTy).Contents (Elt F) → (⟨S512x512, .i32⟩ : BufTy).Contents (Elt F)),
    binary main_v16 main_v18 main_v19 (addi : (⟨S512x512, .i32⟩ : BufTy).Contents (Elt F) → (⟨S512x512, .i32⟩ : BufTy).Contents (Elt F) → (⟨S512x512, .i32⟩ : BufTy).Contents (Elt F)),
    binary main_v19 main_v17 main_v20 (cmpi .eq : (⟨S512x512, .i32⟩ : BufTy).Contents (Elt F) → (⟨S512x512, .i32⟩ : BufTy).Contents (Elt F) → (⟨S512x512, .i1⟩ : BufTy).Contents (Elt F)),
    unary main_v20 main_v21 (uitofp .f32 : (⟨S512x512, .i1⟩ : BufTy).Contents (Elt F) → (⟨S512x512, .f32⟩ : BufTy).Contents (Elt F)),
    nullary main_cst_4 (constant S_ .f32 0x3727C5AC#32),
    unary main_cst_4 main_v22 (broadcastInDim S512x512 ![] bcast_S_S512x512 : (⟨S_, .f32⟩ : BufTy).Contents (Elt F) → (⟨S512x512, .f32⟩ : BufTy).Contents (Elt F)),
    binary main_v22 main_v21 main_v23 (mulf : (⟨S512x512, .f32⟩ : BufTy).Contents (Elt F) → (⟨S512x512, .f32⟩ : BufTy).Contents (Elt F) → (⟨S512x512, .f32⟩ : BufTy).Contents (Elt F)) ]

/-- Operations 31–80 of @main. -/
abbrev s1 : List (HloOp τ sig (Elt F)) :=
  [ unary main_arg2 main_v24 ((extractStridedSlice S1x256x256 ![0, 0, 0] · slices_S4x256x256_S1x256x256_0_0_0) : (⟨S4x256x256, .f32⟩ : BufTy).Contents (Elt F) → (⟨S1x256x256, .f32⟩ : BufTy).Contents (Elt F)),
    reshape main_v24 main_v25 rfl shapeCasts_S1x256x256_S256x256,
    binary main_arg0 main_v25 main_v26 ((fun l r => Host.dotGeneral dot_S64x512x256_S256x256_S64x512x256_2_1_01_0_n_n none l r) : (⟨S64x512x256, .f32⟩ : BufTy).Contents (Elt F) → (⟨S256x256, .f32⟩ : BufTy).Contents (Elt F) → (⟨S64x512x256, .f32⟩ : BufTy).Contents (Elt F)),
    unary main_arg3 main_v27 ((extractStridedSlice S1x256 ![0, 0] · slices_S4x256_S1x256_0_0) : (⟨S4x256, .f32⟩ : BufTy).Contents (Elt F) → (⟨S1x256, .f32⟩ : BufTy).Contents (Elt F)),
    reshape main_v27 main_v28 rfl shapeCasts_S1x256_S256,
    unary main_v28 main_v29 (broadcastInDim S1x1x256 ![2] bcast_S256_S1x1x256_2 : (⟨S256, .f32⟩ : BufTy).Contents (Elt F) → (⟨S1x1x256, .f32⟩ : BufTy).Contents (Elt F)),
    unary main_v29 main_v30 (broadcastInDim S64x512x256 ![0, 1, 2] bcast_S1x1x256_S64x512x256_0_1_2 : (⟨S1x1x256, .f32⟩ : BufTy).Contents (Elt F) → (⟨S64x512x256, .f32⟩ : BufTy).Contents (Elt F)),
    binary main_v26 main_v30 main_v31 (addf : (⟨S64x512x256, .f32⟩ : BufTy).Contents (Elt F) → (⟨S64x512x256, .f32⟩ : BufTy).Contents (Elt F) → (⟨S64x512x256, .f32⟩ : BufTy).Contents (Elt F)),
    binary main_v31 main_arg0 main_v32 ((fun l r => Host.dotGeneral dot_S64x512x256_S64x512x256_S64x512x512_2_2_1_1_0_0 none l r) : (⟨S64x512x256, .f32⟩ : BufTy).Contents (Elt F) → (⟨S64x512x256, .f32⟩ : BufTy).Contents (Elt F) → (⟨S64x512x512, .f32⟩ : BufTy).Contents (Elt F)),
    unary main_v32 main_v33 (Host.negf : (⟨S64x512x512, .f32⟩ : BufTy).Contents (Elt F) → (⟨S64x512x512, .f32⟩ : BufTy).Contents (Elt F)),
    unary main_v33 main_v34 (Host.exp : (⟨S64x512x512, .f32⟩ : BufTy).Contents (Elt F) → (⟨S64x512x512, .f32⟩ : BufTy).Contents (Elt F)),
    nullary main_cst_5 (constant S_ .f32 0x3F800000#32),
    unary main_cst_5 main_v35 (broadcastInDim S64x512x512 ![] bcast_S_S64x512x512 : (⟨S_, .f32⟩ : BufTy).Contents (Elt F) → (⟨S64x512x512, .f32⟩ : BufTy).Contents (Elt F)),
    binary main_v35 main_v34 main_v36 (addf : (⟨S64x512x512, .f32⟩ : BufTy).Contents (Elt F) → (⟨S64x512x512, .f32⟩ : BufTy).Contents (Elt F) → (⟨S64x512x512, .f32⟩ : BufTy).Contents (Elt F)),
    nullary main_cst_6 (constant S_ .f32 0x3F800000#32),
    unary main_cst_6 main_v37 (broadcastInDim S64x512x512 ![] bcast_S_S64x512x512 : (⟨S_, .f32⟩ : BufTy).Contents (Elt F) → (⟨S64x512x512, .f32⟩ : BufTy).Contents (Elt F)),
    binary main_v37 main_v36 main_v38 (Host.divf : (⟨S64x512x512, .f32⟩ : BufTy).Contents (Elt F) → (⟨S64x512x512, .f32⟩ : BufTy).Contents (Elt F) → (⟨S64x512x512, .f32⟩ : BufTy).Contents (Elt F)),
    unary main_v23 main_v39 (broadcastInDim S1x512x512 ![1, 2] bcast_S512x512_S1x512x512_1_2 : (⟨S512x512, .f32⟩ : BufTy).Contents (Elt F) → (⟨S1x512x512, .f32⟩ : BufTy).Contents (Elt F)),
    unary main_v39 main_v40 (broadcastInDim S64x512x512 ![0, 1, 2] bcast_S1x512x512_S64x512x512_0_1_2 : (⟨S1x512x512, .f32⟩ : BufTy).Contents (Elt F) → (⟨S64x512x512, .f32⟩ : BufTy).Contents (Elt F)),
    binary main_v38 main_v40 main_v41 (addf : (⟨S64x512x512, .f32⟩ : BufTy).Contents (Elt F) → (⟨S64x512x512, .f32⟩ : BufTy).Contents (Elt F) → (⟨S64x512x512, .f32⟩ : BufTy).Contents (Elt F)),
    binary main_v41 main_v15 main_v42 (mulf : (⟨S64x512x512, .f32⟩ : BufTy).Contents (Elt F) → (⟨S64x512x512, .f32⟩ : BufTy).Contents (Elt F) → (⟨S64x512x512, .f32⟩ : BufTy).Contents (Elt F)),
    nullary main_cst_7 (constant S_ .f32 0x00000000#32),
    binary main_v42 main_cst_7 main_v43 ((fun x v => Host.reduceAdd x v reducesTo_S64x512x512_S64x512_d2 h_S_) : (⟨S64x512x512, .f32⟩ : BufTy).Contents (Elt F) → (⟨S_, .f32⟩ : BufTy).Contents (Elt F) → (⟨S64x512, .f32⟩ : BufTy).Contents (Elt F)),
    unary main_v43 main_v44 (broadcastInDim S64x512x1 ![0, 1] bcast_S64x512_S64x512x1_0_1 : (⟨S64x512, .f32⟩ : BufTy).Contents (Elt F) → (⟨S64x512x1, .f32⟩ : BufTy).Contents (Elt F)),
    unary main_v44 main_v45 (broadcastInDim S64x512x512 ![0, 1, 2] bcast_S64x512x1_S64x512x512_0_1_2 : (⟨S64x512x1, .f32⟩ : BufTy).Contents (Elt F) → (⟨S64x512x512, .f32⟩ : BufTy).Contents (Elt F)),
    binary main_v42 main_v45 main_v46 (Host.divf : (⟨S64x512x512, .f32⟩ : BufTy).Contents (Elt F) → (⟨S64x512x512, .f32⟩ : BufTy).Contents (Elt F) → (⟨S64x512x512, .f32⟩ : BufTy).Contents (Elt F)),
    binary main_v46 main_arg0 main_v47 ((fun l r => Host.dotGeneral dot_S64x512x512_S64x512x256_S64x512x256_2_1_1_2_0_0 none l r) : (⟨S64x512x512, .f32⟩ : BufTy).Contents (Elt F) → (⟨S64x512x256, .f32⟩ : BufTy).Contents (Elt F) → (⟨S64x512x256, .f32⟩ : BufTy).Contents (Elt F)),
    unary main_arg4 main_v48 ((extractStridedSlice S1x256x256 ![0, 0, 0] · slices_S4x256x256_S1x256x256_0_0_0) : (⟨S4x256x256, .f32⟩ : BufTy).Contents (Elt F) → (⟨S1x256x256, .f32⟩ : BufTy).Contents (Elt F)),
    reshape main_v48 main_v49 rfl shapeCasts_S1x256x256_S256x256,
    binary main_v47 main_v49 main_v50 ((fun l r => Host.dotGeneral dot_S64x512x256_S256x256_S64x512x256_2_1_01_0_n_n none l r) : (⟨S64x512x256, .f32⟩ : BufTy).Contents (Elt F) → (⟨S256x256, .f32⟩ : BufTy).Contents (Elt F) → (⟨S64x512x256, .f32⟩ : BufTy).Contents (Elt F)),
    unary main_arg5 main_v51 ((extractStridedSlice S1x256 ![0, 0] · slices_S4x256_S1x256_0_0) : (⟨S4x256, .f32⟩ : BufTy).Contents (Elt F) → (⟨S1x256, .f32⟩ : BufTy).Contents (Elt F)),
    reshape main_v51 main_v52 rfl shapeCasts_S1x256_S256,
    unary main_v52 main_v53 (broadcastInDim S1x1x256 ![2] bcast_S256_S1x1x256_2 : (⟨S256, .f32⟩ : BufTy).Contents (Elt F) → (⟨S1x1x256, .f32⟩ : BufTy).Contents (Elt F)),
    unary main_v53 main_v54 (broadcastInDim S64x512x256 ![0, 1, 2] bcast_S1x1x256_S64x512x256_0_1_2 : (⟨S1x1x256, .f32⟩ : BufTy).Contents (Elt F) → (⟨S64x512x256, .f32⟩ : BufTy).Contents (Elt F)),
    binary main_v50 main_v54 main_v55 (addf : (⟨S64x512x256, .f32⟩ : BufTy).Contents (Elt F) → (⟨S64x512x256, .f32⟩ : BufTy).Contents (Elt F) → (⟨S64x512x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S64x512x256, .f32⟩) main_call0_v0) (broadcastInDim S64x512x256 ![] bcast_S_S64x512x256),
    TRef.binary (TRef.of (T := ⟨S64x512x256, .f32⟩) main_v55) (TRef.of (T := ⟨S64x512x256, .f32⟩) main_call0_v0) (TRef.of (T := ⟨S64x512x256, .f32⟩) main_v56) maximumf,
    unary main_arg6 main_v57 ((extractStridedSlice S1x256x256 ![0, 0, 0] · slices_S4x256x256_S1x256x256_0_0_0) : (⟨S4x256x256, .f32⟩ : BufTy).Contents (Elt F) → (⟨S1x256x256, .f32⟩ : BufTy).Contents (Elt F)),
    reshape main_v57 main_v58 rfl shapeCasts_S1x256x256_S256x256,
    binary main_v56 main_v58 main_v59 ((fun l r => Host.dotGeneral dot_S64x512x256_S256x256_S64x512x256_2_1_01_0_n_n none l r) : (⟨S64x512x256, .f32⟩ : BufTy).Contents (Elt F) → (⟨S256x256, .f32⟩ : BufTy).Contents (Elt F) → (⟨S64x512x256, .f32⟩ : BufTy).Contents (Elt F)),
    unary main_arg7 main_v60 ((extractStridedSlice S1x256 ![0, 0] · slices_S4x256_S1x256_0_0) : (⟨S4x256, .f32⟩ : BufTy).Contents (Elt F) → (⟨S1x256, .f32⟩ : BufTy).Contents (Elt F)),
    reshape main_v60 main_v61 rfl shapeCasts_S1x256_S256,
    unary main_v61 main_v62 (broadcastInDim S1x1x256 ![2] bcast_S256_S1x1x256_2 : (⟨S256, .f32⟩ : BufTy).Contents (Elt F) → (⟨S1x1x256, .f32⟩ : BufTy).Contents (Elt F)),
    unary main_v62 main_v63 (broadcastInDim S64x512x256 ![0, 1, 2] bcast_S1x1x256_S64x512x256_0_1_2 : (⟨S1x1x256, .f32⟩ : BufTy).Contents (Elt F) → (⟨S64x512x256, .f32⟩ : BufTy).Contents (Elt F)),
    binary main_v59 main_v63 main_v64 (addf : (⟨S64x512x256, .f32⟩ : BufTy).Contents (Elt F) → (⟨S64x512x256, .f32⟩ : BufTy).Contents (Elt F) → (⟨S64x512x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S64x512x256, .f32⟩) main_call1_v0) (broadcastInDim S64x512x256 ![] bcast_S_S64x512x256),
    TRef.binary (TRef.of (T := ⟨S64x512x256, .f32⟩) main_v64) (TRef.of (T := ⟨S64x512x256, .f32⟩) main_call1_v0) (TRef.of (T := ⟨S64x512x256, .f32⟩) main_v65) maximumf,
    binary main_v65 main_arg0 main_v66 (addf : (⟨S64x512x256, .f32⟩ : BufTy).Contents (Elt F) → (⟨S64x512x256, .f32⟩ : BufTy).Contents (Elt F) → (⟨S64x512x256, .f32⟩ : BufTy).Contents (Elt F)) ]

/-- Operations 81–130 of @main. -/
abbrev s2 : List (HloOp τ sig (Elt F)) :=
  [ unary main_arg2 main_v67 ((extractStridedSlice S1x256x256 ![1, 0, 0] · slices_S4x256x256_S1x256x256_1_0_0) : (⟨S4x256x256, .f32⟩ : BufTy).Contents (Elt F) → (⟨S1x256x256, .f32⟩ : BufTy).Contents (Elt F)),
    reshape main_v67 main_v68 rfl shapeCasts_S1x256x256_S256x256,
    binary main_v66 main_v68 main_v69 ((fun l r => Host.dotGeneral dot_S64x512x256_S256x256_S64x512x256_2_1_01_0_n_n none l r) : (⟨S64x512x256, .f32⟩ : BufTy).Contents (Elt F) → (⟨S256x256, .f32⟩ : BufTy).Contents (Elt F) → (⟨S64x512x256, .f32⟩ : BufTy).Contents (Elt F)),
    unary main_arg3 main_v70 ((extractStridedSlice S1x256 ![1, 0] · slices_S4x256_S1x256_1_0) : (⟨S4x256, .f32⟩ : BufTy).Contents (Elt F) → (⟨S1x256, .f32⟩ : BufTy).Contents (Elt F)),
    reshape main_v70 main_v71 rfl shapeCasts_S1x256_S256,
    unary main_v71 main_v72 (broadcastInDim S1x1x256 ![2] bcast_S256_S1x1x256_2 : (⟨S256, .f32⟩ : BufTy).Contents (Elt F) → (⟨S1x1x256, .f32⟩ : BufTy).Contents (Elt F)),
    unary main_v72 main_v73 (broadcastInDim S64x512x256 ![0, 1, 2] bcast_S1x1x256_S64x512x256_0_1_2 : (⟨S1x1x256, .f32⟩ : BufTy).Contents (Elt F) → (⟨S64x512x256, .f32⟩ : BufTy).Contents (Elt F)),
    binary main_v69 main_v73 main_v74 (addf : (⟨S64x512x256, .f32⟩ : BufTy).Contents (Elt F) → (⟨S64x512x256, .f32⟩ : BufTy).Contents (Elt F) → (⟨S64x512x256, .f32⟩ : BufTy).Contents (Elt F)),
    binary main_v74 main_v66 main_v75 ((fun l r => Host.dotGeneral dot_S64x512x256_S64x512x256_S64x512x512_2_2_1_1_0_0 none l r) : (⟨S64x512x256, .f32⟩ : BufTy).Contents (Elt F) → (⟨S64x512x256, .f32⟩ : BufTy).Contents (Elt F) → (⟨S64x512x512, .f32⟩ : BufTy).Contents (Elt F)),
    unary main_v75 main_v76 (Host.negf : (⟨S64x512x512, .f32⟩ : BufTy).Contents (Elt F) → (⟨S64x512x512, .f32⟩ : BufTy).Contents (Elt F)),
    unary main_v76 main_v77 (Host.exp : (⟨S64x512x512, .f32⟩ : BufTy).Contents (Elt F) → (⟨S64x512x512, .f32⟩ : BufTy).Contents (Elt F)),
    nullary main_cst_8 (constant S_ .f32 0x3F800000#32),
    unary main_cst_8 main_v78 (broadcastInDim S64x512x512 ![] bcast_S_S64x512x512 : (⟨S_, .f32⟩ : BufTy).Contents (Elt F) → (⟨S64x512x512, .f32⟩ : BufTy).Contents (Elt F)),
    binary main_v78 main_v77 main_v79 (addf : (⟨S64x512x512, .f32⟩ : BufTy).Contents (Elt F) → (⟨S64x512x512, .f32⟩ : BufTy).Contents (Elt F) → (⟨S64x512x512, .f32⟩ : BufTy).Contents (Elt F)),
    nullary main_cst_9 (constant S_ .f32 0x3F800000#32),
    unary main_cst_9 main_v80 (broadcastInDim S64x512x512 ![] bcast_S_S64x512x512 : (⟨S_, .f32⟩ : BufTy).Contents (Elt F) → (⟨S64x512x512, .f32⟩ : BufTy).Contents (Elt F)),
    binary main_v80 main_v79 main_v81 (Host.divf : (⟨S64x512x512, .f32⟩ : BufTy).Contents (Elt F) → (⟨S64x512x512, .f32⟩ : BufTy).Contents (Elt F) → (⟨S64x512x512, .f32⟩ : BufTy).Contents (Elt F)),
    unary main_v23 main_v82 (broadcastInDim S1x512x512 ![1, 2] bcast_S512x512_S1x512x512_1_2 : (⟨S512x512, .f32⟩ : BufTy).Contents (Elt F) → (⟨S1x512x512, .f32⟩ : BufTy).Contents (Elt F)),
    unary main_v82 main_v83 (broadcastInDim S64x512x512 ![0, 1, 2] bcast_S1x512x512_S64x512x512_0_1_2 : (⟨S1x512x512, .f32⟩ : BufTy).Contents (Elt F) → (⟨S64x512x512, .f32⟩ : BufTy).Contents (Elt F)),
    binary main_v81 main_v83 main_v84 (addf : (⟨S64x512x512, .f32⟩ : BufTy).Contents (Elt F) → (⟨S64x512x512, .f32⟩ : BufTy).Contents (Elt F) → (⟨S64x512x512, .f32⟩ : BufTy).Contents (Elt F)),
    binary main_v84 main_v15 main_v85 (mulf : (⟨S64x512x512, .f32⟩ : BufTy).Contents (Elt F) → (⟨S64x512x512, .f32⟩ : BufTy).Contents (Elt F) → (⟨S64x512x512, .f32⟩ : BufTy).Contents (Elt F)),
    nullary main_cst_10 (constant S_ .f32 0x00000000#32),
    binary main_v85 main_cst_10 main_v86 ((fun x v => Host.reduceAdd x v reducesTo_S64x512x512_S64x512_d2 h_S_) : (⟨S64x512x512, .f32⟩ : BufTy).Contents (Elt F) → (⟨S_, .f32⟩ : BufTy).Contents (Elt F) → (⟨S64x512, .f32⟩ : BufTy).Contents (Elt F)),
    unary main_v86 main_v87 (broadcastInDim S64x512x1 ![0, 1] bcast_S64x512_S64x512x1_0_1 : (⟨S64x512, .f32⟩ : BufTy).Contents (Elt F) → (⟨S64x512x1, .f32⟩ : BufTy).Contents (Elt F)),
    unary main_v87 main_v88 (broadcastInDim S64x512x512 ![0, 1, 2] bcast_S64x512x1_S64x512x512_0_1_2 : (⟨S64x512x1, .f32⟩ : BufTy).Contents (Elt F) → (⟨S64x512x512, .f32⟩ : BufTy).Contents (Elt F)),
    binary main_v85 main_v88 main_v89 (Host.divf : (⟨S64x512x512, .f32⟩ : BufTy).Contents (Elt F) → (⟨S64x512x512, .f32⟩ : BufTy).Contents (Elt F) → (⟨S64x512x512, .f32⟩ : BufTy).Contents (Elt F)),
    binary main_v89 main_v66 main_v90 ((fun l r => Host.dotGeneral dot_S64x512x512_S64x512x256_S64x512x256_2_1_1_2_0_0 none l r) : (⟨S64x512x512, .f32⟩ : BufTy).Contents (Elt F) → (⟨S64x512x256, .f32⟩ : BufTy).Contents (Elt F) → (⟨S64x512x256, .f32⟩ : BufTy).Contents (Elt F)),
    unary main_arg4 main_v91 ((extractStridedSlice S1x256x256 ![1, 0, 0] · slices_S4x256x256_S1x256x256_1_0_0) : (⟨S4x256x256, .f32⟩ : BufTy).Contents (Elt F) → (⟨S1x256x256, .f32⟩ : BufTy).Contents (Elt F)),
    reshape main_v91 main_v92 rfl shapeCasts_S1x256x256_S256x256,
    binary main_v90 main_v92 main_v93 ((fun l r => Host.dotGeneral dot_S64x512x256_S256x256_S64x512x256_2_1_01_0_n_n none l r) : (⟨S64x512x256, .f32⟩ : BufTy).Contents (Elt F) → (⟨S256x256, .f32⟩ : BufTy).Contents (Elt F) → (⟨S64x512x256, .f32⟩ : BufTy).Contents (Elt F)),
    unary main_arg5 main_v94 ((extractStridedSlice S1x256 ![1, 0] · slices_S4x256_S1x256_1_0) : (⟨S4x256, .f32⟩ : BufTy).Contents (Elt F) → (⟨S1x256, .f32⟩ : BufTy).Contents (Elt F)),
    reshape main_v94 main_v95 rfl shapeCasts_S1x256_S256,
    unary main_v95 main_v96 (broadcastInDim S1x1x256 ![2] bcast_S256_S1x1x256_2 : (⟨S256, .f32⟩ : BufTy).Contents (Elt F) → (⟨S1x1x256, .f32⟩ : BufTy).Contents (Elt F)),
    unary main_v96 main_v97 (broadcastInDim S64x512x256 ![0, 1, 2] bcast_S1x1x256_S64x512x256_0_1_2 : (⟨S1x1x256, .f32⟩ : BufTy).Contents (Elt F) → (⟨S64x512x256, .f32⟩ : BufTy).Contents (Elt F)),
    binary main_v93 main_v97 main_v98 (addf : (⟨S64x512x256, .f32⟩ : BufTy).Contents (Elt F) → (⟨S64x512x256, .f32⟩ : BufTy).Contents (Elt F) → (⟨S64x512x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S64x512x256, .f32⟩) main_call2_v0) (broadcastInDim S64x512x256 ![] bcast_S_S64x512x256),
    TRef.binary (TRef.of (T := ⟨S64x512x256, .f32⟩) main_v98) (TRef.of (T := ⟨S64x512x256, .f32⟩) main_call2_v0) (TRef.of (T := ⟨S64x512x256, .f32⟩) main_v99) maximumf,
    unary main_arg6 main_v100 ((extractStridedSlice S1x256x256 ![1, 0, 0] · slices_S4x256x256_S1x256x256_1_0_0) : (⟨S4x256x256, .f32⟩ : BufTy).Contents (Elt F) → (⟨S1x256x256, .f32⟩ : BufTy).Contents (Elt F)),
    reshape main_v100 main_v101 rfl shapeCasts_S1x256x256_S256x256,
    binary main_v99 main_v101 main_v102 ((fun l r => Host.dotGeneral dot_S64x512x256_S256x256_S64x512x256_2_1_01_0_n_n none l r) : (⟨S64x512x256, .f32⟩ : BufTy).Contents (Elt F) → (⟨S256x256, .f32⟩ : BufTy).Contents (Elt F) → (⟨S64x512x256, .f32⟩ : BufTy).Contents (Elt F)),
    unary main_arg7 main_v103 ((extractStridedSlice S1x256 ![1, 0] · slices_S4x256_S1x256_1_0) : (⟨S4x256, .f32⟩ : BufTy).Contents (Elt F) → (⟨S1x256, .f32⟩ : BufTy).Contents (Elt F)),
    reshape main_v103 main_v104 rfl shapeCasts_S1x256_S256,
    unary main_v104 main_v105 (broadcastInDim S1x1x256 ![2] bcast_S256_S1x1x256_2 : (⟨S256, .f32⟩ : BufTy).Contents (Elt F) → (⟨S1x1x256, .f32⟩ : BufTy).Contents (Elt F)),
    unary main_v105 main_v106 (broadcastInDim S64x512x256 ![0, 1, 2] bcast_S1x1x256_S64x512x256_0_1_2 : (⟨S1x1x256, .f32⟩ : BufTy).Contents (Elt F) → (⟨S64x512x256, .f32⟩ : BufTy).Contents (Elt F)),
    binary main_v102 main_v106 main_v107 (addf : (⟨S64x512x256, .f32⟩ : BufTy).Contents (Elt F) → (⟨S64x512x256, .f32⟩ : BufTy).Contents (Elt F) → (⟨S64x512x256, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S64x512x256, .f32⟩) main_call3_v0) (broadcastInDim S64x512x256 ![] bcast_S_S64x512x256),
    TRef.binary (TRef.of (T := ⟨S64x512x256, .f32⟩) main_v107) (TRef.of (T := ⟨S64x512x256, .f32⟩) main_call3_v0) (TRef.of (T := ⟨S64x512x256, .f32⟩) main_v108) maximumf,
    binary main_v108 main_v66 main_v109 (addf : (⟨S64x512x256, .f32⟩ : BufTy).Contents (Elt F) → (⟨S64x512x256, .f32⟩ : BufTy).Contents (Elt F) → (⟨S64x512x256, .f32⟩ : BufTy).Contents (Elt F)) ]

/-- Operations 131–180 of @main. -/
abbrev s3 : List (HloOp τ sig (Elt F)) :=
  [ unary main_arg2 main_v110 ((extractStridedSlice S1x256x256 ![2, 0, 0] · slices_S4x256x256_S1x256x256_2_0_0) : (⟨S4x256x256, .f32⟩ : BufTy).Contents (Elt F) → (⟨S1x256x256, .f32⟩ : BufTy).Contents (Elt F)),
    reshape main_v110 main_v111 rfl shapeCasts_S1x256x256_S256x256,
    binary main_v109 main_v111 main_v112 ((fun l r => Host.dotGeneral dot_S64x512x256_S256x256_S64x512x256_2_1_01_0_n_n none l r) : (⟨S64x512x256, .f32⟩ : BufTy).Contents (Elt F) → (⟨S256x256, .f32⟩ : BufTy).Contents (Elt F) → (⟨S64x512x256, .f32⟩ : BufTy).Contents (Elt F)),
    unary main_arg3 main_v113 ((extractStridedSlice S1x256 ![2, 0] · slices_S4x256_S1x256_2_0) : (⟨S4x256, .f32⟩ : BufTy).Contents (Elt F) → (⟨S1x256, .f32⟩ : BufTy).Contents (Elt F)),
    reshape main_v113 main_v114 rfl shapeCasts_S1x256_S256,
    unary main_v114 main_v115 (broadcastInDim S1x1x256 ![2] bcast_S256_S1x1x256_2 : (⟨S256, .f32⟩ : BufTy).Contents (Elt F) → (⟨S1x1x256, .f32⟩ : BufTy).Contents (Elt F)),
    unary main_v115 main_v116 (broadcastInDim S64x512x256 ![0, 1, 2] bcast_S1x1x256_S64x512x256_0_1_2 : (⟨S1x1x256, .f32⟩ : BufTy).Contents (Elt F) → (⟨S64x512x256, .f32⟩ : BufTy).Contents (Elt F)),
    binary main_v112 main_v116 main_v117 (addf : (⟨S64x512x256, .f32⟩ : BufTy).Contents (Elt F) → (⟨S64x512x256, .f32⟩ : BufTy).Contents (Elt F) → (⟨S64x512x256, .f32⟩ : BufTy).Contents (Elt F)),
    binary main_v117 main_v109 main_v118 ((fun l r => Host.dotGeneral dot_S64x512x256_S64x512x256_S64x512x512_2_2_1_1_0_0 none l r) : (⟨S64x512x256, .f32⟩ : BufTy).Contents (Elt F) → (⟨S64x512x256, .f32⟩ : BufTy).Contents (Elt F) → (⟨S64x512x512, .f32⟩ : BufTy).Contents (Elt F)),
    unary main_v118 main_v119 (Host.negf : (⟨S64x512x512, .f32⟩ : BufTy).Contents (Elt F) → (⟨S64x512x512, .f32⟩ : BufTy).Contents (Elt F)),
    unary main_v119 main_v120 (Host.exp : (⟨S64x512x512, .f32⟩ : BufTy).Contents (Elt F) → (⟨S64x512x512, .f32⟩ : BufTy).Contents (Elt F)),
    nullary main_cst_11 (constant S_ .f32 0x3F800000#32),
    unary main_cst_11 main_v121 (broadcastInDim S64x512x512 ![] bcast_S_S64x512x512 : (⟨S_, .f32⟩ : BufTy).Contents (Elt F) → (⟨S64x512x512, .f32⟩ : BufTy).Contents (Elt F)),
    binary main_v121 main_v120 main_v122 (addf : (⟨S64x512x512, .f32⟩ : BufTy).Contents (Elt F) → (⟨S64x512x512, .f32⟩ : BufTy).Contents (Elt F) → (⟨S64x512x512, .f32⟩ : BufTy).Contents (Elt F)),
    nullary main_cst_12 (constant S_ .f32 0x3F800000#32),
    unary main_cst_12 main_v123 (broadcastInDim S64x512x512 ![] bcast_S_S64x512x512 : (⟨S_, .f32⟩ : BufTy).Contents (Elt F) → (⟨S64x512x512, .f32⟩ : BufTy).Contents (Elt F)),
    binary main_v123 main_v122 main_v124 (Host.divf : (⟨S64x512x512, .f32⟩ : BufTy).Contents (Elt F) → (⟨S64x512x512, .f32⟩ : BufTy).Contents (Elt F) → (⟨S64x512x512, .f32⟩ : BufTy).Contents (Elt F)),
    unary main_v23 main_v125 (broadcastInDim S1x512x512 ![1, 2] bcast_S512x512_S1x512x512_1_2 : (⟨S512x512, .f32⟩ : BufTy).Contents (Elt F) → (⟨S1x512x512, .f32⟩ : BufTy).Contents (Elt F)),
    unary main_v125 main_v126 (broadcastInDim S64x512x512 ![0, 1, 2] bcast_S1x512x512_S64x512x512_0_1_2 : (⟨S1x512x512, .f32⟩ : BufTy).Contents (Elt F) → (⟨S64x512x512, .f32⟩ : BufTy).Contents (Elt F)),
    binary main_v124 main_v126 main_v127 (addf : (⟨S64x512x512, .f32⟩ : BufTy).Contents (Elt F) → (⟨S64x512x512, .f32⟩ : BufTy).Contents (Elt F) → (⟨S64x512x512, .f32⟩ : BufTy).Contents (Elt F)),
    binary main_v127 main_v15 main_v128 (mulf : (⟨S64x512x512, .f32⟩ : BufTy).Contents (Elt F) → (⟨S64x512x512, .f32⟩ : BufTy).Contents (Elt F) → (⟨S64x512x512, .f32⟩ : BufTy).Contents (Elt F)),
    nullary main_cst_13 (constant S_ .f32 0x00000000#32),
    binary main_v128 main_cst_13 main_v129 ((fun x v => Host.reduceAdd x v reducesTo_S64x512x512_S64x512_d2 h_S_) : (⟨S64x512x512, .f32⟩ : BufTy).Contents (Elt F) → (⟨S_, .f32⟩ : BufTy).Contents (Elt F) → (⟨S64x512, .f32⟩ : BufTy).Contents (Elt F)),
    unary main_v129 main_v130 (broadcastInDim S64x512x1 ![0, 1] bcast_S64x512_S64x512x1_0_1 : (⟨S64x512, .f32⟩ : BufTy).Contents (Elt F) → (⟨S64x512x1, .f32⟩ : BufTy).Contents (Elt F)),
    unary main_v130 main_v131 (broadcastInDim S64x512x512 ![0, 1, 2] bcast_S64x512x1_S64x512x512_0_1_2 : (⟨S64x512x1, .f32⟩ : BufTy).Contents (Elt F) → (⟨S64x512x512, .f32⟩ : BufTy).Contents (Elt F)),
    binary main_v128 main_v131 main_v132 (Host.divf : (⟨S64x512x512, .f32⟩ : BufTy).Contents (Elt F) → (⟨S64x512x512, .f32⟩ : BufTy).Contents (Elt F) → (⟨S64x512x512, .f32⟩ : BufTy).Contents (Elt F)),
    binary main_v132 main_v109 main_v133 ((fun l r => Host.dotGeneral dot_S64x512x512_S64x512x256_S64x512x256_2_1_1_2_0_0 none l r) : (⟨S64x512x512, .f32⟩ : BufTy).Contents (Elt F) → (⟨S64x512x256, .f32⟩ : BufTy).Contents (Elt F) → (⟨S64x512x256, .f32⟩ : BufTy).Contents (Elt F)),
    unary main_arg4 main_v134 ((extractStridedSlice S1x256x256 ![2, 0, 0] · slices_S4x256x256_S1x256x256_2_0_0) : (⟨S4x256x256, .f32⟩ : BufTy).Contents (Elt F) → (⟨S1x256x256, .f32⟩ : BufTy).Contents (Elt F)),
    reshape main_v134 main_v135 rfl shapeCasts_S1x256x256_S256x256,
    binary main_v133 main_v135 main_v136 ((fun l r => Host.dotGeneral dot_S64x512x256_S256x256_S64x512x256_2_1_01_0_n_n none l r) : (⟨S64x512x256, .f32⟩ : BufTy).Contents (Elt F) → (⟨S256x256, .f32⟩ : BufTy).Contents (Elt F) → (⟨S64x512x256, .f32⟩ : BufTy).Contents (Elt F)),
    unary main_arg5 main_v137 ((extractStridedSlice S1x256 ![2, 0] · slices_S4x256_S1x256_2_0) : (⟨S4x256, .f32⟩ : BufTy).Contents (Elt F) → (⟨S1x256, .f32⟩ : BufTy).Contents (Elt F)),
    reshape main_v137 main_v138 rfl shapeCasts_S1x256_S256,
    unary main_v138 main_v139 (broadcastInDim S1x1x256 ![2] bcast_S256_S1x1x256_2 : (⟨S256, .f32⟩ : BufTy).Contents (Elt F) → (⟨S1x1x256, .f32⟩ : BufTy).Contents (Elt F)),
    unary main_v139 main_v140 (broadcastInDim S64x512x256 ![0, 1, 2] bcast_S1x1x256_S64x512x256_0_1_2 : (⟨S1x1x256, .f32⟩ : BufTy).Contents (Elt F) → (⟨S64x512x256, .f32⟩ : BufTy).Contents (Elt F)),
    binary main_v136 main_v140 main_v141 (addf : (⟨S64x512x256, .f32⟩ : BufTy).Contents (Elt F) → (⟨S64x512x256, .f32⟩ : BufTy).Contents (Elt F) → (⟨S64x512x256, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S64x512x256, .f32⟩) main_call4_v0) (broadcastInDim S64x512x256 ![] bcast_S_S64x512x256),
    TRef.binary (TRef.of (T := ⟨S64x512x256, .f32⟩) main_v141) (TRef.of (T := ⟨S64x512x256, .f32⟩) main_call4_v0) (TRef.of (T := ⟨S64x512x256, .f32⟩) main_v142) maximumf,
    unary main_arg6 main_v143 ((extractStridedSlice S1x256x256 ![2, 0, 0] · slices_S4x256x256_S1x256x256_2_0_0) : (⟨S4x256x256, .f32⟩ : BufTy).Contents (Elt F) → (⟨S1x256x256, .f32⟩ : BufTy).Contents (Elt F)),
    reshape main_v143 main_v144 rfl shapeCasts_S1x256x256_S256x256,
    binary main_v142 main_v144 main_v145 ((fun l r => Host.dotGeneral dot_S64x512x256_S256x256_S64x512x256_2_1_01_0_n_n none l r) : (⟨S64x512x256, .f32⟩ : BufTy).Contents (Elt F) → (⟨S256x256, .f32⟩ : BufTy).Contents (Elt F) → (⟨S64x512x256, .f32⟩ : BufTy).Contents (Elt F)),
    unary main_arg7 main_v146 ((extractStridedSlice S1x256 ![2, 0] · slices_S4x256_S1x256_2_0) : (⟨S4x256, .f32⟩ : BufTy).Contents (Elt F) → (⟨S1x256, .f32⟩ : BufTy).Contents (Elt F)),
    reshape main_v146 main_v147 rfl shapeCasts_S1x256_S256,
    unary main_v147 main_v148 (broadcastInDim S1x1x256 ![2] bcast_S256_S1x1x256_2 : (⟨S256, .f32⟩ : BufTy).Contents (Elt F) → (⟨S1x1x256, .f32⟩ : BufTy).Contents (Elt F)),
    unary main_v148 main_v149 (broadcastInDim S64x512x256 ![0, 1, 2] bcast_S1x1x256_S64x512x256_0_1_2 : (⟨S1x1x256, .f32⟩ : BufTy).Contents (Elt F) → (⟨S64x512x256, .f32⟩ : BufTy).Contents (Elt F)),
    binary main_v145 main_v149 main_v150 (addf : (⟨S64x512x256, .f32⟩ : BufTy).Contents (Elt F) → (⟨S64x512x256, .f32⟩ : BufTy).Contents (Elt F) → (⟨S64x512x256, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S64x512x256, .f32⟩) main_call5_v0) (broadcastInDim S64x512x256 ![] bcast_S_S64x512x256),
    TRef.binary (TRef.of (T := ⟨S64x512x256, .f32⟩) main_v150) (TRef.of (T := ⟨S64x512x256, .f32⟩) main_call5_v0) (TRef.of (T := ⟨S64x512x256, .f32⟩) main_v151) maximumf,
    binary main_v151 main_v109 main_v152 (addf : (⟨S64x512x256, .f32⟩ : BufTy).Contents (Elt F) → (⟨S64x512x256, .f32⟩ : BufTy).Contents (Elt F) → (⟨S64x512x256, .f32⟩ : BufTy).Contents (Elt F)) ]

/-- Operations 181–230 of @main. -/
abbrev s4 : List (HloOp τ sig (Elt F)) :=
  [ unary main_arg2 main_v153 ((extractStridedSlice S1x256x256 ![3, 0, 0] · slices_S4x256x256_S1x256x256_3_0_0) : (⟨S4x256x256, .f32⟩ : BufTy).Contents (Elt F) → (⟨S1x256x256, .f32⟩ : BufTy).Contents (Elt F)),
    reshape main_v153 main_v154 rfl shapeCasts_S1x256x256_S256x256,
    binary main_v152 main_v154 main_v155 ((fun l r => Host.dotGeneral dot_S64x512x256_S256x256_S64x512x256_2_1_01_0_n_n none l r) : (⟨S64x512x256, .f32⟩ : BufTy).Contents (Elt F) → (⟨S256x256, .f32⟩ : BufTy).Contents (Elt F) → (⟨S64x512x256, .f32⟩ : BufTy).Contents (Elt F)),
    unary main_arg3 main_v156 ((extractStridedSlice S1x256 ![3, 0] · slices_S4x256_S1x256_3_0) : (⟨S4x256, .f32⟩ : BufTy).Contents (Elt F) → (⟨S1x256, .f32⟩ : BufTy).Contents (Elt F)),
    reshape main_v156 main_v157 rfl shapeCasts_S1x256_S256,
    unary main_v157 main_v158 (broadcastInDim S1x1x256 ![2] bcast_S256_S1x1x256_2 : (⟨S256, .f32⟩ : BufTy).Contents (Elt F) → (⟨S1x1x256, .f32⟩ : BufTy).Contents (Elt F)),
    unary main_v158 main_v159 (broadcastInDim S64x512x256 ![0, 1, 2] bcast_S1x1x256_S64x512x256_0_1_2 : (⟨S1x1x256, .f32⟩ : BufTy).Contents (Elt F) → (⟨S64x512x256, .f32⟩ : BufTy).Contents (Elt F)),
    binary main_v155 main_v159 main_v160 (addf : (⟨S64x512x256, .f32⟩ : BufTy).Contents (Elt F) → (⟨S64x512x256, .f32⟩ : BufTy).Contents (Elt F) → (⟨S64x512x256, .f32⟩ : BufTy).Contents (Elt F)),
    binary main_v160 main_v152 main_v161 ((fun l r => Host.dotGeneral dot_S64x512x256_S64x512x256_S64x512x512_2_2_1_1_0_0 none l r) : (⟨S64x512x256, .f32⟩ : BufTy).Contents (Elt F) → (⟨S64x512x256, .f32⟩ : BufTy).Contents (Elt F) → (⟨S64x512x512, .f32⟩ : BufTy).Contents (Elt F)),
    unary main_v161 main_v162 (Host.negf : (⟨S64x512x512, .f32⟩ : BufTy).Contents (Elt F) → (⟨S64x512x512, .f32⟩ : BufTy).Contents (Elt F)),
    unary main_v162 main_v163 (Host.exp : (⟨S64x512x512, .f32⟩ : BufTy).Contents (Elt F) → (⟨S64x512x512, .f32⟩ : BufTy).Contents (Elt F)),
    nullary main_cst_14 (constant S_ .f32 0x3F800000#32),
    unary main_cst_14 main_v164 (broadcastInDim S64x512x512 ![] bcast_S_S64x512x512 : (⟨S_, .f32⟩ : BufTy).Contents (Elt F) → (⟨S64x512x512, .f32⟩ : BufTy).Contents (Elt F)),
    binary main_v164 main_v163 main_v165 (addf : (⟨S64x512x512, .f32⟩ : BufTy).Contents (Elt F) → (⟨S64x512x512, .f32⟩ : BufTy).Contents (Elt F) → (⟨S64x512x512, .f32⟩ : BufTy).Contents (Elt F)),
    nullary main_cst_15 (constant S_ .f32 0x3F800000#32),
    unary main_cst_15 main_v166 (broadcastInDim S64x512x512 ![] bcast_S_S64x512x512 : (⟨S_, .f32⟩ : BufTy).Contents (Elt F) → (⟨S64x512x512, .f32⟩ : BufTy).Contents (Elt F)),
    binary main_v166 main_v165 main_v167 (Host.divf : (⟨S64x512x512, .f32⟩ : BufTy).Contents (Elt F) → (⟨S64x512x512, .f32⟩ : BufTy).Contents (Elt F) → (⟨S64x512x512, .f32⟩ : BufTy).Contents (Elt F)),
    unary main_v23 main_v168 (broadcastInDim S1x512x512 ![1, 2] bcast_S512x512_S1x512x512_1_2 : (⟨S512x512, .f32⟩ : BufTy).Contents (Elt F) → (⟨S1x512x512, .f32⟩ : BufTy).Contents (Elt F)),
    unary main_v168 main_v169 (broadcastInDim S64x512x512 ![0, 1, 2] bcast_S1x512x512_S64x512x512_0_1_2 : (⟨S1x512x512, .f32⟩ : BufTy).Contents (Elt F) → (⟨S64x512x512, .f32⟩ : BufTy).Contents (Elt F)),
    binary main_v167 main_v169 main_v170 (addf : (⟨S64x512x512, .f32⟩ : BufTy).Contents (Elt F) → (⟨S64x512x512, .f32⟩ : BufTy).Contents (Elt F) → (⟨S64x512x512, .f32⟩ : BufTy).Contents (Elt F)),
    binary main_v170 main_v15 main_v171 (mulf : (⟨S64x512x512, .f32⟩ : BufTy).Contents (Elt F) → (⟨S64x512x512, .f32⟩ : BufTy).Contents (Elt F) → (⟨S64x512x512, .f32⟩ : BufTy).Contents (Elt F)),
    nullary main_cst_16 (constant S_ .f32 0x00000000#32),
    binary main_v171 main_cst_16 main_v172 ((fun x v => Host.reduceAdd x v reducesTo_S64x512x512_S64x512_d2 h_S_) : (⟨S64x512x512, .f32⟩ : BufTy).Contents (Elt F) → (⟨S_, .f32⟩ : BufTy).Contents (Elt F) → (⟨S64x512, .f32⟩ : BufTy).Contents (Elt F)),
    unary main_v172 main_v173 (broadcastInDim S64x512x1 ![0, 1] bcast_S64x512_S64x512x1_0_1 : (⟨S64x512, .f32⟩ : BufTy).Contents (Elt F) → (⟨S64x512x1, .f32⟩ : BufTy).Contents (Elt F)),
    unary main_v173 main_v174 (broadcastInDim S64x512x512 ![0, 1, 2] bcast_S64x512x1_S64x512x512_0_1_2 : (⟨S64x512x1, .f32⟩ : BufTy).Contents (Elt F) → (⟨S64x512x512, .f32⟩ : BufTy).Contents (Elt F)),
    binary main_v171 main_v174 main_v175 (Host.divf : (⟨S64x512x512, .f32⟩ : BufTy).Contents (Elt F) → (⟨S64x512x512, .f32⟩ : BufTy).Contents (Elt F) → (⟨S64x512x512, .f32⟩ : BufTy).Contents (Elt F)),
    binary main_v175 main_v152 main_v176 ((fun l r => Host.dotGeneral dot_S64x512x512_S64x512x256_S64x512x256_2_1_1_2_0_0 none l r) : (⟨S64x512x512, .f32⟩ : BufTy).Contents (Elt F) → (⟨S64x512x256, .f32⟩ : BufTy).Contents (Elt F) → (⟨S64x512x256, .f32⟩ : BufTy).Contents (Elt F)),
    unary main_arg4 main_v177 ((extractStridedSlice S1x256x256 ![3, 0, 0] · slices_S4x256x256_S1x256x256_3_0_0) : (⟨S4x256x256, .f32⟩ : BufTy).Contents (Elt F) → (⟨S1x256x256, .f32⟩ : BufTy).Contents (Elt F)),
    reshape main_v177 main_v178 rfl shapeCasts_S1x256x256_S256x256,
    binary main_v176 main_v178 main_v179 ((fun l r => Host.dotGeneral dot_S64x512x256_S256x256_S64x512x256_2_1_01_0_n_n none l r) : (⟨S64x512x256, .f32⟩ : BufTy).Contents (Elt F) → (⟨S256x256, .f32⟩ : BufTy).Contents (Elt F) → (⟨S64x512x256, .f32⟩ : BufTy).Contents (Elt F)),
    unary main_arg5 main_v180 ((extractStridedSlice S1x256 ![3, 0] · slices_S4x256_S1x256_3_0) : (⟨S4x256, .f32⟩ : BufTy).Contents (Elt F) → (⟨S1x256, .f32⟩ : BufTy).Contents (Elt F)),
    reshape main_v180 main_v181 rfl shapeCasts_S1x256_S256,
    unary main_v181 main_v182 (broadcastInDim S1x1x256 ![2] bcast_S256_S1x1x256_2 : (⟨S256, .f32⟩ : BufTy).Contents (Elt F) → (⟨S1x1x256, .f32⟩ : BufTy).Contents (Elt F)),
    unary main_v182 main_v183 (broadcastInDim S64x512x256 ![0, 1, 2] bcast_S1x1x256_S64x512x256_0_1_2 : (⟨S1x1x256, .f32⟩ : BufTy).Contents (Elt F) → (⟨S64x512x256, .f32⟩ : BufTy).Contents (Elt F)),
    binary main_v179 main_v183 main_v184 (addf : (⟨S64x512x256, .f32⟩ : BufTy).Contents (Elt F) → (⟨S64x512x256, .f32⟩ : BufTy).Contents (Elt F) → (⟨S64x512x256, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S64x512x256, .f32⟩) main_call6_v0) (broadcastInDim S64x512x256 ![] bcast_S_S64x512x256),
    TRef.binary (TRef.of (T := ⟨S64x512x256, .f32⟩) main_v184) (TRef.of (T := ⟨S64x512x256, .f32⟩) main_call6_v0) (TRef.of (T := ⟨S64x512x256, .f32⟩) main_v185) maximumf,
    unary main_arg6 main_v186 ((extractStridedSlice S1x256x256 ![3, 0, 0] · slices_S4x256x256_S1x256x256_3_0_0) : (⟨S4x256x256, .f32⟩ : BufTy).Contents (Elt F) → (⟨S1x256x256, .f32⟩ : BufTy).Contents (Elt F)),
    reshape main_v186 main_v187 rfl shapeCasts_S1x256x256_S256x256,
    binary main_v185 main_v187 main_v188 ((fun l r => Host.dotGeneral dot_S64x512x256_S256x256_S64x512x256_2_1_01_0_n_n none l r) : (⟨S64x512x256, .f32⟩ : BufTy).Contents (Elt F) → (⟨S256x256, .f32⟩ : BufTy).Contents (Elt F) → (⟨S64x512x256, .f32⟩ : BufTy).Contents (Elt F)),
    unary main_arg7 main_v189 ((extractStridedSlice S1x256 ![3, 0] · slices_S4x256_S1x256_3_0) : (⟨S4x256, .f32⟩ : BufTy).Contents (Elt F) → (⟨S1x256, .f32⟩ : BufTy).Contents (Elt F)),
    reshape main_v189 main_v190 rfl shapeCasts_S1x256_S256,
    unary main_v190 main_v191 (broadcastInDim S1x1x256 ![2] bcast_S256_S1x1x256_2 : (⟨S256, .f32⟩ : BufTy).Contents (Elt F) → (⟨S1x1x256, .f32⟩ : BufTy).Contents (Elt F)),
    unary main_v191 main_v192 (broadcastInDim S64x512x256 ![0, 1, 2] bcast_S1x1x256_S64x512x256_0_1_2 : (⟨S1x1x256, .f32⟩ : BufTy).Contents (Elt F) → (⟨S64x512x256, .f32⟩ : BufTy).Contents (Elt F)),
    binary main_v188 main_v192 main_v193 (addf : (⟨S64x512x256, .f32⟩ : BufTy).Contents (Elt F) → (⟨S64x512x256, .f32⟩ : BufTy).Contents (Elt F) → (⟨S64x512x256, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S64x512x256, .f32⟩) main_call7_v0) (broadcastInDim S64x512x256 ![] bcast_S_S64x512x256),
    TRef.binary (TRef.of (T := ⟨S64x512x256, .f32⟩) main_v193) (TRef.of (T := ⟨S64x512x256, .f32⟩) main_call7_v0) (TRef.of (T := ⟨S64x512x256, .f32⟩) main_v194) maximumf,
    binary main_v194 main_v152 main_v195 (addf : (⟨S64x512x256, .f32⟩ : BufTy).Contents (Elt F) → (⟨S64x512x256, .f32⟩ : BufTy).Contents (Elt F) → (⟨S64x512x256, .f32⟩ : BufTy).Contents (Elt F)) ]

/-- Operations 231–238 of @main. -/
abbrev s5 : List (HloOp τ sig (Elt F)) :=
  [ binary main_v195 main_arg8 main_v196 ((fun l r => Host.dotGeneral dot_S64x512x256_S256x256_S64x512x256_2_1_01_0_n_n none l r) : (⟨S64x512x256, .f32⟩ : BufTy).Contents (Elt F) → (⟨S256x256, .f32⟩ : BufTy).Contents (Elt F) → (⟨S64x512x256, .f32⟩ : BufTy).Contents (Elt F)),
    unary main_arg9 main_v197 (broadcastInDim S1x1x256 ![2] bcast_S256_S1x1x256_2 : (⟨S256, .f32⟩ : BufTy).Contents (Elt F) → (⟨S1x1x256, .f32⟩ : BufTy).Contents (Elt F)),
    unary main_v197 main_v198 (broadcastInDim S64x512x256 ![0, 1, 2] bcast_S1x1x256_S64x512x256_0_1_2 : (⟨S1x1x256, .f32⟩ : BufTy).Contents (Elt F) → (⟨S64x512x256, .f32⟩ : BufTy).Contents (Elt F)),
    binary main_v196 main_v198 main_v199 (addf : (⟨S64x512x256, .f32⟩ : BufTy).Contents (Elt F) → (⟨S64x512x256, .f32⟩ : BufTy).Contents (Elt F) → (⟨S64x512x256, .f32⟩ : BufTy).Contents (Elt F)),
    unary main_v46 main_v200 (broadcastInDim S1x64x512x512 ![1, 2, 3] bcast_S64x512x512_S1x64x512x512_1_2_3 : (⟨S64x512x512, .f32⟩ : BufTy).Contents (Elt F) → (⟨S1x64x512x512, .f32⟩ : BufTy).Contents (Elt F)),
    unary main_v89 main_v201 (broadcastInDim S1x64x512x512 ![1, 2, 3] bcast_S64x512x512_S1x64x512x512_1_2_3 : (⟨S64x512x512, .f32⟩ : BufTy).Contents (Elt F) → (⟨S1x64x512x512, .f32⟩ : BufTy).Contents (Elt F)),
    unary main_v132 main_v202 (broadcastInDim S1x64x512x512 ![1, 2, 3] bcast_S64x512x512_S1x64x512x512_1_2_3 : (⟨S64x512x512, .f32⟩ : BufTy).Contents (Elt F) → (⟨S1x64x512x512, .f32⟩ : BufTy).Contents (Elt F)),
    unary main_v175 main_v203 (broadcastInDim S1x64x512x512 ![1, 2, 3] bcast_S64x512x512_S1x64x512x512_1_2_3 : (⟨S64x512x512, .f32⟩ : BufTy).Contents (Elt F) → (⟨S1x64x512x512, .f32⟩ : BufTy).Contents (Elt F)) ]

/-- Operation 239 of @main. -/
abbrev s6 : List (HloOp τ sig (Elt F)) :=
  [ nary ![main_v200, main_v201, main_v202, main_v203] main_v204 (fun u => concatenate S4x64x512x512 0 [⟨S1x64x512x512, u 0⟩, ⟨S1x64x512x512, u 1⟩, ⟨S1x64x512x512, u 2⟩, ⟨S1x64x512x512, u 3⟩] concatenates_S1x64x512x512_S1x64x512x512_S1x64x512x512_S1x64x512x512_S4x64x512x512_d0) ]

/-! ## The stages the pieces pass on -/

section Chain
variable (V : Valuation τ sig (Elt F))
variable (x0 : (⟨S64x512x256, .f32⟩ : BufTy).Contents (Elt F)) (x1 : (⟨S64x512x512, .f32⟩ : BufTy).Contents (Elt F)) (x2 : (⟨S4x256x256, .f32⟩ : BufTy).Contents (Elt F)) (x3 : (⟨S4x256, .f32⟩ : BufTy).Contents (Elt F)) (x4 : (⟨S4x256x256, .f32⟩ : BufTy).Contents (Elt F)) (x5 : (⟨S4x256, .f32⟩ : BufTy).Contents (Elt F)) (x6 : (⟨S4x256x256, .f32⟩ : BufTy).Contents (Elt F)) (x7 : (⟨S4x256, .f32⟩ : BufTy).Contents (Elt F)) (x8 : (⟨S256x256, .f32⟩ : BufTy).Contents (Elt F)) (x9 : (⟨S256, .f32⟩ : BufTy).Contents (Elt F))

/-- The buffers later pieces read, at the start: the arguments. -/
structure St0 : Prop where
  a0 : V (Proc.devRef .tc main_arg0) = x0
  a1 : V (Proc.devRef .tc main_arg1) = x1
  a2 : V (Proc.devRef .tc main_arg2) = x2
  a3 : V (Proc.devRef .tc main_arg3) = x3
  a4 : V (Proc.devRef .tc main_arg4) = x4
  a5 : V (Proc.devRef .tc main_arg5) = x5
  a6 : V (Proc.devRef .tc main_arg6) = x6
  a7 : V (Proc.devRef .tc main_arg7) = x7
  a8 : V (Proc.devRef .tc main_arg8) = x8
  a9 : V (Proc.devRef .tc main_arg9) = x9

/-- The buffers later pieces read, after piece 0: the arguments, and the reference's stages of them. -/
structure St1 : Prop where
  a0 : V (Proc.devRef .tc main_arg0) = x0
  a1 : V (Proc.devRef .tc main_arg1) = x1
  a2 : V (Proc.devRef .tc main_arg2) = x2
  a3 : V (Proc.devRef .tc main_arg3) = x3
  a4 : V (Proc.devRef .tc main_arg4) = x4
  a5 : V (Proc.devRef .tc main_arg5) = x5
  a6 : V (Proc.devRef .tc main_arg6) = x6
  a7 : V (Proc.devRef .tc main_arg7) = x7
  a8 : V (Proc.devRef .tc main_arg8) = x8
  a9 : V (Proc.devRef .tc main_arg9) = x9
  v15 : V (Proc.devRef .tc main_v15) = ReadP.val_main_v15 (F := F) x1
  v23 : V (Proc.devRef .tc main_v23) = ReadP.val_main_v23 (F := F)

/-- The buffers later pieces read, after piece 1: the arguments, and the reference's stages of them. -/
structure St2 : Prop where
  a0 : V (Proc.devRef .tc main_arg0) = x0
  a1 : V (Proc.devRef .tc main_arg1) = x1
  a2 : V (Proc.devRef .tc main_arg2) = x2
  a3 : V (Proc.devRef .tc main_arg3) = x3
  a4 : V (Proc.devRef .tc main_arg4) = x4
  a5 : V (Proc.devRef .tc main_arg5) = x5
  a6 : V (Proc.devRef .tc main_arg6) = x6
  a7 : V (Proc.devRef .tc main_arg7) = x7
  a8 : V (Proc.devRef .tc main_arg8) = x8
  a9 : V (Proc.devRef .tc main_arg9) = x9
  v15 : V (Proc.devRef .tc main_v15) = ReadP.val_main_v15 (F := F) x1
  v23 : V (Proc.devRef .tc main_v23) = ReadP.val_main_v23 (F := F)
  v46 : V (Proc.devRef .tc main_v46) = ReadP.val_main_v46 (F := F) x0 x1 x2 x3
  v66 : V (Proc.devRef .tc main_v66) = ReadP.val_main_v66 (F := F) x0 x1 x2 x3 x4 x5 x6 x7

/-- The buffers later pieces read, after piece 2: the arguments, and the reference's stages of them. -/
structure St3 : Prop where
  a0 : V (Proc.devRef .tc main_arg0) = x0
  a1 : V (Proc.devRef .tc main_arg1) = x1
  a2 : V (Proc.devRef .tc main_arg2) = x2
  a3 : V (Proc.devRef .tc main_arg3) = x3
  a4 : V (Proc.devRef .tc main_arg4) = x4
  a5 : V (Proc.devRef .tc main_arg5) = x5
  a6 : V (Proc.devRef .tc main_arg6) = x6
  a7 : V (Proc.devRef .tc main_arg7) = x7
  a8 : V (Proc.devRef .tc main_arg8) = x8
  a9 : V (Proc.devRef .tc main_arg9) = x9
  v15 : V (Proc.devRef .tc main_v15) = ReadP.val_main_v15 (F := F) x1
  v23 : V (Proc.devRef .tc main_v23) = ReadP.val_main_v23 (F := F)
  v46 : V (Proc.devRef .tc main_v46) = ReadP.val_main_v46 (F := F) x0 x1 x2 x3
  v89 : V (Proc.devRef .tc main_v89) = ReadP.val_main_v89 (F := F) x0 x1 x2 x3 x4 x5 x6 x7
  v109 : V (Proc.devRef .tc main_v109) = ReadP.val_main_v109 (F := F) x0 x1 x2 x3 x4 x5 x6 x7

/-- The buffers later pieces read, after piece 3: the arguments, and the reference's stages of them. -/
structure St4 : Prop where
  a0 : V (Proc.devRef .tc main_arg0) = x0
  a1 : V (Proc.devRef .tc main_arg1) = x1
  a2 : V (Proc.devRef .tc main_arg2) = x2
  a3 : V (Proc.devRef .tc main_arg3) = x3
  a4 : V (Proc.devRef .tc main_arg4) = x4
  a5 : V (Proc.devRef .tc main_arg5) = x5
  a6 : V (Proc.devRef .tc main_arg6) = x6
  a7 : V (Proc.devRef .tc main_arg7) = x7
  a8 : V (Proc.devRef .tc main_arg8) = x8
  a9 : V (Proc.devRef .tc main_arg9) = x9
  v15 : V (Proc.devRef .tc main_v15) = ReadP.val_main_v15 (F := F) x1
  v23 : V (Proc.devRef .tc main_v23) = ReadP.val_main_v23 (F := F)
  v46 : V (Proc.devRef .tc main_v46) = ReadP.val_main_v46 (F := F) x0 x1 x2 x3
  v89 : V (Proc.devRef .tc main_v89) = ReadP.val_main_v89 (F := F) x0 x1 x2 x3 x4 x5 x6 x7
  v132 : V (Proc.devRef .tc main_v132) = ReadP.val_main_v132 (F := F) x0 x1 x2 x3 x4 x5 x6 x7
  v152 : V (Proc.devRef .tc main_v152) = ReadP.val_main_v152 (F := F) x0 x1 x2 x3 x4 x5 x6 x7

/-- The buffers later pieces read, after piece 4: the arguments, and the reference's stages of them. -/
structure St5 : Prop where
  a0 : V (Proc.devRef .tc main_arg0) = x0
  a1 : V (Proc.devRef .tc main_arg1) = x1
  a2 : V (Proc.devRef .tc main_arg2) = x2
  a3 : V (Proc.devRef .tc main_arg3) = x3
  a4 : V (Proc.devRef .tc main_arg4) = x4
  a5 : V (Proc.devRef .tc main_arg5) = x5
  a6 : V (Proc.devRef .tc main_arg6) = x6
  a7 : V (Proc.devRef .tc main_arg7) = x7
  a8 : V (Proc.devRef .tc main_arg8) = x8
  a9 : V (Proc.devRef .tc main_arg9) = x9
  v46 : V (Proc.devRef .tc main_v46) = ReadP.val_main_v46 (F := F) x0 x1 x2 x3
  v89 : V (Proc.devRef .tc main_v89) = ReadP.val_main_v89 (F := F) x0 x1 x2 x3 x4 x5 x6 x7
  v132 : V (Proc.devRef .tc main_v132) = ReadP.val_main_v132 (F := F) x0 x1 x2 x3 x4 x5 x6 x7
  v175 : V (Proc.devRef .tc main_v175) = ReadP.val_main_v175 (F := F) x0 x1 x2 x3 x4 x5 x6 x7
  v195 : V (Proc.devRef .tc main_v195) = ReadP.val_main_v195 (F := F) x0 x1 x2 x3 x4 x5 x6 x7

/-- The buffers later pieces read, after piece 5: the arguments, and the reference's stages of them. -/
structure St6 : Prop where
  a0 : V (Proc.devRef .tc main_arg0) = x0
  a1 : V (Proc.devRef .tc main_arg1) = x1
  a2 : V (Proc.devRef .tc main_arg2) = x2
  a3 : V (Proc.devRef .tc main_arg3) = x3
  a4 : V (Proc.devRef .tc main_arg4) = x4
  a5 : V (Proc.devRef .tc main_arg5) = x5
  a6 : V (Proc.devRef .tc main_arg6) = x6
  a7 : V (Proc.devRef .tc main_arg7) = x7
  a8 : V (Proc.devRef .tc main_arg8) = x8
  a9 : V (Proc.devRef .tc main_arg9) = x9
  v199 : V (Proc.devRef .tc main_v199) = ReadP.val_main_v199 (F := F) x0 x1 x2 x3 x4 x5 x6 x7 x8 x9
  v200 : V (Proc.devRef .tc main_v200) = ReadP.val_main_v200 (F := F) x0 x1 x2 x3
  v201 : V (Proc.devRef .tc main_v201) = ReadP.val_main_v201 (F := F) x0 x1 x2 x3 x4 x5 x6 x7
  v202 : V (Proc.devRef .tc main_v202) = ReadP.val_main_v202 (F := F) x0 x1 x2 x3 x4 x5 x6 x7
  v203 : V (Proc.devRef .tc main_v203) = ReadP.val_main_v203 (F := F) x0 x1 x2 x3 x4 x5 x6 x7

/-- The buffers later pieces read, after piece 6: the arguments, and the reference's stages of them. -/
structure St7 : Prop where
  a0 : V (Proc.devRef .tc main_arg0) = x0
  a1 : V (Proc.devRef .tc main_arg1) = x1
  a2 : V (Proc.devRef .tc main_arg2) = x2
  a3 : V (Proc.devRef .tc main_arg3) = x3
  a4 : V (Proc.devRef .tc main_arg4) = x4
  a5 : V (Proc.devRef .tc main_arg5) = x5
  a6 : V (Proc.devRef .tc main_arg6) = x6
  a7 : V (Proc.devRef .tc main_arg7) = x7
  a8 : V (Proc.devRef .tc main_arg8) = x8
  a9 : V (Proc.devRef .tc main_arg9) = x9
  v199 : V (Proc.devRef .tc main_v199) = ReadP.val_main_v199 (F := F) x0 x1 x2 x3 x4 x5 x6 x7 x8 x9
  v204 : V (Proc.devRef .tc main_v204) = ReadP.val_main_v204 (F := F) x0 x1 x2 x3 x4 x5 x6 x7

/-! ### Piece 0 -/

theorem keep0_a0 : after (s0 (F := F)) V (Proc.devRef .tc main_arg0) = V (Proc.devRef .tc main_arg0) := by
  after_results_simp
theorem keep0_a1 : after (s0 (F := F)) V (Proc.devRef .tc main_arg1) = V (Proc.devRef .tc main_arg1) := by
  after_results_simp
theorem keep0_a2 : after (s0 (F := F)) V (Proc.devRef .tc main_arg2) = V (Proc.devRef .tc main_arg2) := by
  after_results_simp
theorem keep0_a3 : after (s0 (F := F)) V (Proc.devRef .tc main_arg3) = V (Proc.devRef .tc main_arg3) := by
  after_results_simp
theorem keep0_a4 : after (s0 (F := F)) V (Proc.devRef .tc main_arg4) = V (Proc.devRef .tc main_arg4) := by
  after_results_simp
theorem keep0_a5 : after (s0 (F := F)) V (Proc.devRef .tc main_arg5) = V (Proc.devRef .tc main_arg5) := by
  after_results_simp
theorem keep0_a6 : after (s0 (F := F)) V (Proc.devRef .tc main_arg6) = V (Proc.devRef .tc main_arg6) := by
  after_results_simp
theorem keep0_a7 : after (s0 (F := F)) V (Proc.devRef .tc main_arg7) = V (Proc.devRef .tc main_arg7) := by
  after_results_simp
theorem keep0_a8 : after (s0 (F := F)) V (Proc.devRef .tc main_arg8) = V (Proc.devRef .tc main_arg8) := by
  after_results_simp
theorem keep0_a9 : after (s0 (F := F)) V (Proc.devRef .tc main_arg9) = V (Proc.devRef .tc main_arg9) := by
  after_results_simp
theorem new0_v15 (h : St0 V x0 x1 x2 x3 x4 x5 x6 x7 x8 x9) :
    after (s0 (F := F)) V (Proc.devRef .tc main_v15) = ReadP.val_main_v15 (F := F) x1 := by
  after_results_simp
  simp only [h.a0, h.a1, h.a2, h.a3, h.a4, h.a5, h.a6, h.a7, h.a8, h.a9]
  rfl
theorem new0_v23 (h : St0 V x0 x1 x2 x3 x4 x5 x6 x7 x8 x9) :
    after (s0 (F := F)) V (Proc.devRef .tc main_v23) = ReadP.val_main_v23 (F := F) := by
  after_results_simp
  rfl
/-- Piece 0 takes the buffers from one stage to the next. -/
theorem step0 (h : St0 V x0 x1 x2 x3 x4 x5 x6 x7 x8 x9) : St1 (after (s0 (F := F)) V) x0 x1 x2 x3 x4 x5 x6 x7 x8 x9 :=
  ⟨(keep0_a0 V).trans h.a0,
   (keep0_a1 V).trans h.a1,
   (keep0_a2 V).trans h.a2,
   (keep0_a3 V).trans h.a3,
   (keep0_a4 V).trans h.a4,
   (keep0_a5 V).trans h.a5,
   (keep0_a6 V).trans h.a6,
   (keep0_a7 V).trans h.a7,
   (keep0_a8 V).trans h.a8,
   (keep0_a9 V).trans h.a9,
   new0_v15 V x0 x1 x2 x3 x4 x5 x6 x7 x8 x9 h,
   new0_v23 V x0 x1 x2 x3 x4 x5 x6 x7 x8 x9 h⟩

/-! ### Piece 1 -/

theorem keep1_a0 : after (s1 (F := F)) V (Proc.devRef .tc main_arg0) = V (Proc.devRef .tc main_arg0) := by
  after_results_simp
theorem keep1_a1 : after (s1 (F := F)) V (Proc.devRef .tc main_arg1) = V (Proc.devRef .tc main_arg1) := by
  after_results_simp
theorem keep1_a2 : after (s1 (F := F)) V (Proc.devRef .tc main_arg2) = V (Proc.devRef .tc main_arg2) := by
  after_results_simp
theorem keep1_a3 : after (s1 (F := F)) V (Proc.devRef .tc main_arg3) = V (Proc.devRef .tc main_arg3) := by
  after_results_simp
theorem keep1_a4 : after (s1 (F := F)) V (Proc.devRef .tc main_arg4) = V (Proc.devRef .tc main_arg4) := by
  after_results_simp
theorem keep1_a5 : after (s1 (F := F)) V (Proc.devRef .tc main_arg5) = V (Proc.devRef .tc main_arg5) := by
  after_results_simp
theorem keep1_a6 : after (s1 (F := F)) V (Proc.devRef .tc main_arg6) = V (Proc.devRef .tc main_arg6) := by
  after_results_simp
theorem keep1_a7 : after (s1 (F := F)) V (Proc.devRef .tc main_arg7) = V (Proc.devRef .tc main_arg7) := by
  after_results_simp
theorem keep1_a8 : after (s1 (F := F)) V (Proc.devRef .tc main_arg8) = V (Proc.devRef .tc main_arg8) := by
  after_results_simp
theorem keep1_a9 : after (s1 (F := F)) V (Proc.devRef .tc main_arg9) = V (Proc.devRef .tc main_arg9) := by
  after_results_simp
theorem keep1_v15 : after (s1 (F := F)) V (Proc.devRef .tc main_v15) = V (Proc.devRef .tc main_v15) := by
  after_results_simp
theorem keep1_v23 : after (s1 (F := F)) V (Proc.devRef .tc main_v23) = V (Proc.devRef .tc main_v23) := by
  after_results_simp
theorem new1_v46 (h : St1 V x0 x1 x2 x3 x4 x5 x6 x7 x8 x9) :
    after (s1 (F := F)) V (Proc.devRef .tc main_v46) = ReadP.val_main_v46 (F := F) x0 x1 x2 x3 := by
  after_results_simp
  simp only [h.a0, h.a1, h.a2, h.a3, h.a4, h.a5, h.a6, h.a7, h.a8, h.a9, h.v15, h.v23]
  rfl
theorem new1_v66 (h : St1 V x0 x1 x2 x3 x4 x5 x6 x7 x8 x9) :
    after (s1 (F := F)) V (Proc.devRef .tc main_v66) = ReadP.val_main_v66 (F := F) x0 x1 x2 x3 x4 x5 x6 x7 := by
  after_results_simp
  simp only [h.a0, h.a1, h.a2, h.a3, h.a4, h.a5, h.a6, h.a7, h.a8, h.a9, h.v15, h.v23]
  rfl
/-- Piece 1 takes the buffers from one stage to the next. -/
theorem step1 (h : St1 V x0 x1 x2 x3 x4 x5 x6 x7 x8 x9) : St2 (after (s1 (F := F)) V) x0 x1 x2 x3 x4 x5 x6 x7 x8 x9 :=
  ⟨(keep1_a0 V).trans h.a0,
   (keep1_a1 V).trans h.a1,
   (keep1_a2 V).trans h.a2,
   (keep1_a3 V).trans h.a3,
   (keep1_a4 V).trans h.a4,
   (keep1_a5 V).trans h.a5,
   (keep1_a6 V).trans h.a6,
   (keep1_a7 V).trans h.a7,
   (keep1_a8 V).trans h.a8,
   (keep1_a9 V).trans h.a9,
   (keep1_v15 V).trans h.v15,
   (keep1_v23 V).trans h.v23,
   new1_v46 V x0 x1 x2 x3 x4 x5 x6 x7 x8 x9 h,
   new1_v66 V x0 x1 x2 x3 x4 x5 x6 x7 x8 x9 h⟩

/-! ### Piece 2 -/

theorem keep2_a0 : after (s2 (F := F)) V (Proc.devRef .tc main_arg0) = V (Proc.devRef .tc main_arg0) := by
  after_results_simp
theorem keep2_a1 : after (s2 (F := F)) V (Proc.devRef .tc main_arg1) = V (Proc.devRef .tc main_arg1) := by
  after_results_simp
theorem keep2_a2 : after (s2 (F := F)) V (Proc.devRef .tc main_arg2) = V (Proc.devRef .tc main_arg2) := by
  after_results_simp
theorem keep2_a3 : after (s2 (F := F)) V (Proc.devRef .tc main_arg3) = V (Proc.devRef .tc main_arg3) := by
  after_results_simp
theorem keep2_a4 : after (s2 (F := F)) V (Proc.devRef .tc main_arg4) = V (Proc.devRef .tc main_arg4) := by
  after_results_simp
theorem keep2_a5 : after (s2 (F := F)) V (Proc.devRef .tc main_arg5) = V (Proc.devRef .tc main_arg5) := by
  after_results_simp
theorem keep2_a6 : after (s2 (F := F)) V (Proc.devRef .tc main_arg6) = V (Proc.devRef .tc main_arg6) := by
  after_results_simp
theorem keep2_a7 : after (s2 (F := F)) V (Proc.devRef .tc main_arg7) = V (Proc.devRef .tc main_arg7) := by
  after_results_simp
theorem keep2_a8 : after (s2 (F := F)) V (Proc.devRef .tc main_arg8) = V (Proc.devRef .tc main_arg8) := by
  after_results_simp
theorem keep2_a9 : after (s2 (F := F)) V (Proc.devRef .tc main_arg9) = V (Proc.devRef .tc main_arg9) := by
  after_results_simp
theorem keep2_v15 : after (s2 (F := F)) V (Proc.devRef .tc main_v15) = V (Proc.devRef .tc main_v15) := by
  after_results_simp
theorem keep2_v23 : after (s2 (F := F)) V (Proc.devRef .tc main_v23) = V (Proc.devRef .tc main_v23) := by
  after_results_simp
theorem keep2_v46 : after (s2 (F := F)) V (Proc.devRef .tc main_v46) = V (Proc.devRef .tc main_v46) := by
  after_results_simp
theorem new2_v89 (h : St2 V x0 x1 x2 x3 x4 x5 x6 x7 x8 x9) :
    after (s2 (F := F)) V (Proc.devRef .tc main_v89) = ReadP.val_main_v89 (F := F) x0 x1 x2 x3 x4 x5 x6 x7 := by
  after_results_simp
  simp only [h.a0, h.a1, h.a2, h.a3, h.a4, h.a5, h.a6, h.a7, h.a8, h.a9, h.v15, h.v23, h.v46, h.v66]
  rfl
theorem new2_v109 (h : St2 V x0 x1 x2 x3 x4 x5 x6 x7 x8 x9) :
    after (s2 (F := F)) V (Proc.devRef .tc main_v109) = ReadP.val_main_v109 (F := F) x0 x1 x2 x3 x4 x5 x6 x7 := by
  after_results_simp
  simp only [h.a0, h.a1, h.a2, h.a3, h.a4, h.a5, h.a6, h.a7, h.a8, h.a9, h.v15, h.v23, h.v46, h.v66]
  rfl
/-- Piece 2 takes the buffers from one stage to the next. -/
theorem step2 (h : St2 V x0 x1 x2 x3 x4 x5 x6 x7 x8 x9) : St3 (after (s2 (F := F)) V) x0 x1 x2 x3 x4 x5 x6 x7 x8 x9 :=
  ⟨(keep2_a0 V).trans h.a0,
   (keep2_a1 V).trans h.a1,
   (keep2_a2 V).trans h.a2,
   (keep2_a3 V).trans h.a3,
   (keep2_a4 V).trans h.a4,
   (keep2_a5 V).trans h.a5,
   (keep2_a6 V).trans h.a6,
   (keep2_a7 V).trans h.a7,
   (keep2_a8 V).trans h.a8,
   (keep2_a9 V).trans h.a9,
   (keep2_v15 V).trans h.v15,
   (keep2_v23 V).trans h.v23,
   (keep2_v46 V).trans h.v46,
   new2_v89 V x0 x1 x2 x3 x4 x5 x6 x7 x8 x9 h,
   new2_v109 V x0 x1 x2 x3 x4 x5 x6 x7 x8 x9 h⟩

/-! ### Piece 3 -/

theorem keep3_a0 : after (s3 (F := F)) V (Proc.devRef .tc main_arg0) = V (Proc.devRef .tc main_arg0) := by
  after_results_simp
theorem keep3_a1 : after (s3 (F := F)) V (Proc.devRef .tc main_arg1) = V (Proc.devRef .tc main_arg1) := by
  after_results_simp
theorem keep3_a2 : after (s3 (F := F)) V (Proc.devRef .tc main_arg2) = V (Proc.devRef .tc main_arg2) := by
  after_results_simp
theorem keep3_a3 : after (s3 (F := F)) V (Proc.devRef .tc main_arg3) = V (Proc.devRef .tc main_arg3) := by
  after_results_simp
theorem keep3_a4 : after (s3 (F := F)) V (Proc.devRef .tc main_arg4) = V (Proc.devRef .tc main_arg4) := by
  after_results_simp
theorem keep3_a5 : after (s3 (F := F)) V (Proc.devRef .tc main_arg5) = V (Proc.devRef .tc main_arg5) := by
  after_results_simp
theorem keep3_a6 : after (s3 (F := F)) V (Proc.devRef .tc main_arg6) = V (Proc.devRef .tc main_arg6) := by
  after_results_simp
theorem keep3_a7 : after (s3 (F := F)) V (Proc.devRef .tc main_arg7) = V (Proc.devRef .tc main_arg7) := by
  after_results_simp
theorem keep3_a8 : after (s3 (F := F)) V (Proc.devRef .tc main_arg8) = V (Proc.devRef .tc main_arg8) := by
  after_results_simp
theorem keep3_a9 : after (s3 (F := F)) V (Proc.devRef .tc main_arg9) = V (Proc.devRef .tc main_arg9) := by
  after_results_simp
theorem keep3_v15 : after (s3 (F := F)) V (Proc.devRef .tc main_v15) = V (Proc.devRef .tc main_v15) := by
  after_results_simp
theorem keep3_v23 : after (s3 (F := F)) V (Proc.devRef .tc main_v23) = V (Proc.devRef .tc main_v23) := by
  after_results_simp
theorem keep3_v46 : after (s3 (F := F)) V (Proc.devRef .tc main_v46) = V (Proc.devRef .tc main_v46) := by
  after_results_simp
theorem keep3_v89 : after (s3 (F := F)) V (Proc.devRef .tc main_v89) = V (Proc.devRef .tc main_v89) := by
  after_results_simp
theorem new3_v132 (h : St3 V x0 x1 x2 x3 x4 x5 x6 x7 x8 x9) :
    after (s3 (F := F)) V (Proc.devRef .tc main_v132) = ReadP.val_main_v132 (F := F) x0 x1 x2 x3 x4 x5 x6 x7 := by
  after_results_simp
  simp only [h.a0, h.a1, h.a2, h.a3, h.a4, h.a5, h.a6, h.a7, h.a8, h.a9, h.v15, h.v23, h.v46, h.v89, h.v109]
  rfl
theorem new3_v152 (h : St3 V x0 x1 x2 x3 x4 x5 x6 x7 x8 x9) :
    after (s3 (F := F)) V (Proc.devRef .tc main_v152) = ReadP.val_main_v152 (F := F) x0 x1 x2 x3 x4 x5 x6 x7 := by
  after_results_simp
  simp only [h.a0, h.a1, h.a2, h.a3, h.a4, h.a5, h.a6, h.a7, h.a8, h.a9, h.v15, h.v23, h.v46, h.v89, h.v109]
  rfl
/-- Piece 3 takes the buffers from one stage to the next. -/
theorem step3 (h : St3 V x0 x1 x2 x3 x4 x5 x6 x7 x8 x9) : St4 (after (s3 (F := F)) V) x0 x1 x2 x3 x4 x5 x6 x7 x8 x9 :=
  ⟨(keep3_a0 V).trans h.a0,
   (keep3_a1 V).trans h.a1,
   (keep3_a2 V).trans h.a2,
   (keep3_a3 V).trans h.a3,
   (keep3_a4 V).trans h.a4,
   (keep3_a5 V).trans h.a5,
   (keep3_a6 V).trans h.a6,
   (keep3_a7 V).trans h.a7,
   (keep3_a8 V).trans h.a8,
   (keep3_a9 V).trans h.a9,
   (keep3_v15 V).trans h.v15,
   (keep3_v23 V).trans h.v23,
   (keep3_v46 V).trans h.v46,
   (keep3_v89 V).trans h.v89,
   new3_v132 V x0 x1 x2 x3 x4 x5 x6 x7 x8 x9 h,
   new3_v152 V x0 x1 x2 x3 x4 x5 x6 x7 x8 x9 h⟩

/-! ### Piece 4 -/

theorem keep4_a0 : after (s4 (F := F)) V (Proc.devRef .tc main_arg0) = V (Proc.devRef .tc main_arg0) := by
  after_results_simp
theorem keep4_a1 : after (s4 (F := F)) V (Proc.devRef .tc main_arg1) = V (Proc.devRef .tc main_arg1) := by
  after_results_simp
theorem keep4_a2 : after (s4 (F := F)) V (Proc.devRef .tc main_arg2) = V (Proc.devRef .tc main_arg2) := by
  after_results_simp
theorem keep4_a3 : after (s4 (F := F)) V (Proc.devRef .tc main_arg3) = V (Proc.devRef .tc main_arg3) := by
  after_results_simp
theorem keep4_a4 : after (s4 (F := F)) V (Proc.devRef .tc main_arg4) = V (Proc.devRef .tc main_arg4) := by
  after_results_simp
theorem keep4_a5 : after (s4 (F := F)) V (Proc.devRef .tc main_arg5) = V (Proc.devRef .tc main_arg5) := by
  after_results_simp
theorem keep4_a6 : after (s4 (F := F)) V (Proc.devRef .tc main_arg6) = V (Proc.devRef .tc main_arg6) := by
  after_results_simp
theorem keep4_a7 : after (s4 (F := F)) V (Proc.devRef .tc main_arg7) = V (Proc.devRef .tc main_arg7) := by
  after_results_simp
theorem keep4_a8 : after (s4 (F := F)) V (Proc.devRef .tc main_arg8) = V (Proc.devRef .tc main_arg8) := by
  after_results_simp
theorem keep4_a9 : after (s4 (F := F)) V (Proc.devRef .tc main_arg9) = V (Proc.devRef .tc main_arg9) := by
  after_results_simp
theorem keep4_v46 : after (s4 (F := F)) V (Proc.devRef .tc main_v46) = V (Proc.devRef .tc main_v46) := by
  after_results_simp
theorem keep4_v89 : after (s4 (F := F)) V (Proc.devRef .tc main_v89) = V (Proc.devRef .tc main_v89) := by
  after_results_simp
theorem keep4_v132 : after (s4 (F := F)) V (Proc.devRef .tc main_v132) = V (Proc.devRef .tc main_v132) := by
  after_results_simp
theorem new4_v175 (h : St4 V x0 x1 x2 x3 x4 x5 x6 x7 x8 x9) :
    after (s4 (F := F)) V (Proc.devRef .tc main_v175) = ReadP.val_main_v175 (F := F) x0 x1 x2 x3 x4 x5 x6 x7 := by
  after_results_simp
  simp only [h.a0, h.a1, h.a2, h.a3, h.a4, h.a5, h.a6, h.a7, h.a8, h.a9, h.v15, h.v23, h.v46, h.v89, h.v132, h.v152]
  rfl
theorem new4_v195 (h : St4 V x0 x1 x2 x3 x4 x5 x6 x7 x8 x9) :
    after (s4 (F := F)) V (Proc.devRef .tc main_v195) = ReadP.val_main_v195 (F := F) x0 x1 x2 x3 x4 x5 x6 x7 := by
  after_results_simp
  simp only [h.a0, h.a1, h.a2, h.a3, h.a4, h.a5, h.a6, h.a7, h.a8, h.a9, h.v15, h.v23, h.v46, h.v89, h.v132, h.v152]
  rfl
/-- Piece 4 takes the buffers from one stage to the next. -/
theorem step4 (h : St4 V x0 x1 x2 x3 x4 x5 x6 x7 x8 x9) : St5 (after (s4 (F := F)) V) x0 x1 x2 x3 x4 x5 x6 x7 x8 x9 :=
  ⟨(keep4_a0 V).trans h.a0,
   (keep4_a1 V).trans h.a1,
   (keep4_a2 V).trans h.a2,
   (keep4_a3 V).trans h.a3,
   (keep4_a4 V).trans h.a4,
   (keep4_a5 V).trans h.a5,
   (keep4_a6 V).trans h.a6,
   (keep4_a7 V).trans h.a7,
   (keep4_a8 V).trans h.a8,
   (keep4_a9 V).trans h.a9,
   (keep4_v46 V).trans h.v46,
   (keep4_v89 V).trans h.v89,
   (keep4_v132 V).trans h.v132,
   new4_v175 V x0 x1 x2 x3 x4 x5 x6 x7 x8 x9 h,
   new4_v195 V x0 x1 x2 x3 x4 x5 x6 x7 x8 x9 h⟩

/-! ### Piece 5 -/

theorem keep5_a0 : after (s5 (F := F)) V (Proc.devRef .tc main_arg0) = V (Proc.devRef .tc main_arg0) := by
  after_results_simp
theorem keep5_a1 : after (s5 (F := F)) V (Proc.devRef .tc main_arg1) = V (Proc.devRef .tc main_arg1) := by
  after_results_simp
theorem keep5_a2 : after (s5 (F := F)) V (Proc.devRef .tc main_arg2) = V (Proc.devRef .tc main_arg2) := by
  after_results_simp
theorem keep5_a3 : after (s5 (F := F)) V (Proc.devRef .tc main_arg3) = V (Proc.devRef .tc main_arg3) := by
  after_results_simp
theorem keep5_a4 : after (s5 (F := F)) V (Proc.devRef .tc main_arg4) = V (Proc.devRef .tc main_arg4) := by
  after_results_simp
theorem keep5_a5 : after (s5 (F := F)) V (Proc.devRef .tc main_arg5) = V (Proc.devRef .tc main_arg5) := by
  after_results_simp
theorem keep5_a6 : after (s5 (F := F)) V (Proc.devRef .tc main_arg6) = V (Proc.devRef .tc main_arg6) := by
  after_results_simp
theorem keep5_a7 : after (s5 (F := F)) V (Proc.devRef .tc main_arg7) = V (Proc.devRef .tc main_arg7) := by
  after_results_simp
theorem keep5_a8 : after (s5 (F := F)) V (Proc.devRef .tc main_arg8) = V (Proc.devRef .tc main_arg8) := by
  after_results_simp
theorem keep5_a9 : after (s5 (F := F)) V (Proc.devRef .tc main_arg9) = V (Proc.devRef .tc main_arg9) := by
  after_results_simp
theorem new5_v199 (h : St5 V x0 x1 x2 x3 x4 x5 x6 x7 x8 x9) :
    after (s5 (F := F)) V (Proc.devRef .tc main_v199) = ReadP.val_main_v199 (F := F) x0 x1 x2 x3 x4 x5 x6 x7 x8 x9 := by
  after_results_simp
  simp only [h.a0, h.a1, h.a2, h.a3, h.a4, h.a5, h.a6, h.a7, h.a8, h.a9, h.v46, h.v89, h.v132, h.v175, h.v195]
  rfl
theorem new5_v200 (h : St5 V x0 x1 x2 x3 x4 x5 x6 x7 x8 x9) :
    after (s5 (F := F)) V (Proc.devRef .tc main_v200) = ReadP.val_main_v200 (F := F) x0 x1 x2 x3 := by
  after_results_simp
  simp only [h.a0, h.a1, h.a2, h.a3, h.a4, h.a5, h.a6, h.a7, h.a8, h.a9, h.v46, h.v89, h.v132, h.v175, h.v195]
  rfl
theorem new5_v201 (h : St5 V x0 x1 x2 x3 x4 x5 x6 x7 x8 x9) :
    after (s5 (F := F)) V (Proc.devRef .tc main_v201) = ReadP.val_main_v201 (F := F) x0 x1 x2 x3 x4 x5 x6 x7 := by
  after_results_simp
  simp only [h.a0, h.a1, h.a2, h.a3, h.a4, h.a5, h.a6, h.a7, h.a8, h.a9, h.v46, h.v89, h.v132, h.v175, h.v195]
  rfl
theorem new5_v202 (h : St5 V x0 x1 x2 x3 x4 x5 x6 x7 x8 x9) :
    after (s5 (F := F)) V (Proc.devRef .tc main_v202) = ReadP.val_main_v202 (F := F) x0 x1 x2 x3 x4 x5 x6 x7 := by
  after_results_simp
  simp only [h.a0, h.a1, h.a2, h.a3, h.a4, h.a5, h.a6, h.a7, h.a8, h.a9, h.v46, h.v89, h.v132, h.v175, h.v195]
  rfl
theorem new5_v203 (h : St5 V x0 x1 x2 x3 x4 x5 x6 x7 x8 x9) :
    after (s5 (F := F)) V (Proc.devRef .tc main_v203) = ReadP.val_main_v203 (F := F) x0 x1 x2 x3 x4 x5 x6 x7 := by
  after_results_simp
  simp only [h.a0, h.a1, h.a2, h.a3, h.a4, h.a5, h.a6, h.a7, h.a8, h.a9, h.v46, h.v89, h.v132, h.v175, h.v195]
  rfl
/-- Piece 5 takes the buffers from one stage to the next. -/
theorem step5 (h : St5 V x0 x1 x2 x3 x4 x5 x6 x7 x8 x9) : St6 (after (s5 (F := F)) V) x0 x1 x2 x3 x4 x5 x6 x7 x8 x9 :=
  ⟨(keep5_a0 V).trans h.a0,
   (keep5_a1 V).trans h.a1,
   (keep5_a2 V).trans h.a2,
   (keep5_a3 V).trans h.a3,
   (keep5_a4 V).trans h.a4,
   (keep5_a5 V).trans h.a5,
   (keep5_a6 V).trans h.a6,
   (keep5_a7 V).trans h.a7,
   (keep5_a8 V).trans h.a8,
   (keep5_a9 V).trans h.a9,
   new5_v199 V x0 x1 x2 x3 x4 x5 x6 x7 x8 x9 h,
   new5_v200 V x0 x1 x2 x3 x4 x5 x6 x7 x8 x9 h,
   new5_v201 V x0 x1 x2 x3 x4 x5 x6 x7 x8 x9 h,
   new5_v202 V x0 x1 x2 x3 x4 x5 x6 x7 x8 x9 h,
   new5_v203 V x0 x1 x2 x3 x4 x5 x6 x7 x8 x9 h⟩

/-! ### Piece 6 -/

theorem keep6_a0 : after (s6 (F := F)) V (Proc.devRef .tc main_arg0) = V (Proc.devRef .tc main_arg0) := by
  after_results_simp
theorem keep6_a1 : after (s6 (F := F)) V (Proc.devRef .tc main_arg1) = V (Proc.devRef .tc main_arg1) := by
  after_results_simp
theorem keep6_a2 : after (s6 (F := F)) V (Proc.devRef .tc main_arg2) = V (Proc.devRef .tc main_arg2) := by
  after_results_simp
theorem keep6_a3 : after (s6 (F := F)) V (Proc.devRef .tc main_arg3) = V (Proc.devRef .tc main_arg3) := by
  after_results_simp
theorem keep6_a4 : after (s6 (F := F)) V (Proc.devRef .tc main_arg4) = V (Proc.devRef .tc main_arg4) := by
  after_results_simp
theorem keep6_a5 : after (s6 (F := F)) V (Proc.devRef .tc main_arg5) = V (Proc.devRef .tc main_arg5) := by
  after_results_simp
theorem keep6_a6 : after (s6 (F := F)) V (Proc.devRef .tc main_arg6) = V (Proc.devRef .tc main_arg6) := by
  after_results_simp
theorem keep6_a7 : after (s6 (F := F)) V (Proc.devRef .tc main_arg7) = V (Proc.devRef .tc main_arg7) := by
  after_results_simp
theorem keep6_a8 : after (s6 (F := F)) V (Proc.devRef .tc main_arg8) = V (Proc.devRef .tc main_arg8) := by
  after_results_simp
theorem keep6_a9 : after (s6 (F := F)) V (Proc.devRef .tc main_arg9) = V (Proc.devRef .tc main_arg9) := by
  after_results_simp
theorem keep6_v199 : after (s6 (F := F)) V (Proc.devRef .tc main_v199) = V (Proc.devRef .tc main_v199) := by
  after_results_simp
theorem new6_v204 (h : St6 V x0 x1 x2 x3 x4 x5 x6 x7 x8 x9) :
    after (s6 (F := F)) V (Proc.devRef .tc main_v204) = ReadP.val_main_v204 (F := F) x0 x1 x2 x3 x4 x5 x6 x7 := by
  simp only [after_cons, after_nil]
  rw [nary_result]
  show concatenate S4x64x512x512 0 [⟨S1x64x512x512, V (Proc.devRef .tc main_v200)⟩, ⟨S1x64x512x512, V (Proc.devRef .tc main_v201)⟩,
    ⟨S1x64x512x512, V (Proc.devRef .tc main_v202)⟩, ⟨S1x64x512x512, V (Proc.devRef .tc main_v203)⟩] concatenates_S1x64x512x512_S1x64x512x512_S1x64x512x512_S1x64x512x512_S4x64x512x512_d0 = _
  rw [h.v200, h.v201, h.v202, h.v203]
  rfl
/-- Piece 6 takes the buffers from one stage to the next. -/
theorem step6 (h : St6 V x0 x1 x2 x3 x4 x5 x6 x7 x8 x9) : St7 (after (s6 (F := F)) V) x0 x1 x2 x3 x4 x5 x6 x7 x8 x9 :=
  ⟨(keep6_a0 V).trans h.a0,
   (keep6_a1 V).trans h.a1,
   (keep6_a2 V).trans h.a2,
   (keep6_a3 V).trans h.a3,
   (keep6_a4 V).trans h.a4,
   (keep6_a5 V).trans h.a5,
   (keep6_a6 V).trans h.a6,
   (keep6_a7 V).trans h.a7,
   (keep6_a8 V).trans h.a8,
   (keep6_a9 V).trans h.a9,
   (keep6_v199 V).trans h.v199,
   new6_v204 V x0 x1 x2 x3 x4 x5 x6 x7 x8 x9 h⟩

/-! ## The whole line -/

/-- The fold over two lines in a row. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

/-- @main's 240 operations, in order (a called function's operations stand in its call's place). -/
abbrev ops : List (HloOp τ sig (Elt F)) := s0 ++ (s1 ++ (s2 ++ (s3 ++ (s4 ++ (s5 ++ s6)))))

theorem after_ops : after (ops (F := F)) V = after s6 (after s5 (after s4 (after s3 (after s2 (after s1 (after s0 V)))))) := by
  unfold ops
  rw [after_append', after_append', after_append', after_append', after_append', after_append']

/-- From contents holding the arguments, the line ends with the two results at the reference's last stages. -/
theorem chain (h : St0 V x0 x1 x2 x3 x4 x5 x6 x7 x8 x9) : St7 (after (ops (F := F)) V) x0 x1 x2 x3 x4 x5 x6 x7 x8 x9 := by
  rw [after_ops]
  exact step6 _ x0 x1 x2 x3 x4 x5 x6 x7 x8 x9 (step5 _ x0 x1 x2 x3 x4 x5 x6 x7 x8 x9 (step4 _ x0 x1 x2 x3 x4 x5 x6 x7 x8 x9 (step3 _ x0 x1 x2 x3 x4 x5 x6 x7 x8 x9 (step2 _ x0 x1 x2 x3 x4 x5 x6 x7 x8 x9 (step1 _ x0 x1 x2 x3 x4 x5 x6 x7 x8 x9 (step0 V x0 x1 x2 x3 x4 x5 x6 x7 x8 x9 h))))))

end Chain

/-! ## The run -/

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem s0_sub : (s0 : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., unary_bufs_sub .., ternary_bufs_sub .., nullary_bufs_sub .., nullary_bufs_sub .., nullary_bufs_sub .., unary_bufs_sub .., binary_bufs_sub .., binary_bufs_sub .., unary_bufs_sub .., nullary_bufs_sub .., unary_bufs_sub .., binary_bufs_sub ..⟩
theorem s1_sub : (s1 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., unary_bufs_sub .., binary_bufs_sub .., binary_bufs_sub .., nullary_bufs_sub .., binary_bufs_sub .., unary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., binary_bufs_sub ..⟩
theorem s2_sub : (s2 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., unary_bufs_sub .., binary_bufs_sub .., binary_bufs_sub .., nullary_bufs_sub .., binary_bufs_sub .., unary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., binary_bufs_sub ..⟩
theorem s3_sub : (s3 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., unary_bufs_sub .., binary_bufs_sub .., binary_bufs_sub .., nullary_bufs_sub .., binary_bufs_sub .., unary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., binary_bufs_sub ..⟩
theorem s4_sub : (s4 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., unary_bufs_sub .., binary_bufs_sub .., binary_bufs_sub .., nullary_bufs_sub .., binary_bufs_sub .., unary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., binary_bufs_sub ..⟩
theorem s5_sub : (s5 : List (HloOp τ sig (Elt F))).Forall fun op => op.bufs ⊆ tcRefs τ sig :=
  ⟨binary_bufs_sub .., unary_bufs_sub .., unary_bufs_sub .., binary_bufs_sub .., unary_bufs_sub .., unary_bufs_sub .., unary_bufs_sub .., unary_bufs_sub ..⟩
theorem s6_sub : (s6 : List (HloOp τ sig (Elt F))).Forall fun op => op.bufs ⊆ tcRefs τ sig :=
  nary_bufs_sub ..

theorem forall_append {α : Type} {p : α → Prop} {l₁ l₂ : List α} (h₁ : l₁.Forall p) (h₂ : l₂.Forall p) : (l₁ ++ l₂).Forall p :=
  List.forall_iff_forall_mem.2 fun a ha => (List.mem_append.1 ha).elim
    (List.forall_iff_forall_mem.1 h₁ a) (List.forall_iff_forall_mem.1 h₂ a)

theorem ops_sub : (ops : List (HloOp τ sig (Elt F))).Forall fun op => op.bufs ⊆ tcRefs τ sig :=
  forall_append s0_sub (forall_append s1_sub (forall_append s2_sub (forall_append s3_sub (forall_append s4_sub (forall_append s5_sub s6_sub)))))

theorem s0_fresh : ∀ op ∈ (s0 : List (HloOp τ sig (Elt F))), op.fresh = ∅ := by
  intro _ h; (repeat (cases h with | head => rfl | tail _ h => ?_)); exact nomatch h
theorem s1_fresh : ∀ op ∈ (s1 : List (HloOp τ sig (Elt F))), op.fresh = ∅ := by
  intro _ h; (repeat (cases h with | head => rfl | tail _ h => ?_)); exact nomatch h
theorem s2_fresh : ∀ op ∈ (s2 : List (HloOp τ sig (Elt F))), op.fresh = ∅ := by
  intro _ h; (repeat (cases h with | head => rfl | tail _ h => ?_)); exact nomatch h
theorem s3_fresh : ∀ op ∈ (s3 : List (HloOp τ sig (Elt F))), op.fresh = ∅ := by
  intro _ h; (repeat (cases h with | head => rfl | tail _ h => ?_)); exact nomatch h
theorem s4_fresh : ∀ op ∈ (s4 : List (HloOp τ sig (Elt F))), op.fresh = ∅ := by
  intro _ h; (repeat (cases h with | head => rfl | tail _ h => ?_)); exact nomatch h
theorem s5_fresh : ∀ op ∈ (s5 : List (HloOp τ sig (Elt F))), op.fresh = ∅ := by
  intro _ h; (repeat (cases h with | head => rfl | tail _ h => ?_)); exact nomatch h
theorem s6_fresh : ∀ op ∈ (s6 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  rcases List.mem_append.1 h with h | h
  · exact s0_fresh op h
  rcases List.mem_append.1 h with h | h
  · exact s1_fresh op h
  rcases List.mem_append.1 h with h | h
  · exact s2_fresh op h
  rcases List.mem_append.1 h with h | h
  · exact s3_fresh op h
  rcases List.mem_append.1 h with h | h
  · exact s4_fresh op h
  rcases List.mem_append.1 h with h | h
  · exact s5_fresh op h
  · exact s6_fresh op h

/-- On every device, for any float values, from any memory with zero counters: every weakly fair execution of
    @main terminates with each result at the reference's stage of the arguments' launch contents and the arguments
    unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v199) = ReadP.val_main_v199 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v204) = ReadP.val_main_v204 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run (defs (F := F)) _ _).mono (fun _ h c =>
      have H := chain (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
        ⟨rfl, rfl, rfl, rfl, rfl, rfl, rfl, rfl, rfl, rfl⟩
      ⟨(h c main_v199).trans H.v199, (h c main_v204).trans H.v204,
       (h c main_arg0).trans H.a0, (h c main_arg1).trans H.a1, (h c main_arg2).trans H.a2, (h c main_arg3).trans H.a3, (h c main_arg4).trans H.a4, (h c main_arg5).trans H.a5, (h c main_arg6).trans H.a6, (h c main_arg7).trans H.a7, (h c main_arg8).trans H.a8, (h c main_arg9).trans H.a9⟩)
    (run_seq scopedRefs_eq scopedSems_eq (defs (F := F)) main (fun _ => ops) main_eq (fun _ => ops_sub) m ρ (fun _ => ops_fresh))

end Cert.Gat.RefRun
-- ==== Proof.lean ====
/-
  The kernel and the reference compute the same network, and the kernel is its own idealization.

  Both programs take a batch of 64 graphs (node features [64, 512, 256], weighted adjacency [64, 512, 512]) and the
  weights of a four-layer attention network with a final dense map, and return the final features and the four
  layers' normalised attention weights, stacked. The specification (`Spec`) writes that network once on the extended
  reals; `outX` and `outA` are its two results as whole arrays.

  The kernel side: a grid point holds two graphs; the body's stored values are the layers of `KDefs` (`KPay`), which read
  entry by entry are the specification's (`KLayer`), so each result block is one function of the input blocks
  (`KBlk`), each grid point writes back its block of `outX` and `outA`, the blocks cover, and the run ends there
  (`KRun`, over the generated frame run). The reference side: its operations, read at an index, are the same sums in
  the same order; the only algebra is on the unnormalised weights, where the reference adds 1e-5 times the identity
  matrix and multiplies by the adjacency with its diagonal set to one (a scatter: `RefAdj`), while the kernel selects
  on the diagonal: (s + e·1)·1 = s + e on it and (s + e·0)·a = s·a off it, on every extended real (`RefLayers`); its run
  is read back piece by piece (`RefRun`). No finiteness of the inputs is used.

  The statement's ledger of idealization rewrites is empty for this kernel: its preservation conjunct is `True`.
-/
import proofs.«111148_j14611478741207_2_alg».proof.Defs
import proofs.«111148_j14611478741207_2_alg».proof.Proof.Gen.Kernel
import proofs.«111148_j14611478741207_2_alg».proof.Proof.Gen.Kernel.Skeleton
import proofs.«111148_j14611478741207_2_alg».proof.Proof.Gen.Kernel.Launch
import proofs.«111148_j14611478741207_2_alg».proof.Proof.Gen.Kernel.Points
import proofs.«111148_j14611478741207_2_alg».proof.Proof.Gen.Kernel.Frame
import proofs.«111148_j14611478741207_2_alg».proof.Proof.Gen.KernelIdeal
import proofs.«111148_j14611478741207_2_alg».proof.Proof.Gen.KernelIdeal.Skeleton
import proofs.«111148_j14611478741207_2_alg».proof.Proof.Gen.KernelIdeal.Launch
import proofs.«111148_j14611478741207_2_alg».proof.Proof.Gen.KernelIdeal.Points
import proofs.«111148_j14611478741207_2_alg».proof.Proof.Gen.KernelIdeal.Frame
import proofs.«111148_j14611478741207_2_alg».proof.Proof.Gen.ReferenceIdeal
import proofs.«111148_j14611478741207_2_alg».proof.Proof.Gen.Pre_finite_inputs
import proofs.«111148_j14611478741207_2_alg».proof.Proof.Gen.KernelIdeal.Value
import proofs.«111148_j14611478741207_2_alg».proof.Proof.KRun
import proofs.«111148_j14611478741207_2_alg».proof.Proof.RefLayers
import proofs.«111148_j14611478741207_2_alg».proof.Proof.RefAdj2
import proofs.«111148_j14611478741207_2_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ

/-- The reference's frame is its run with the results dropped. -/
theorem frame_ri : Cert.frame_ReferenceIdeal := fun m ρ _ =>
  (θ_run (Cert.ReferenceIdeal.defs (F := Ideal)) _ _).mono (fun _ h c => (h c).2.2) (Cert.Gat.RefRun.run (F := Ideal) m ρ)

/-- From memories that agree on the arguments, both programs end with `outX` and `outA` of the arguments. -/
theorem algebraic : Cert.algebraic_KernelIdeal_ReferenceIdeal := by
  intro m ρ m' ρ' _ hagree
  refine ⟨fun c => Cert.Gat.K.resX m c, fun c => Cert.Gat.K.resA m c, Cert.Gat.K.run m ρ, ?_⟩
  refine (θ_run (Cert.ReferenceIdeal.defs (F := Ideal)) _ _).mono (fun _ h c => ⟨(h c).1.trans ?_, (h c).2.1.trans ?_, (h c).2.2⟩)
    (Cert.Gat.RefRun.run (F := Ideal) m' ρ')
  · obtain ⟨h0, h1, h2, h3, h4, h5, h6, h7, h8, h9⟩ := hagree c
    rw [Cert.RefLayers.ref_outX _ _ _ _ _ _ _ _ _ _ (Cert.Gat.RefAdj.adj_diag _), h0, h1, h2, h3, h4, h5, h6, h7, h8, h9]
    rfl
  · obtain ⟨h0, h1, h2, h3, h4, h5, h6, h7, h8, h9⟩ := hagree c
    rw [Cert.RefLayers.ref_outA _ _ _ _ _ _ _ _ (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (Cert.Gat.RefAdj.adj_diag _), h0, h1, h2, h3, h4, h5, h6, h7, h8, h9]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
